-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v119_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S6x128x128 : Shape := ⟨3, ![6, 128, 128]⟩
abbrev S6x128 : Shape := ⟨2, ![6, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S800000 .f32) (main_arg2 : IVec S800000 32) (main_arg3 : IVec S800000 32) (main_arg4 : FVec F S6x128x128 .f32) (main_arg5 : FVec F S6x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S6x128x128 .f32 := Host.absf main_arg4
  let main_cst_2 : FVec F S_ .f32 := constant S_ .f32 0x7F800000#32
  let main_v10 : FVec F S6x128x128 .f32 := broadcastInDim S6x128x128 ![] bcast_S_S6x128x128 main_cst_2
  let main_v11 : IVec S6x128x128 1 := cmpf .olt main_v9 main_v10
  let main_c_3 : IVec S_ 1 := constantI S_ 1 1#1
  let main_v12 : IVec S_ 1 := (fun x v => Host.reduce IntOp.andi x v reducesTo_S6x128x128_S_d0_1_2 h_S_) main_v11 main_c_3
  let main_v13 : IVec S_ 1 := andi main_v8 main_v12
  let main_v14 : FVec F S6x128 .f32 := Host.absf main_arg5
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S6x128x128 : Shape := ⟨3, ![6, 128, 128]⟩
abbrev S6x128 : Shape := ⟨2, ![6, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S1x128x128 : Shape := ⟨3, ![1, 128, 128]⟩
abbrev S128x128 : Shape := ⟨2, ![128, 128]⟩
abbrev S2000x128 : Shape := ⟨2, ![2000, 128]⟩
abbrev S800000x128 : Shape := ⟨2, ![800000, 128]⟩
abbrev S50000x1 : Shape := ⟨2, ![50000, 1]⟩
abbrev S2000x1 : Shape := ⟨2, ![2000, 1]⟩

abbrev nBuf : Space → Nat
  | .hbm => 152
  | .vmem => 84
  | .smem => 0
  | _ => 0

abbrev hbmTy0_0 (i : Nat) : BufTy := match i % 128 with
  | 0 => ⟨S50000x128, .f32⟩
  | 1 => ⟨S800000, .f32⟩
  | 2 => ⟨S800000, .i32⟩
  | 3 => ⟨S800000, .i32⟩
  | 4 => ⟨S6x128x128, .f32⟩
  | 5 => ⟨S6x128, .f32⟩
  | 6 => ⟨S128, .f32⟩
  | 7 => ⟨S_, .f32⟩
  | 8 => ⟨S50000, .f32⟩
  | 9 => ⟨S800000x1, .i32⟩
  | 10 => ⟨S50000, .f32⟩
  | 11 => ⟨S_, .f32⟩
  | 12 => ⟨S_, .f32⟩
  | 13 => ⟨S800000, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S50000, .f32⟩
  | 22 => ⟨S50000, .f32⟩
  | 23 => ⟨S800000, .f32⟩
  | 24 => ⟨S800000, .f32⟩
  | 25 => ⟨S1x128, .f32⟩
  | 26 => ⟨S128, .f32⟩
  | 27 => ⟨S1x128x128, .f32⟩
  | 28 => ⟨S128x128, .f32⟩
  | 29 => ⟨S1x128, .f32⟩
  | 30 => ⟨S50000x128, .f32⟩
  | 31 => ⟨S800000x1, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x128, .f32⟩
  | 42 => ⟨S800000x128, .f32⟩
  | 43 => ⟨S_, .f32⟩
  | 44 => ⟨S50000x128, .f32⟩
  | 45 => ⟨S800000x1, .i32⟩
  | 46 => ⟨S50000x128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S50000x1, .f32⟩
  | 53 => ⟨S50000x128, .f32⟩
  | 54 => ⟨S50000x128, .f32⟩
  | 55 => ⟨S800000x1, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S800000x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S1x128, .f32⟩
  | 72 => ⟨S128, .f32⟩
  | 73 => ⟨S1x128x128, .f32⟩
  | 74 => ⟨S128x128, .f32⟩
  | 75 => ⟨S1x128, .f32⟩
  | 76 => ⟨S50000x1, .f32⟩
  | 77 => ⟨S50000x128, .f32⟩
  | 78 => ⟨S50000x128, .f32⟩
  | 79 => ⟨S800000x1, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S800000x128, .f32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S1x128, .f32⟩
  | 96 => ⟨S128, .f32⟩
  | 97 => ⟨S1x128x128, .f32⟩
  | 98 => ⟨S128x128, .f32⟩
  | 99 => ⟨S1x128, .f32⟩
  | 100 => ⟨S50000x1, .f32⟩
  | 101 => ⟨S50000x128, .f32⟩
  | 102 => ⟨S50000x128, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x128, .f32⟩
  | 114 => ⟨S800000x128, .f32⟩
  | 115 => ⟨S_, .f32⟩
  | 116 => ⟨S50000x128, .f32⟩
  | 117 => ⟨S800000x1, .i32⟩
  | 118 => ⟨S50000x128, .f32⟩
  | 119 => ⟨S1x128, .f32⟩
  | 120 => ⟨S128, .f32⟩
  | 121 => ⟨S1x128x128, .f32⟩
  | 122 => ⟨S128x128, .f32⟩
  | 123 => ⟨S1x128, .f32⟩
  | 124 => ⟨S50000x1, .f32⟩
  | 125 => ⟨S50000x128, .f32⟩
  | 126 => ⟨S50000x128, .f32⟩
  | 127 => ⟨S800000x1, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S800000x128, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S1x128, .f32⟩
  | 16 => ⟨S128, .f32⟩
  | 17 => ⟨S128, .f32⟩
  | 18 => ⟨S1x128x128, .f32⟩
  | 19 => ⟨S128x128, .f32⟩
  | 20 => ⟨S1x128, .f32⟩
  | 21 => ⟨S50000x1, .f32⟩
  | 22 => ⟨S50000x128, .f32⟩
  | 23 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x1, .f32⟩
  | .local _ .vmem, ⟨41, _⟩ => ⟨S2000x1, .f32⟩
  | .local _ .vmem, ⟨42, _⟩ => ⟨S2000x128, .f32⟩
  | .local _ .vmem, ⟨43, _⟩ => ⟨S2000x128, .f32⟩
  | .local _ .vmem, ⟨44, _⟩ => ⟨S128x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x128, .f32⟩
  | .local _ .vmem, ⟨53, _⟩ => ⟨S2000x128, .f32⟩
  | .local _ .vmem, ⟨54, _⟩ => ⟨S2000x128, .f32⟩
  | .local _ .vmem, ⟨55, _⟩ => ⟨S2000x128, .f32⟩
  | .local _ .vmem, ⟨56, _⟩ => ⟨S2000x1, .f32⟩
  | .local _ .vmem, ⟨57, _⟩ => ⟨S2000x1, .f32⟩
  | .local _ .vmem, ⟨58, _⟩ => ⟨S2000x128, .f32⟩
  | .local _ .vmem, ⟨59, _⟩ => ⟨S2000x128, .f32⟩
  | .local _ .vmem, ⟨60, _⟩ => ⟨S128x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S2000x128, .f32⟩
  | .local _ .vmem, ⟨67, _⟩ => ⟨S2000x128, .f32⟩
  | .local _ .vmem, ⟨68, _⟩ => ⟨S2000x128, .f32⟩
  | .local _ .vmem, ⟨69, _⟩ => ⟨S2000x128, .f32⟩
  | .local _ .vmem, ⟨70, _⟩ => ⟨S2000x128, .f32⟩
  | .local _ .vmem, ⟨71, _⟩ => ⟨S2000x128, .f32⟩
  | .local _ .vmem, ⟨72, _⟩ => ⟨S2000x1, .f32⟩
  | .local _ .vmem, ⟨73, _⟩ => ⟨S2000x1, .f32⟩
  | .local _ .vmem, ⟨74, _⟩ => ⟨S2000x128, .f32⟩
  | .local _ .vmem, ⟨75, _⟩ => ⟨S2000x128, .f32⟩
  | .local _ .vmem, ⟨76, _⟩ => ⟨S128x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58_0 : Ref sig .tc := ⟨.hbm, 77, rfl⟩
abbrev main_v58_1 : Ref sig .tc := ⟨.hbm, 78, rfl⟩
abbrev main_v59 : Ref sig .tc := ⟨.hbm, 79, rfl⟩
abbrev main_c_9 : Ref sig .tc := ⟨.hbm, 80, rfl⟩
abbrev main_v60 : Ref sig .tc := ⟨.hbm, 81, rfl⟩
abbrev main_v61 : Ref sig .tc := ⟨.hbm, 82, rfl⟩
abbrev main_c_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78_0 : Ref sig .tc := ⟨.hbm, 101, rfl⟩
abbrev main_v78_1 : Ref sig .tc := ⟨.hbm, 102, rfl⟩
abbrev main_v79 : Ref sig .tc := ⟨.hbm, 103, rfl⟩
abbrev main_c_12 : Ref sig .tc := ⟨.hbm, 104, rfl⟩
abbrev main_v80 : Ref sig .tc := ⟨.hbm, 105, rfl⟩
abbrev main_v81 : Ref sig .tc := ⟨.hbm, 106, rfl⟩
abbrev main_c_13 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98_0 : Ref sig .tc := ⟨.hbm, 125, rfl⟩
abbrev main_v98_1 : Ref sig .tc := ⟨.hbm, 126, rfl⟩
abbrev main_v99 : Ref sig .tc := ⟨.hbm, 127, rfl⟩
abbrev main_c_15 : Ref sig .tc := ⟨.hbm, 128, rfl⟩
abbrev main_v100 : Ref sig .tc := ⟨.hbm, 129, rfl⟩
abbrev main_v101 : Ref sig .tc := ⟨.hbm, 130, rfl⟩
abbrev main_c_16 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_17 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119_0 : Ref sig .tc := ⟨.hbm, 150, rfl⟩
abbrev main_v119_1 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg6_1 : Ref sig .tc := ⟨.vmem, 47, rfl⟩
abbrev cc3_stg7_0 : Ref sig .tc := ⟨.vmem, 48, rfl⟩
abbrev cc3_stg7_1 : Ref sig .tc := ⟨.vmem, 49, rfl⟩
abbrev cc3_stg8_0 : Ref sig .tc := ⟨.vmem, 50, rfl⟩
abbrev cc3_stg8_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg2_1 : Ref sig .tc := ⟨.vmem, 57, rfl⟩
abbrev cc4_stg3_0 : Ref sig .tc := ⟨.vmem, 58, rfl⟩
abbrev cc4_stg3_1 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg6_1 : Ref sig .tc := ⟨.vmem, 63, rfl⟩
abbrev cc4_stg7_0 : Ref sig .tc := ⟨.vmem, 64, rfl⟩
abbrev cc4_stg7_1 : Ref sig .tc := ⟨.vmem, 65, rfl⟩
abbrev cc4_stg8_0 : Ref sig .tc := ⟨.vmem, 66, rfl⟩
abbrev cc4_stg8_1 : Ref sig .tc := ⟨.vmem, 67, rfl⟩
abbrev cc5_stg0_0 : Ref sig .tc := ⟨.vmem, 68, rfl⟩
abbrev cc5_stg0_1 : Ref sig .tc := ⟨.vmem, 69, rfl⟩
abbrev cc5_stg1_0 : Ref sig .tc := ⟨.vmem, 70, rfl⟩
abbrev cc5_stg1_1 : Ref sig .tc := ⟨.vmem, 71, rfl⟩
abbrev cc5_stg2_0 : Ref sig .tc := ⟨.vmem, 72, rfl⟩
abbrev cc5_stg2_1 : Ref sig .tc := ⟨.vmem, 73, rfl⟩
abbrev cc5_stg3_0 : Ref sig .tc := ⟨.vmem, 74, rfl⟩
abbrev cc5_stg3_1 : Ref sig .tc := ⟨.vmem, 75, rfl⟩
abbrev cc5_stg4_0 : Ref sig .tc := ⟨.vmem, 76, rfl⟩
abbrev cc5_stg5_0 : Ref sig .tc := ⟨.vmem, 77, rfl⟩
abbrev cc5_stg6_0 : Ref sig .tc := ⟨.vmem, 78, rfl⟩
abbrev cc5_stg6_1 : Ref sig .tc := ⟨.vmem, 79, rfl⟩
abbrev cc5_stg7_0 : Ref sig .tc := ⟨.vmem, 80, rfl⟩
abbrev cc5_stg7_1 : Ref sig .tc := ⟨.vmem, 81, rfl⟩
abbrev cc5_stg8_0 : Ref sig .tc := ⟨.vmem, 82, rfl⟩
abbrev cc5_stg8_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem5_0 : DmaSem sig := 45
abbrev cc3_sem6_0 : DmaSem sig := 46
abbrev cc3_sem6_1 : DmaSem sig := 47
abbrev cc3_sem7_0 : DmaSem sig := 48
abbrev cc3_sem7_1 : DmaSem sig := 49
abbrev cc3_sem8_0 : DmaSem sig := 50
abbrev cc3_sem8_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem2_1 : DmaSem sig := 57
abbrev cc4_sem3_0 : DmaSem sig := 58
abbrev cc4_sem3_1 : DmaSem sig := 59
abbrev cc4_sem4_0 : DmaSem sig := 60
abbrev cc4_sem5_0 : DmaSem sig := 61
abbrev cc4_sem6_0 : DmaSem sig := 62
abbrev cc4_sem6_1 : DmaSem sig := 63
abbrev cc4_sem7_0 : DmaSem sig := 64
abbrev cc4_sem7_1 : DmaSem sig := 65
abbrev cc4_sem8_0 : DmaSem sig := 66
abbrev cc4_sem8_1 : DmaSem sig := 67
abbrev cc5_sem0_0 : DmaSem sig := 68
abbrev cc5_sem0_1 : DmaSem sig := 69
abbrev cc5_sem1_0 : DmaSem sig := 70
abbrev cc5_sem1_1 : DmaSem sig := 71
abbrev cc5_sem2_0 : DmaSem sig := 72
abbrev cc5_sem2_1 : DmaSem sig := 73
abbrev cc5_sem3_0 : DmaSem sig := 74
abbrev cc5_sem3_1 : DmaSem sig := 75
abbrev cc5_sem4_0 : DmaSem sig := 76
abbrev cc5_sem5_0 : DmaSem sig := 77
abbrev cc5_sem6_0 : DmaSem sig := 78
abbrev cc5_sem6_1 : DmaSem sig := 79
abbrev cc5_sem7_0 : DmaSem sig := 80
abbrev cc5_sem7_1 : DmaSem sig := 81
abbrev cc5_sem8_0 : DmaSem sig := 82
abbrev cc5_sem8_1 : DmaSem sig := 83

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S2000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S2000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S2000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  reducesTo_S50000_S_d0 : S50000.ReducesTo [0] S_
  h_S_ : 0 < S_.numel
  reducesTo_S800000_S_d0 : S800000.ReducesTo [0] S_
  bcast_S_S800000 : S_.BroadcastsInDim S800000 (![] : Fin 0 → Fin S800000.rank)
  slices_S6x128_S1x128_0_0 : S6x128.Slices ![0, 0] S1x128
  shapeCasts_S1x128_S128 : S1x128.ShapeCasts S128
  slices_S6x128x128_S1x128x128_0_0_0 : S6x128x128.Slices ![0, 0, 0] S1x128x128
  shapeCasts_S1x128x128_S128x128 : S1x128x128.ShapeCasts S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S6x128_S1x128_1_0 : S6x128.Slices ![1, 0] S1x128
  slices_S6x128x128_S1x128x128_1_0_0 : S6x128x128.Slices ![1, 0, 0] S1x128x128
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S2000x128_S2000x128 : S2000x128.ShapeCasts S2000x128
  slices_S6x128_S1x128_2_0 : S6x128.Slices ![2, 0] S1x128
  slices_S6x128x128_S1x128x128_2_0_0 : S6x128x128.Slices ![2, 0, 0] S1x128x128
  slices_S6x128_S1x128_3_0 : S6x128.Slices ![3, 0] S1x128
  slices_S6x128x128_S1x128x128_3_0_0 : S6x128x128.Slices ![3, 0, 0] S1x128x128
  slices_S6x128_S1x128_4_0 : S6x128.Slices ![4, 0] S1x128
  slices_S6x128x128_S1x128x128_4_0_0 : S6x128x128.Slices ![4, 0, 0] S1x128x128
  slices_S6x128_S1x128_5_0 : S6x128.Slices ![5, 0] S1x128
  slices_S6x128x128_S1x128x128_5_0_0 : S6x128x128.Slices ![5, 0, 0] S1x128x128
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S50000x128.size a
  hwx2_8 : ∀ i : grid2.Coords, EltTy.bits .f32 = 32 ∨ (Rect.block (s := S50000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S50000x128.size a
  hwx3_7 : ∀ i : grid3.Coords, EltTy.bits .f32 = 32 ∨ (Rect.block (s := S50000x128) S2000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S50000x128.size a
  hwx3_8 : ∀ i : grid3.Coords, EltTy.bits .f32 = 32 ∨ (Rect.block (s := S50000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x128.size a ≤ S50000x128.size a
  hwx4_7 : ∀ i : grid4.Coords, EltTy.bits .f32 = 32 ∨ (Rect.block (s := S50000x128) S2000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x128.size a ≤ S50000x128.size a
  hwx4_8 : ∀ i : grid4.Coords, EltTy.bits .f32 = 32 ∨ (Rect.block (s := S50000x128) S2000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S50000x128.size a
  hwx5_7 : ∀ i : grid5.Coords, EltTy.bits .f32 = 32 ∨ (Rect.block (s := S50000x128) S2000x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x128.size a ≤ S50000x128.size a
  hwx5_8 : ∀ i : grid5.Coords, EltTy.bits .f32 = 32 ∨ (Rect.block (s := S50000x128) S2000x128.size (cc5_transform_8 i) (hinb5_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v38_1) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v38_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v55) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38_1) S2000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v58_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v58_1) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v58_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v77) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v71) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v75) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v58_1) S2000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v78_0) S2000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v78_1) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v78_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58_0) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v97) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v91) S2000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v95) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v78_1) S2000x128.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v98_0) S2000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v98_1) S2000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v98_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78_0) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v118) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v111) S2000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v116) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v117) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v98_1) S2000x128.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v119_0) S2000x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v119_1) S2000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where
  halias1_7 : Pipeline.Aliased win1 5 7
  halias2_8 : Pipeline.Aliased win2 6 8
  halias3_8 : Pipeline.Aliased win3 6 8
  halias4_8 : Pipeline.Aliased win4 6 8
  halias5_8 : Pipeline.Aliased win5 6 8

variable [Facts]
-- ==== ReferenceIdeal.lean ====
abbrev S50000x128 : Shape := ⟨2, ![50000, 128]⟩
abbrev S800000 : Shape := ⟨1, ![800000]⟩
abbrev S6x128x128 : Shape := ⟨3, ![6, 128, 128]⟩
abbrev S6x128 : Shape := ⟨2, ![6, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S1x128 : Shape := ⟨2, ![1, 128]⟩
abbrev S800000x128 : Shape := ⟨2, ![800000, 128]⟩
abbrev S50000x1 : Shape := ⟨2, ![50000, 1]⟩

abbrev nBuf : Space → Nat
  | .hbm => 203
  | .vmem => 0
  | .smem => 0
  | _ => 0

abbrev hbmTy0_0 (i : Nat) : BufTy := match i % 128 with
  | 0 => ⟨S50000x128, .f32⟩
  | 1 => ⟨S800000, .f32⟩
  | 2 => ⟨S800000, .i32⟩
  | 3 => ⟨S800000, .i32⟩
  | 4 => ⟨S6x128x128, .f32⟩
  | 5 => ⟨S6x128, .f32⟩
  | 6 => ⟨S128, .f32⟩
  | 7 => ⟨S_, .f32⟩
  | 8 => ⟨S50000, .f32⟩
  | 9 => ⟨S800000x1, .i32⟩
  | 10 => ⟨S50000, .f32⟩
  | 11 => ⟨S_, .f32⟩
  | 12 => ⟨S_, .f32⟩
  | 13 => ⟨S800000, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S1x128x128, .f32⟩
  | 22 => ⟨S128x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S800000x1, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S800000x128, .f32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S50000x1, .f32⟩
  | 46 => ⟨S50000x128, .f32⟩
  | 47 => ⟨S50000x128, .f32⟩
  | 48 => ⟨S50000x128, .f32⟩
  | 49 => ⟨S50000x128, .f32⟩
  | 50 => ⟨S50000x128, .f32⟩
  | 51 => ⟨S1x128x128, .f32⟩
  | 52 => ⟨S128x128, .f32⟩
  | 53 => ⟨S50000x128, .f32⟩
  | 54 => ⟨S50000x128, .f32⟩
  | 55 => ⟨S1x128, .f32⟩
  | 56 => ⟨S128, .f32⟩
  | 57 => ⟨S1x128, .f32⟩
  | 58 => ⟨S50000x128, .f32⟩
  | 59 => ⟨S50000x128, .f32⟩
  | 60 => ⟨S800000x1, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x128, .f32⟩
  | 71 => ⟨S800000x128, .f32⟩
  | 72 => ⟨S_, .f32⟩
  | 73 => ⟨S50000x128, .f32⟩
  | 74 => ⟨S800000x1, .i32⟩
  | 75 => ⟨S50000x128, .f32⟩
  | 76 => ⟨S50000x1, .f32⟩
  | 77 => ⟨S50000x128, .f32⟩
  | 78 => ⟨S50000x128, .f32⟩
  | 79 => ⟨S50000x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S800000x1, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S50000x1, .f32⟩
  | 112 => ⟨S50000x128, .f32⟩
  | 113 => ⟨S50000x128, .f32⟩
  | 114 => ⟨S50000x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S50000x128, .f32⟩
  | 125 => ⟨S1x128, .f32⟩
  | 126 => ⟨S128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S800000x1, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S800000x128, .f32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S50000x1, .f32⟩
  | 19 => ⟨S50000x128, .f32⟩
  | 20 => ⟨S50000x128, .f32⟩
  | 21 => ⟨S50000x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S50000x128, .f32⟩
  | 28 => ⟨S1x128x128, .f32⟩
  | 29 => ⟨S128x128, .f32⟩
  | 30 => ⟨S50000x128, .f32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S800000x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S800000x128, .f32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S50000x1, .f32⟩
  | 54 => ⟨S50000x128, .f32⟩
  | 55 => ⟨S50000x128, .f32⟩
  | 56 => ⟨S50000x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S1x128, .f32⟩
  | 73 => ⟨S50000x128, .f32⟩
  | 74 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_c_10 : Ref sig .tc := ⟨.hbm, 96, rfl⟩
abbrev main_v77 : Ref sig .tc := ⟨.hbm, 97, rfl⟩
abbrev main_v78 : Ref sig .tc := ⟨.hbm, 98, rfl⟩
abbrev main_c_11 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_12 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_13 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_c_14 : Ref sig .tc := ⟨.hbm, 131, rfl⟩
abbrev main_v108 : Ref sig .tc := ⟨.hbm, 132, rfl⟩
abbrev main_v109 : Ref sig .tc := ⟨.hbm, 133, rfl⟩
abbrev main_c_15 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_16 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_cst_17 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_c_18 : Ref sig .tc := ⟨.hbm, 166, rfl⟩
abbrev main_v139 : Ref sig .tc := ⟨.hbm, 167, rfl⟩
abbrev main_v140 : Ref sig .tc := ⟨.hbm, 168, rfl⟩
abbrev main_c_19 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_cst_20 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_cst_21 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S800000_S800000x1_0 : S800000.BroadcastsInDim S800000x1 (![0] : Fin 1 → Fin S800000x1.rank)
  reducesTo_S50000_S_d0 : S50000.ReducesTo [0] S_
  h_S_ : 0 < S_.numel
  reducesTo_S800000_S_d0 : S800000.ReducesTo [0] S_
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/- The run of the idealized kernel with its result named: from any launch memory with zero counters, every weakly fair
   execution of @main on the TensorCores terminates without fault, and in every final state the result array holds the
   last boundary's contents of the fold through @main (`Gen.W12`), each argument array being as launched. -/
import proofs.«158343_j26250840113269_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result named: in every final state the result array `main_v119_1` holds `Gen.W12` at its
    reference and every argument array is as launched. -/
theorem run_value : θ_run defs (onTc (τ := τ) (main (F := F))) ⟨m, fun _ => 0, ρ⟩ (fun r => ∀ c : Dev nD,
      r.2.mem ((c.tc : Thread nD τ).loc main_v119_1) = W12 m ρ c (Proc.devRef .tc main_v119_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v119_1 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.RunValue

end
-- ==== Proof.KChainKeep.lean ====
/-
  Which buffers each stretch of host operations of the idealized kernel's @main writes, and that a buffer outside that
  list keeps its contents through the stretch.
-/
import proofs.«158343_j26250840113269_2_alg».proof.Proof.Gen.KernelIdeal.Frame
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem

variable {F : FTy → Type} [FloatOps F]

/-- The buffers that host stretch 0 writes. -/
abbrev hostW0 : List (Ref sig .tc) := [main_cst, main_v0, main_v1, main_v2, main_cst_0, main_v3, main_v4, main_cst_1, main_v5, main_v6, main_cst_2, main_v7, main_cst_3, main_v8, main_v9, main_v10, main_v11, main_v12, main_v13, main_v14, main_v15, main_v16, main_v17]

theorem hostOps0_writes : (hostOps0 : List (HloOp τ sig (Elt F))).Forall fun op => op.writes ⊆ (hostW0.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that host stretch 0 does not write keeps its contents through it. -/
theorem keepH0 (V : Valuation τ sig (Elt F)) (r : Ref sig .tc) (h : r ∉ hostW0) :
    StableHlo.after (hostOps0 (F := F)) V (Proc.devRef .tc r) = V (Proc.devRef .tc r) :=
  StableHlo.after_of_writes_sub hostOps0 _ hostOps0_writes h

/-- The buffers that host stretch 1 writes. -/
abbrev hostW1 : List (Ref sig .tc) := [main_v19, main_c, main_v20, main_v21, main_c_4, main_v22, main_v23, main_v24, main_v25, main_v26, main_v27, main_v28, main_cst_5, main_v29, main_v30, main_v31, main_v32, main_v33, main_v34, main_v35, main_v36, main_v37, main_v38_1]

theorem hostOps1_writes : (hostOps1 : List (HloOp τ sig (Elt F))).Forall fun op => op.writes ⊆ (hostW1.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that host stretch 1 does not write keeps its contents through it. -/
theorem keepH1 (V : Valuation τ sig (Elt F)) (r : Ref sig .tc) (h : r ∉ hostW1) :
    StableHlo.after (hostOps1 (F := F)) V (Proc.devRef .tc r) = V (Proc.devRef .tc r) :=
  StableHlo.after_of_writes_sub hostOps1 _ hostOps1_writes h

/-- The buffers that host stretch 2 writes. -/
abbrev hostW2 : List (Ref sig .tc) := [main_v39, main_c_6, main_v40, main_v41, main_c_7, main_v42, main_v43, main_v44, main_v45, main_v46, main_v47, main_v48, main_cst_8, main_v49, main_v50, main_v51, main_v52, main_v53, main_v54, main_v55, main_v56, main_v57, main_v58_1]

theorem hostOps2_writes : (hostOps2 : List (HloOp τ sig (Elt F))).Forall fun op => op.writes ⊆ (hostW2.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that host stretch 2 does not write keeps its contents through it. -/
theorem keepH2 (V : Valuation τ sig (Elt F)) (r : Ref sig .tc) (h : r ∉ hostW2) :
    StableHlo.after (hostOps2 (F := F)) V (Proc.devRef .tc r) = V (Proc.devRef .tc r) :=
  StableHlo.after_of_writes_sub hostOps2 _ hostOps2_writes h

/-- The buffers that host stretch 3 writes. -/
abbrev hostW3 : List (Ref sig .tc) := [main_v59, main_c_9, main_v60, main_v61, main_c_10, main_v62, main_v63, main_v64, main_v65, main_v66, main_v67, main_v68, main_cst_11, main_v69, main_v70, main_v71, main_v72, main_v73, main_v74, main_v75, main_v76, main_v77, main_v78_1]

theorem hostOps3_writes : (hostOps3 : List (HloOp τ sig (Elt F))).Forall fun op => op.writes ⊆ (hostW3.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that host stretch 3 does not write keeps its contents through it. -/
theorem keepH3 (V : Valuation τ sig (Elt F)) (r : Ref sig .tc) (h : r ∉ hostW3) :
    StableHlo.after (hostOps3 (F := F)) V (Proc.devRef .tc r) = V (Proc.devRef .tc r) :=
  StableHlo.after_of_writes_sub hostOps3 _ hostOps3_writes h

/-- The buffers that host stretch 4 writes. -/
abbrev hostW4 : List (Ref sig .tc) := [main_v79, main_c_12, main_v80, main_v81, main_c_13, main_v82, main_v83, main_v84, main_v85, main_v86, main_v87, main_v88, main_cst_14, main_v89, main_v90, main_v91, main_v92, main_v93, main_v94, main_v95, main_v96, main_v97, main_v98_1]

theorem hostOps4_writes : (hostOps4 : List (HloOp τ sig (Elt F))).Forall fun op => op.writes ⊆ (hostW4.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that host stretch 4 does not write keeps its contents through it. -/
theorem keepH4 (V : Valuation τ sig (Elt F)) (r : Ref sig .tc) (h : r ∉ hostW4) :
    StableHlo.after (hostOps4 (F := F)) V (Proc.devRef .tc r) = V (Proc.devRef .tc r) :=
  StableHlo.after_of_writes_sub hostOps4 _ hostOps4_writes h

/-- The buffers that host stretch 5 writes. -/
abbrev hostW5 : List (Ref sig .tc) := [main_v99, main_c_15, main_v100, main_v101, main_c_16, main_v102, main_v103, main_v104, main_v105, main_v106, main_v107, main_v108, main_cst_17, main_v109, main_v110, main_v111, main_v112, main_v113, main_v114, main_v115, main_v116, main_v117, main_v118, main_v119_1]

theorem hostOps5_writes : (hostOps5 : List (HloOp τ sig (Elt F))).Forall fun op => op.writes ⊆ (hostW5.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, Finset.singleton_subset_iff, List.mem_toFinset]; exact List.mem_map_of_mem (by decide)⟩

/-- A buffer that host stretch 5 does not write keeps its contents through it. -/
theorem keepH5 (V : Valuation τ sig (Elt F)) (r : Ref sig .tc) (h : r ∉ hostW5) :
    StableHlo.after (hostOps5 (F := F)) V (Proc.devRef .tc r) = V (Proc.devRef .tc r) :=
  StableHlo.after_of_writes_sub hostOps5 _ hostOps5_writes h

end Cert.KernelIdeal.Chain

end
-- ==== Proof.KChainVals.lean ====
/-
  The idealized kernel's @main between its six pipelined regions, on the extended reals: the arrays every region is
  entered with, named as functions of the launch contents and of the arrays earlier regions left.

  The host side computes, once, the degree `d = scatter-add of the edge weights at the senders`, the scale
  `s = 2 / (2 · max(max d, max (−e)))`, the scaled degree `s · d` and the scaled weights `s · e`; before region k ≥ 1 it
  computes the aggregation of the current Chebyshev term with the scaled weights, lays the scaled degree as a column,
  and cuts the k-th weight matrix and bias row. A buffer that a stretch does not write, and an array a region only reads,
  keeps its contents: so each region's inputs are these named terms of the launch contents and the previous outputs.
-/
import proofs.«158343_j26250840113269_2_alg».proof.Proof.KChainKeep
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

/-! ## The named tensors -/

/-- The degree: the edge weights added onto zero at the senders. -/
def degT (snd : IVec S800000 32) (e : FVec Ideal S800000 .f32) : FVec Ideal S50000 .f32 :=
  Host.scatterAdd scatter_S50000_S800000x1_S800000_n_0_0_1 (broadcastInDim S50000 ![] bcast_S_S50000 (constant (F := Ideal) S_ .f32 0x00000000#32)) (broadcastInDim S800000x1 ![0] bcast_S800000_S800000x1_0 snd) e

/-- The scale `2 / (2 · max(max d, max (−e)))`. -/
def scaleT (snd : IVec S800000 32) (e : FVec Ideal S800000 .f32) : FVec Ideal S_ .f32 :=
  Host.divf (constant (F := Ideal) S_ .f32 0x40000000#32) (mulf (constant (F := Ideal) S_ .f32 0x40000000#32) (maximumf (Host.reduce FloatOps.maximumf (degT snd e) (constant (F := Ideal) S_ .f32 0xFF800000#32) reducesTo_S50000_S_d0 h_S_) (Host.reduce FloatOps.maximumf (Host.negf e) (constant (F := Ideal) S_ .f32 0xFF800000#32) reducesTo_S800000_S_d0 h_S_)))

/-- The scaled degree `s · d`. -/
def sdegT (snd : IVec S800000 32) (e : FVec Ideal S800000 .f32) : FVec Ideal S50000 .f32 :=
  mulf (broadcastInDim S50000 ![] bcast_S_S50000 (scaleT snd e)) (degT snd e)

/-- The scaled edge weights `s · e`. -/
def sedgeT (snd : IVec S800000 32) (e : FVec Ideal S800000 .f32) : FVec Ideal S800000 .f32 :=
  mulf (broadcastInDim S800000 ![] bcast_S_S800000 (scaleT snd e)) e

/-- The aggregation of `y` with weights `se`: rows of `y` at the receivers, weighted, added onto zero at the senders. -/
def aggT (se : FVec Ideal S800000 .f32) (snd rcv : IVec S800000 32) (y : FVec Ideal S50000x128 .f32) : FVec Ideal S50000x128 .f32 :=
  Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 snd) (mulf (broadcastInDim S800000x128 ![0, 1] bcast_S800000x1_S800000x128_0_1 (broadcastInDim S800000x1 ![0] bcast_S800000_S800000x1_0 se)) (Host.gather gather_S50000x128_S800000x1_S800000x128_1_0_n_n_0_1_1128 y (broadcastInDim S800000x1 ![0] bcast_S800000_S800000x1_0 (select (cmpi .slt rcv (broadcastInDim S800000 ![] bcast_S_S800000 (constantI S_ 32 0#32))) (addi rcv (broadcastInDim S800000 ![] bcast_S_S800000 (constantI S_ 32 50000#32))) rcv))))

/-- A vector [50000] laid as the column [50000, 1]. -/
def colT (v : FVec Ideal S50000 .f32) : FVec Ideal S50000x1 .f32 := shapeCast S50000x1 v shapeCasts_S50000_S50000x1

/-- The weight matrix of order 0. -/
def wT0 (w : FVec Ideal S6x128x128 .f32) : FVec Ideal S128x128 .f32 :=
  shapeCast S128x128 (extractStridedSlice S1x128x128 ![0, 0, 0] w slices_S6x128x128_S1x128x128_0_0_0) shapeCasts_S1x128x128_S128x128

/-- The bias row of order 0. -/
def bT0 (b : FVec Ideal S6x128 .f32) : FVec Ideal S1x128 .f32 :=
  shapeCast S1x128 (shapeCast S128 (extractStridedSlice S1x128 ![0, 0] b slices_S6x128_S1x128_0_0) shapeCasts_S1x128_S128) shapeCasts_S128_S1x128

/-- The weight matrix of order 1. -/
def wT1 (w : FVec Ideal S6x128x128 .f32) : FVec Ideal S128x128 .f32 :=
  shapeCast S128x128 (extractStridedSlice S1x128x128 ![1, 0, 0] w slices_S6x128x128_S1x128x128_1_0_0) shapeCasts_S1x128x128_S128x128

/-- The bias row of order 1. -/
def bT1 (b : FVec Ideal S6x128 .f32) : FVec Ideal S1x128 .f32 :=
  shapeCast S1x128 (shapeCast S128 (extractStridedSlice S1x128 ![1, 0] b slices_S6x128_S1x128_1_0) shapeCasts_S1x128_S128) shapeCasts_S128_S1x128

/-- The weight matrix of order 2. -/
def wT2 (w : FVec Ideal S6x128x128 .f32) : FVec Ideal S128x128 .f32 :=
  shapeCast S128x128 (extractStridedSlice S1x128x128 ![2, 0, 0] w slices_S6x128x128_S1x128x128_2_0_0) shapeCasts_S1x128x128_S128x128

/-- The bias row of order 2. -/
def bT2 (b : FVec Ideal S6x128 .f32) : FVec Ideal S1x128 .f32 :=
  shapeCast S1x128 (shapeCast S128 (extractStridedSlice S1x128 ![2, 0] b slices_S6x128_S1x128_2_0) shapeCasts_S1x128_S128) shapeCasts_S128_S1x128

/-- The weight matrix of order 3. -/
def wT3 (w : FVec Ideal S6x128x128 .f32) : FVec Ideal S128x128 .f32 :=
  shapeCast S128x128 (extractStridedSlice S1x128x128 ![3, 0, 0] w slices_S6x128x128_S1x128x128_3_0_0) shapeCasts_S1x128x128_S128x128

/-- The bias row of order 3. -/
def bT3 (b : FVec Ideal S6x128 .f32) : FVec Ideal S1x128 .f32 :=
  shapeCast S1x128 (shapeCast S128 (extractStridedSlice S1x128 ![3, 0] b slices_S6x128_S1x128_3_0) shapeCasts_S1x128_S128) shapeCasts_S128_S1x128

/-- The weight matrix of order 4. -/
def wT4 (w : FVec Ideal S6x128x128 .f32) : FVec Ideal S128x128 .f32 :=
  shapeCast S128x128 (extractStridedSlice S1x128x128 ![4, 0, 0] w slices_S6x128x128_S1x128x128_4_0_0) shapeCasts_S1x128x128_S128x128

/-- The bias row of order 4. -/
def bT4 (b : FVec Ideal S6x128 .f32) : FVec Ideal S1x128 .f32 :=
  shapeCast S1x128 (shapeCast S128 (extractStridedSlice S1x128 ![4, 0] b slices_S6x128_S1x128_4_0) shapeCasts_S1x128_S128) shapeCasts_S128_S1x128

/-- The weight matrix of order 5. -/
def wT5 (w : FVec Ideal S6x128x128 .f32) : FVec Ideal S128x128 .f32 :=
  shapeCast S128x128 (extractStridedSlice S1x128x128 ![5, 0, 0] w slices_S6x128x128_S1x128x128_5_0_0) shapeCasts_S1x128x128_S128x128

/-- The last order's bias row, with the module's bias added. -/
def bT5 (b : FVec Ideal S6x128 .f32) (bias : FVec Ideal S128 .f32) : FVec Ideal S1x128 .f32 :=
  shapeCast S1x128 (addf (shapeCast S128 (extractStridedSlice S1x128 ![5, 0] b slices_S6x128_S1x128_5_0) shapeCasts_S1x128_S128) bias) shapeCasts_S128_S1x128

variable (m : (ℓ : Loc nD τ sig) → Buf (Elt Ideal) ℓ) (ρ : Dev nD → PrngReg) (c : Dev nD)

/-! ## The launch contents -/
abbrev A0 : FVec Ideal S50000x128 .f32 := m ((c : Thread nD τ).loc main_arg0)
abbrev A1 : FVec Ideal S800000 .f32 := m ((c : Thread nD τ).loc main_arg1)
abbrev A2 : IVec S800000 32 := m ((c : Thread nD τ).loc main_arg2)
abbrev A3 : IVec S800000 32 := m ((c : Thread nD τ).loc main_arg3)
abbrev A4 : FVec Ideal S6x128x128 .f32 := m ((c : Thread nD τ).loc main_arg4)
abbrev A5 : FVec Ideal S6x128 .f32 := m ((c : Thread nD τ).loc main_arg5)
abbrev A6 : FVec Ideal S128 .f32 := m ((c : Thread nD τ).loc main_arg6)

/-! ## What each host stretch computes (the operations' composed terms) -/

theorem H0_v10 : W1 m ρ c (Proc.devRef .tc main_v10) = sdegT (A2 m c) (A1 m c) := by
  show StableHlo.after hostOps0 (W0 m ρ c) (Proc.devRef .tc main_v10) = _
  after_results; rfl
theorem H0_v12 : W1 m ρ c (Proc.devRef .tc main_v12) = sedgeT (A2 m c) (A1 m c) := by
  show StableHlo.after hostOps0 (W0 m ρ c) (Proc.devRef .tc main_v12) = _
  after_results; rfl
theorem H0_v16 : W1 m ρ c (Proc.devRef .tc main_v16) = wT0 (A4 m c) := by
  show StableHlo.after hostOps0 (W0 m ρ c) (Proc.devRef .tc main_v16) = _
  after_results; rfl
theorem H0_v17 : W1 m ρ c (Proc.devRef .tc main_v17) = bT0 (A5 m c) := by
  show StableHlo.after hostOps0 (W0 m ρ c) (Proc.devRef .tc main_v17) = _
  after_results; rfl

theorem H1_sd : W3 m ρ c (Proc.devRef .tc main_v37) = colT (W2 m ρ c (Proc.devRef .tc main_v10)) := by
  show StableHlo.after hostOps1 (W2 m ρ c) (Proc.devRef .tc main_v37) = _
  after_results; rfl
set_option maxHeartbeats 2000000 in
theorem H1_ag : W3 m ρ c (Proc.devRef .tc main_v31) = aggT (W2 m ρ c (Proc.devRef .tc main_v12)) (W2 m ρ c (Proc.devRef .tc main_arg2)) (W2 m ρ c (Proc.devRef .tc main_arg3)) (W2 m ρ c (Proc.devRef .tc main_arg0)) := by
  show StableHlo.after hostOps1 (W2 m ρ c) (Proc.devRef .tc main_v31) = _
  after_results
  unfold aggT
  rfl
theorem H1_wm : W3 m ρ c (Proc.devRef .tc main_v35) = wT1 (W2 m ρ c (Proc.devRef .tc main_arg4)) := by
  show StableHlo.after hostOps1 (W2 m ρ c) (Proc.devRef .tc main_v35) = _
  after_results; rfl
theorem H1_bv : W3 m ρ c (Proc.devRef .tc main_v36) = bT1 (W2 m ρ c (Proc.devRef .tc main_arg5)) := by
  show StableHlo.after hostOps1 (W2 m ρ c) (Proc.devRef .tc main_v36) = _
  after_results; rfl

theorem H2_sd : W5 m ρ c (Proc.devRef .tc main_v57) = colT (W4 m ρ c (Proc.devRef .tc main_v10)) := by
  show StableHlo.after hostOps2 (W4 m ρ c) (Proc.devRef .tc main_v57) = _
  after_results; rfl
set_option maxHeartbeats 2000000 in
theorem H2_ag : W5 m ρ c (Proc.devRef .tc main_v51) = aggT (W4 m ρ c (Proc.devRef .tc main_v12)) (W4 m ρ c (Proc.devRef .tc main_arg2)) (W4 m ρ c (Proc.devRef .tc main_arg3)) (W4 m ρ c (Proc.devRef .tc main_v38_0)) := by
  show StableHlo.after hostOps2 (W4 m ρ c) (Proc.devRef .tc main_v51) = _
  after_results
  unfold aggT
  rfl
theorem H2_wm : W5 m ρ c (Proc.devRef .tc main_v55) = wT2 (W4 m ρ c (Proc.devRef .tc main_arg4)) := by
  show StableHlo.after hostOps2 (W4 m ρ c) (Proc.devRef .tc main_v55) = _
  after_results; rfl
theorem H2_bv : W5 m ρ c (Proc.devRef .tc main_v56) = bT2 (W4 m ρ c (Proc.devRef .tc main_arg5)) := by
  show StableHlo.after hostOps2 (W4 m ρ c) (Proc.devRef .tc main_v56) = _
  after_results; rfl

theorem H3_sd : W7 m ρ c (Proc.devRef .tc main_v77) = colT (W6 m ρ c (Proc.devRef .tc main_v10)) := by
  show StableHlo.after hostOps3 (W6 m ρ c) (Proc.devRef .tc main_v77) = _
  after_results; rfl
set_option maxHeartbeats 2000000 in
theorem H3_ag : W7 m ρ c (Proc.devRef .tc main_v71) = aggT (W6 m ρ c (Proc.devRef .tc main_v12)) (W6 m ρ c (Proc.devRef .tc main_arg2)) (W6 m ρ c (Proc.devRef .tc main_arg3)) (W6 m ρ c (Proc.devRef .tc main_v58_0)) := by
  show StableHlo.after hostOps3 (W6 m ρ c) (Proc.devRef .tc main_v71) = _
  after_results
  unfold aggT
  rfl
theorem H3_wm : W7 m ρ c (Proc.devRef .tc main_v75) = wT3 (W6 m ρ c (Proc.devRef .tc main_arg4)) := by
  show StableHlo.after hostOps3 (W6 m ρ c) (Proc.devRef .tc main_v75) = _
  after_results; rfl
theorem H3_bv : W7 m ρ c (Proc.devRef .tc main_v76) = bT3 (W6 m ρ c (Proc.devRef .tc main_arg5)) := by
  show StableHlo.after hostOps3 (W6 m ρ c) (Proc.devRef .tc main_v76) = _
  after_results; rfl

theorem H4_sd : W9 m ρ c (Proc.devRef .tc main_v97) = colT (W8 m ρ c (Proc.devRef .tc main_v10)) := by
  show StableHlo.after hostOps4 (W8 m ρ c) (Proc.devRef .tc main_v97) = _
  after_results; rfl
set_option maxHeartbeats 2000000 in
theorem H4_ag : W9 m ρ c (Proc.devRef .tc main_v91) = aggT (W8 m ρ c (Proc.devRef .tc main_v12)) (W8 m ρ c (Proc.devRef .tc main_arg2)) (W8 m ρ c (Proc.devRef .tc main_arg3)) (W8 m ρ c (Proc.devRef .tc main_v78_0)) := by
  show StableHlo.after hostOps4 (W8 m ρ c) (Proc.devRef .tc main_v91) = _
  after_results
  unfold aggT
  rfl
theorem H4_wm : W9 m ρ c (Proc.devRef .tc main_v95) = wT4 (W8 m ρ c (Proc.devRef .tc main_arg4)) := by
  show StableHlo.after hostOps4 (W8 m ρ c) (Proc.devRef .tc main_v95) = _
  after_results; rfl
theorem H4_bv : W9 m ρ c (Proc.devRef .tc main_v96) = bT4 (W8 m ρ c (Proc.devRef .tc main_arg5)) := by
  show StableHlo.after hostOps4 (W8 m ρ c) (Proc.devRef .tc main_v96) = _
  after_results; rfl

theorem H5_sd : W11 m ρ c (Proc.devRef .tc main_v118) = colT (W10 m ρ c (Proc.devRef .tc main_v10)) := by
  show StableHlo.after hostOps5 (W10 m ρ c) (Proc.devRef .tc main_v118) = _
  after_results; rfl
set_option maxHeartbeats 2000000 in
theorem H5_ag : W11 m ρ c (Proc.devRef .tc main_v111) = aggT (W10 m ρ c (Proc.devRef .tc main_v12)) (W10 m ρ c (Proc.devRef .tc main_arg2)) (W10 m ρ c (Proc.devRef .tc main_arg3)) (W10 m ρ c (Proc.devRef .tc main_v98_0)) := by
  show StableHlo.after hostOps5 (W10 m ρ c) (Proc.devRef .tc main_v111) = _
  after_results
  unfold aggT
  rfl
theorem H5_wm : W11 m ρ c (Proc.devRef .tc main_v116) = wT5 (W10 m ρ c (Proc.devRef .tc main_arg4)) := by
  show StableHlo.after hostOps5 (W10 m ρ c) (Proc.devRef .tc main_v116) = _
  after_results; rfl
theorem H5_bv : W11 m ρ c (Proc.devRef .tc main_v117) = bT5 (W10 m ρ c (Proc.devRef .tc main_arg5)) (W10 m ρ c (Proc.devRef .tc main_arg6)) := by
  show StableHlo.after hostOps5 (W10 m ρ c) (Proc.devRef .tc main_v117) = _
  after_results; rfl

/-! ## Buffers that keep their contents from the launch, or from the first stretch, to a later boundary -/
theorem P2_v10 : W2 m ρ c (Proc.devRef .tc main_v10) = sdegT (A2 m c) (A1 m c) :=
  (W2_of_ne m ρ c main_v10 (by decide)).trans (H0_v10 m ρ c)
theorem P2_v12 : W2 m ρ c (Proc.devRef .tc main_v12) = sedgeT (A2 m c) (A1 m c) :=
  (W2_of_ne m ρ c main_v12 (by decide)).trans (H0_v12 m ρ c)
theorem P2_arg2 : W2 m ρ c (Proc.devRef .tc main_arg2) = A2 m c :=
  ((W2_of_ne m ρ c main_arg2 (by decide)).trans (keepH0 (W0 m ρ c) main_arg2 (by decide)))
theorem P2_arg3 : W2 m ρ c (Proc.devRef .tc main_arg3) = A3 m c :=
  ((W2_of_ne m ρ c main_arg3 (by decide)).trans (keepH0 (W0 m ρ c) main_arg3 (by decide)))
theorem P2_arg4 : W2 m ρ c (Proc.devRef .tc main_arg4) = A4 m c :=
  ((W2_of_ne m ρ c main_arg4 (by decide)).trans (keepH0 (W0 m ρ c) main_arg4 (by decide)))
theorem P2_arg5 : W2 m ρ c (Proc.devRef .tc main_arg5) = A5 m c :=
  ((W2_of_ne m ρ c main_arg5 (by decide)).trans (keepH0 (W0 m ρ c) main_arg5 (by decide)))
theorem P4_v10 : W4 m ρ c (Proc.devRef .tc main_v10) = sdegT (A2 m c) (A1 m c) :=
  ((W4_of_ne m ρ c main_v10 (by decide)).trans ((keepH1 (W2 m ρ c) main_v10 (by decide)).trans (W2_of_ne m ρ c main_v10 (by decide)))).trans (H0_v10 m ρ c)
theorem P4_v12 : W4 m ρ c (Proc.devRef .tc main_v12) = sedgeT (A2 m c) (A1 m c) :=
  ((W4_of_ne m ρ c main_v12 (by decide)).trans ((keepH1 (W2 m ρ c) main_v12 (by decide)).trans (W2_of_ne m ρ c main_v12 (by decide)))).trans (H0_v12 m ρ c)
theorem P4_arg2 : W4 m ρ c (Proc.devRef .tc main_arg2) = A2 m c :=
  ((W4_of_ne m ρ c main_arg2 (by decide)).trans ((keepH1 (W2 m ρ c) main_arg2 (by decide)).trans ((W2_of_ne m ρ c main_arg2 (by decide)).trans (keepH0 (W0 m ρ c) main_arg2 (by decide)))))
theorem P4_arg3 : W4 m ρ c (Proc.devRef .tc main_arg3) = A3 m c :=
  ((W4_of_ne m ρ c main_arg3 (by decide)).trans ((keepH1 (W2 m ρ c) main_arg3 (by decide)).trans ((W2_of_ne m ρ c main_arg3 (by decide)).trans (keepH0 (W0 m ρ c) main_arg3 (by decide)))))
theorem P4_arg4 : W4 m ρ c (Proc.devRef .tc main_arg4) = A4 m c :=
  ((W4_of_ne m ρ c main_arg4 (by decide)).trans ((keepH1 (W2 m ρ c) main_arg4 (by decide)).trans ((W2_of_ne m ρ c main_arg4 (by decide)).trans (keepH0 (W0 m ρ c) main_arg4 (by decide)))))
theorem P4_arg5 : W4 m ρ c (Proc.devRef .tc main_arg5) = A5 m c :=
  ((W4_of_ne m ρ c main_arg5 (by decide)).trans ((keepH1 (W2 m ρ c) main_arg5 (by decide)).trans ((W2_of_ne m ρ c main_arg5 (by decide)).trans (keepH0 (W0 m ρ c) main_arg5 (by decide)))))
theorem P6_v10 : W6 m ρ c (Proc.devRef .tc main_v10) = sdegT (A2 m c) (A1 m c) :=
  ((W6_of_ne m ρ c main_v10 (by decide)).trans ((keepH2 (W4 m ρ c) main_v10 (by decide)).trans ((W4_of_ne m ρ c main_v10 (by decide)).trans ((keepH1 (W2 m ρ c) main_v10 (by decide)).trans (W2_of_ne m ρ c main_v10 (by decide)))))).trans (H0_v10 m ρ c)
theorem P6_v12 : W6 m ρ c (Proc.devRef .tc main_v12) = sedgeT (A2 m c) (A1 m c) :=
  ((W6_of_ne m ρ c main_v12 (by decide)).trans ((keepH2 (W4 m ρ c) main_v12 (by decide)).trans ((W4_of_ne m ρ c main_v12 (by decide)).trans ((keepH1 (W2 m ρ c) main_v12 (by decide)).trans (W2_of_ne m ρ c main_v12 (by decide)))))).trans (H0_v12 m ρ c)
theorem P6_arg2 : W6 m ρ c (Proc.devRef .tc main_arg2) = A2 m c :=
  ((W6_of_ne m ρ c main_arg2 (by decide)).trans ((keepH2 (W4 m ρ c) main_arg2 (by decide)).trans ((W4_of_ne m ρ c main_arg2 (by decide)).trans ((keepH1 (W2 m ρ c) main_arg2 (by decide)).trans ((W2_of_ne m ρ c main_arg2 (by decide)).trans (keepH0 (W0 m ρ c) main_arg2 (by decide)))))))
theorem P6_arg3 : W6 m ρ c (Proc.devRef .tc main_arg3) = A3 m c :=
  ((W6_of_ne m ρ c main_arg3 (by decide)).trans ((keepH2 (W4 m ρ c) main_arg3 (by decide)).trans ((W4_of_ne m ρ c main_arg3 (by decide)).trans ((keepH1 (W2 m ρ c) main_arg3 (by decide)).trans ((W2_of_ne m ρ c main_arg3 (by decide)).trans (keepH0 (W0 m ρ c) main_arg3 (by decide)))))))
theorem P6_arg4 : W6 m ρ c (Proc.devRef .tc main_arg4) = A4 m c :=
  ((W6_of_ne m ρ c main_arg4 (by decide)).trans ((keepH2 (W4 m ρ c) main_arg4 (by decide)).trans ((W4_of_ne m ρ c main_arg4 (by decide)).trans ((keepH1 (W2 m ρ c) main_arg4 (by decide)).trans ((W2_of_ne m ρ c main_arg4 (by decide)).trans (keepH0 (W0 m ρ c) main_arg4 (by decide)))))))
theorem P6_arg5 : W6 m ρ c (Proc.devRef .tc main_arg5) = A5 m c :=
  ((W6_of_ne m ρ c main_arg5 (by decide)).trans ((keepH2 (W4 m ρ c) main_arg5 (by decide)).trans ((W4_of_ne m ρ c main_arg5 (by decide)).trans ((keepH1 (W2 m ρ c) main_arg5 (by decide)).trans ((W2_of_ne m ρ c main_arg5 (by decide)).trans (keepH0 (W0 m ρ c) main_arg5 (by decide)))))))
theorem P8_v10 : W8 m ρ c (Proc.devRef .tc main_v10) = sdegT (A2 m c) (A1 m c) :=
  ((W8_of_ne m ρ c main_v10 (by decide)).trans ((keepH3 (W6 m ρ c) main_v10 (by decide)).trans ((W6_of_ne m ρ c main_v10 (by decide)).trans ((keepH2 (W4 m ρ c) main_v10 (by decide)).trans ((W4_of_ne m ρ c main_v10 (by decide)).trans ((keepH1 (W2 m ρ c) main_v10 (by decide)).trans (W2_of_ne m ρ c main_v10 (by decide)))))))).trans (H0_v10 m ρ c)
theorem P8_v12 : W8 m ρ c (Proc.devRef .tc main_v12) = sedgeT (A2 m c) (A1 m c) :=
  ((W8_of_ne m ρ c main_v12 (by decide)).trans ((keepH3 (W6 m ρ c) main_v12 (by decide)).trans ((W6_of_ne m ρ c main_v12 (by decide)).trans ((keepH2 (W4 m ρ c) main_v12 (by decide)).trans ((W4_of_ne m ρ c main_v12 (by decide)).trans ((keepH1 (W2 m ρ c) main_v12 (by decide)).trans (W2_of_ne m ρ c main_v12 (by decide)))))))).trans (H0_v12 m ρ c)
theorem P8_arg2 : W8 m ρ c (Proc.devRef .tc main_arg2) = A2 m c :=
  ((W8_of_ne m ρ c main_arg2 (by decide)).trans ((keepH3 (W6 m ρ c) main_arg2 (by decide)).trans ((W6_of_ne m ρ c main_arg2 (by decide)).trans ((keepH2 (W4 m ρ c) main_arg2 (by decide)).trans ((W4_of_ne m ρ c main_arg2 (by decide)).trans ((keepH1 (W2 m ρ c) main_arg2 (by decide)).trans ((W2_of_ne m ρ c main_arg2 (by decide)).trans (keepH0 (W0 m ρ c) main_arg2 (by decide)))))))))
theorem P8_arg3 : W8 m ρ c (Proc.devRef .tc main_arg3) = A3 m c :=
  ((W8_of_ne m ρ c main_arg3 (by decide)).trans ((keepH3 (W6 m ρ c) main_arg3 (by decide)).trans ((W6_of_ne m ρ c main_arg3 (by decide)).trans ((keepH2 (W4 m ρ c) main_arg3 (by decide)).trans ((W4_of_ne m ρ c main_arg3 (by decide)).trans ((keepH1 (W2 m ρ c) main_arg3 (by decide)).trans ((W2_of_ne m ρ c main_arg3 (by decide)).trans (keepH0 (W0 m ρ c) main_arg3 (by decide)))))))))
theorem P8_arg4 : W8 m ρ c (Proc.devRef .tc main_arg4) = A4 m c :=
  ((W8_of_ne m ρ c main_arg4 (by decide)).trans ((keepH3 (W6 m ρ c) main_arg4 (by decide)).trans ((W6_of_ne m ρ c main_arg4 (by decide)).trans ((keepH2 (W4 m ρ c) main_arg4 (by decide)).trans ((W4_of_ne m ρ c main_arg4 (by decide)).trans ((keepH1 (W2 m ρ c) main_arg4 (by decide)).trans ((W2_of_ne m ρ c main_arg4 (by decide)).trans (keepH0 (W0 m ρ c) main_arg4 (by decide)))))))))
theorem P8_arg5 : W8 m ρ c (Proc.devRef .tc main_arg5) = A5 m c :=
  ((W8_of_ne m ρ c main_arg5 (by decide)).trans ((keepH3 (W6 m ρ c) main_arg5 (by decide)).trans ((W6_of_ne m ρ c main_arg5 (by decide)).trans ((keepH2 (W4 m ρ c) main_arg5 (by decide)).trans ((W4_of_ne m ρ c main_arg5 (by decide)).trans ((keepH1 (W2 m ρ c) main_arg5 (by decide)).trans ((W2_of_ne m ρ c main_arg5 (by decide)).trans (keepH0 (W0 m ρ c) main_arg5 (by decide)))))))))
theorem P10_v10 : W10 m ρ c (Proc.devRef .tc main_v10) = sdegT (A2 m c) (A1 m c) :=
  ((W10_of_ne m ρ c main_v10 (by decide)).trans ((keepH4 (W8 m ρ c) main_v10 (by decide)).trans ((W8_of_ne m ρ c main_v10 (by decide)).trans ((keepH3 (W6 m ρ c) main_v10 (by decide)).trans ((W6_of_ne m ρ c main_v10 (by decide)).trans ((keepH2 (W4 m ρ c) main_v10 (by decide)).trans ((W4_of_ne m ρ c main_v10 (by decide)).trans ((keepH1 (W2 m ρ c) main_v10 (by decide)).trans (W2_of_ne m ρ c main_v10 (by decide)))))))))).trans (H0_v10 m ρ c)
theorem P10_v12 : W10 m ρ c (Proc.devRef .tc main_v12) = sedgeT (A2 m c) (A1 m c) :=
  ((W10_of_ne m ρ c main_v12 (by decide)).trans ((keepH4 (W8 m ρ c) main_v12 (by decide)).trans ((W8_of_ne m ρ c main_v12 (by decide)).trans ((keepH3 (W6 m ρ c) main_v12 (by decide)).trans ((W6_of_ne m ρ c main_v12 (by decide)).trans ((keepH2 (W4 m ρ c) main_v12 (by decide)).trans ((W4_of_ne m ρ c main_v12 (by decide)).trans ((keepH1 (W2 m ρ c) main_v12 (by decide)).trans (W2_of_ne m ρ c main_v12 (by decide)))))))))).trans (H0_v12 m ρ c)
theorem P10_arg2 : W10 m ρ c (Proc.devRef .tc main_arg2) = A2 m c :=
  ((W10_of_ne m ρ c main_arg2 (by decide)).trans ((keepH4 (W8 m ρ c) main_arg2 (by decide)).trans ((W8_of_ne m ρ c main_arg2 (by decide)).trans ((keepH3 (W6 m ρ c) main_arg2 (by decide)).trans ((W6_of_ne m ρ c main_arg2 (by decide)).trans ((keepH2 (W4 m ρ c) main_arg2 (by decide)).trans ((W4_of_ne m ρ c main_arg2 (by decide)).trans ((keepH1 (W2 m ρ c) main_arg2 (by decide)).trans ((W2_of_ne m ρ c main_arg2 (by decide)).trans (keepH0 (W0 m ρ c) main_arg2 (by decide)))))))))))
theorem P10_arg3 : W10 m ρ c (Proc.devRef .tc main_arg3) = A3 m c :=
  ((W10_of_ne m ρ c main_arg3 (by decide)).trans ((keepH4 (W8 m ρ c) main_arg3 (by decide)).trans ((W8_of_ne m ρ c main_arg3 (by decide)).trans ((keepH3 (W6 m ρ c) main_arg3 (by decide)).trans ((W6_of_ne m ρ c main_arg3 (by decide)).trans ((keepH2 (W4 m ρ c) main_arg3 (by decide)).trans ((W4_of_ne m ρ c main_arg3 (by decide)).trans ((keepH1 (W2 m ρ c) main_arg3 (by decide)).trans ((W2_of_ne m ρ c main_arg3 (by decide)).trans (keepH0 (W0 m ρ c) main_arg3 (by decide)))))))))))
theorem P10_arg4 : W10 m ρ c (Proc.devRef .tc main_arg4) = A4 m c :=
  ((W10_of_ne m ρ c main_arg4 (by decide)).trans ((keepH4 (W8 m ρ c) main_arg4 (by decide)).trans ((W8_of_ne m ρ c main_arg4 (by decide)).trans ((keepH3 (W6 m ρ c) main_arg4 (by decide)).trans ((W6_of_ne m ρ c main_arg4 (by decide)).trans ((keepH2 (W4 m ρ c) main_arg4 (by decide)).trans ((W4_of_ne m ρ c main_arg4 (by decide)).trans ((keepH1 (W2 m ρ c) main_arg4 (by decide)).trans ((W2_of_ne m ρ c main_arg4 (by decide)).trans (keepH0 (W0 m ρ c) main_arg4 (by decide)))))))))))
theorem P10_arg5 : W10 m ρ c (Proc.devRef .tc main_arg5) = A5 m c :=
  ((W10_of_ne m ρ c main_arg5 (by decide)).trans ((keepH4 (W8 m ρ c) main_arg5 (by decide)).trans ((W8_of_ne m ρ c main_arg5 (by decide)).trans ((keepH3 (W6 m ρ c) main_arg5 (by decide)).trans ((W6_of_ne m ρ c main_arg5 (by decide)).trans ((keepH2 (W4 m ρ c) main_arg5 (by decide)).trans ((W4_of_ne m ρ c main_arg5 (by decide)).trans ((keepH1 (W2 m ρ c) main_arg5 (by decide)).trans ((W2_of_ne m ρ c main_arg5 (by decide)).trans (keepH0 (W0 m ρ c) main_arg5 (by decide)))))))))))
theorem P10_arg6 : W10 m ρ c (Proc.devRef .tc main_arg6) = A6 m c :=
  ((W10_of_ne m ρ c main_arg6 (by decide)).trans ((keepH4 (W8 m ρ c) main_arg6 (by decide)).trans ((W8_of_ne m ρ c main_arg6 (by decide)).trans ((keepH3 (W6 m ρ c) main_arg6 (by decide)).trans ((W6_of_ne m ρ c main_arg6 (by decide)).trans ((keepH2 (W4 m ρ c) main_arg6 (by decide)).trans ((W4_of_ne m ρ c main_arg6 (by decide)).trans ((keepH1 (W2 m ρ c) main_arg6 (by decide)).trans ((W2_of_ne m ρ c main_arg6 (by decide)).trans (keepH0 (W0 m ρ c) main_arg6 (by decide)))))))))))
theorem P2_arg0 : W2 m ρ c (Proc.devRef .tc main_arg0) = A0 m c :=
  (((W2_arr m ρ c 0).trans (((dat0 (V1 m ρ) c).arrAt_in 0 rfl _).trans (A_eq0 (V1 m ρ) c 0))).trans (keepH0 (W0 m ρ c) main_arg0 (by decide)))
theorem P1_arg0 : W1 m ρ c (Proc.devRef .tc main_arg0) = A0 m c :=
  (keepH0 (W0 m ρ c) main_arg0 (by decide))
theorem P3_arg0 : W3 m ρ c (Proc.devRef .tc main_arg0) = A0 m c :=
  ((keepH1 (W2 m ρ c) main_arg0 (by decide)).trans (((W2_arr m ρ c 0).trans (((dat0 (V1 m ρ) c).arrAt_in 0 rfl _).trans (A_eq0 (V1 m ρ) c 0))).trans (keepH0 (W0 m ρ c) main_arg0 (by decide))))
theorem P5_arg0 : W5 m ρ c (Proc.devRef .tc main_arg0) = A0 m c :=
  ((keepH2 (W4 m ρ c) main_arg0 (by decide)).trans (((W4_arr m ρ c 0).trans (((dat1 (V3 m ρ) c).arrAt_in 0 rfl _).trans (A_eq1 (V3 m ρ) c 0))).trans ((keepH1 (W2 m ρ c) main_arg0 (by decide)).trans (((W2_arr m ρ c 0).trans (((dat0 (V1 m ρ) c).arrAt_in 0 rfl _).trans (A_eq0 (V1 m ρ) c 0))).trans (keepH0 (W0 m ρ c) main_arg0 (by decide))))))

/-! ## Each region's input arrays, by name -/

theorem in0_0 : W1 m ρ c (Proc.devRef .tc main_arg0) = A0 m c := P1_arg0 m ρ c
theorem in0_1 : W1 m ρ c (Proc.devRef .tc main_v16) = wT0 (A4 m c) := H0_v16 m ρ c
theorem in0_2 : W1 m ρ c (Proc.devRef .tc main_v17) = bT0 (A5 m c) := H0_v17 m ρ c

theorem in1_xc : W3 m ρ c (Proc.devRef .tc main_arg0) = A0 m c := P3_arg0 m ρ c
theorem in1_sd : W3 m ρ c (Proc.devRef .tc main_v37) = colT (sdegT (A2 m c) (A1 m c)) := by rw [H1_sd, P2_v10]
theorem in1_ag : W3 m ρ c (Proc.devRef .tc main_v31) = aggT (sedgeT (A2 m c) (A1 m c)) (A2 m c) (A3 m c) (A0 m c) := by rw [H1_ag, P2_v12, P2_arg2, P2_arg3, P2_arg0]
theorem in1_wm : W3 m ρ c (Proc.devRef .tc main_v35) = wT1 (A4 m c) := by rw [H1_wm, P2_arg4]
theorem in1_bv : W3 m ρ c (Proc.devRef .tc main_v36) = bT1 (A5 m c) := by rw [H1_bv, P2_arg5]
theorem in1_op : W3 m ρ c (Proc.devRef .tc main_v18) = W2 m ρ c (Proc.devRef .tc main_v18) := (keepH1 (W2 m ρ c) main_v18 (by decide))

theorem in2_xc : W5 m ρ c (Proc.devRef .tc main_v38_0) = W4 m ρ c (Proc.devRef .tc main_v38_0) := (keepH2 (W4 m ρ c) main_v38_0 (by decide))
theorem in2_xp : W5 m ρ c (Proc.devRef .tc main_arg0) = A0 m c := P5_arg0 m ρ c
theorem in2_sd : W5 m ρ c (Proc.devRef .tc main_v57) = colT (sdegT (A2 m c) (A1 m c)) := by rw [H2_sd, P4_v10]
theorem in2_ag : W5 m ρ c (Proc.devRef .tc main_v51) = aggT (sedgeT (A2 m c) (A1 m c)) (A2 m c) (A3 m c) (W4 m ρ c (Proc.devRef .tc main_v38_0)) := by rw [H2_ag, P4_v12, P4_arg2, P4_arg3]
theorem in2_wm : W5 m ρ c (Proc.devRef .tc main_v55) = wT2 (A4 m c) := by rw [H2_wm, P4_arg4]
theorem in2_bv : W5 m ρ c (Proc.devRef .tc main_v56) = bT2 (A5 m c) := by rw [H2_bv, P4_arg5]
theorem in2_op : W5 m ρ c (Proc.devRef .tc main_v38_1) = W4 m ρ c (Proc.devRef .tc main_v38_1) := (keepH2 (W4 m ρ c) main_v38_1 (by decide))

theorem in3_xc : W7 m ρ c (Proc.devRef .tc main_v58_0) = W6 m ρ c (Proc.devRef .tc main_v58_0) := (keepH3 (W6 m ρ c) main_v58_0 (by decide))
theorem in3_xp : W7 m ρ c (Proc.devRef .tc main_v38_0) = W4 m ρ c (Proc.devRef .tc main_v38_0) := ((keepH3 (W6 m ρ c) main_v38_0 (by decide)).trans (((W6_arr m ρ c 0).trans (((dat2 (V5 m ρ) c).arrAt_in 0 rfl _).trans (A_eq2 (V5 m ρ) c 0))).trans (keepH2 (W4 m ρ c) main_v38_0 (by decide))))
theorem in3_sd : W7 m ρ c (Proc.devRef .tc main_v77) = colT (sdegT (A2 m c) (A1 m c)) := by rw [H3_sd, P6_v10]
theorem in3_ag : W7 m ρ c (Proc.devRef .tc main_v71) = aggT (sedgeT (A2 m c) (A1 m c)) (A2 m c) (A3 m c) (W6 m ρ c (Proc.devRef .tc main_v58_0)) := by rw [H3_ag, P6_v12, P6_arg2, P6_arg3]
theorem in3_wm : W7 m ρ c (Proc.devRef .tc main_v75) = wT3 (A4 m c) := by rw [H3_wm, P6_arg4]
theorem in3_bv : W7 m ρ c (Proc.devRef .tc main_v76) = bT3 (A5 m c) := by rw [H3_bv, P6_arg5]
theorem in3_op : W7 m ρ c (Proc.devRef .tc main_v58_1) = W6 m ρ c (Proc.devRef .tc main_v58_1) := (keepH3 (W6 m ρ c) main_v58_1 (by decide))

theorem in4_xc : W9 m ρ c (Proc.devRef .tc main_v78_0) = W8 m ρ c (Proc.devRef .tc main_v78_0) := (keepH4 (W8 m ρ c) main_v78_0 (by decide))
theorem in4_xp : W9 m ρ c (Proc.devRef .tc main_v58_0) = W6 m ρ c (Proc.devRef .tc main_v58_0) := ((keepH4 (W8 m ρ c) main_v58_0 (by decide)).trans (((W8_arr m ρ c 0).trans (((dat3 (V7 m ρ) c).arrAt_in 0 rfl _).trans (A_eq3 (V7 m ρ) c 0))).trans (keepH3 (W6 m ρ c) main_v58_0 (by decide))))
theorem in4_sd : W9 m ρ c (Proc.devRef .tc main_v97) = colT (sdegT (A2 m c) (A1 m c)) := by rw [H4_sd, P8_v10]
theorem in4_ag : W9 m ρ c (Proc.devRef .tc main_v91) = aggT (sedgeT (A2 m c) (A1 m c)) (A2 m c) (A3 m c) (W8 m ρ c (Proc.devRef .tc main_v78_0)) := by rw [H4_ag, P8_v12, P8_arg2, P8_arg3]
theorem in4_wm : W9 m ρ c (Proc.devRef .tc main_v95) = wT4 (A4 m c) := by rw [H4_wm, P8_arg4]
theorem in4_bv : W9 m ρ c (Proc.devRef .tc main_v96) = bT4 (A5 m c) := by rw [H4_bv, P8_arg5]
theorem in4_op : W9 m ρ c (Proc.devRef .tc main_v78_1) = W8 m ρ c (Proc.devRef .tc main_v78_1) := (keepH4 (W8 m ρ c) main_v78_1 (by decide))

theorem in5_xc : W11 m ρ c (Proc.devRef .tc main_v98_0) = W10 m ρ c (Proc.devRef .tc main_v98_0) := (keepH5 (W10 m ρ c) main_v98_0 (by decide))
theorem in5_xp : W11 m ρ c (Proc.devRef .tc main_v78_0) = W8 m ρ c (Proc.devRef .tc main_v78_0) := ((keepH5 (W10 m ρ c) main_v78_0 (by decide)).trans (((W10_arr m ρ c 0).trans (((dat4 (V9 m ρ) c).arrAt_in 0 rfl _).trans (A_eq4 (V9 m ρ) c 0))).trans (keepH4 (W8 m ρ c) main_v78_0 (by decide))))
theorem in5_sd : W11 m ρ c (Proc.devRef .tc main_v118) = colT (sdegT (A2 m c) (A1 m c)) := by rw [H5_sd, P10_v10]
theorem in5_ag : W11 m ρ c (Proc.devRef .tc main_v111) = aggT (sedgeT (A2 m c) (A1 m c)) (A2 m c) (A3 m c) (W10 m ρ c (Proc.devRef .tc main_v98_0)) := by rw [H5_ag, P10_v12, P10_arg2, P10_arg3]
theorem in5_wm : W11 m ρ c (Proc.devRef .tc main_v116) = wT5 (A4 m c) := by rw [H5_wm, P10_arg4]
theorem in5_bv : W11 m ρ c (Proc.devRef .tc main_v117) = bT5 (A5 m c) (A6 m c) := by rw [H5_bv, P10_arg5, P10_arg6]
theorem in5_op : W11 m ρ c (Proc.devRef .tc main_v98_1) = W10 m ρ c (Proc.devRef .tc main_v98_1) := (keepH5 (W10 m ρ c) main_v98_1 (by decide))

end Cert.KernelIdeal.Chain

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.LibRowBlock.lean ====
/-
  A block of rows of a plain matrix product, on the extended reals.

  Let `A` be an `M×K` array and `W` a `K×N` array. If row `p` of a `B×K` array `x` is row `P` of `A`, and column `q` of
  a `K×N` array `w` is column `q` of `W`, then entry `(p, q)` of the product `x · w` accumulated on the vector unit from
  the zero array is entry `(P, q)` of the host's product `A · W`: each is `∑ k, A (P, k) * W (k, q)`, the same sum
  term by term, so no finiteness is asked of the entries and the operands' float formats do not matter. This is
  what a product tiled over its rows — each grid point multiplying its own rows by the whole right operand —
  needs to rejoin the one product of a reference.
-/
import proofs.«158343_j26250840113269_2_alg».proof.Proof.LibPlainDot

noncomputable section

open scoped BigOperators

namespace Cert.Lib.RowBlock

open Idealize.ShloMosaic Idealize.ShloMosaic.ValueIdx

variable {M K N B : ℕ} {φ₁ φ₂ ψ₁ ψ₂ : FTy}

/-- Entry `(p, q)` of a row block's product is entry `(P, q)` of the whole product. -/
theorem matmul_eq_dotGeneral (prec prec' : Option ContractPrecision) (sched : HostSchedule)
    (A : FVec Ideal ⟨2, ![M, K]⟩ φ₁) (W : FVec Ideal ⟨2, ![K, N]⟩ φ₂)
    (x : FVec Ideal ⟨2, ![B, K]⟩ ψ₁) (w : FVec Ideal ⟨2, ![K, N]⟩ ψ₂)
    (P : Fin M) (p : Fin B) (q : Fin N)
    (hx : ∀ k : Fin K, (x (ix2 p k) : EReal) = A (ix2 P k)) (hw : ∀ k : Fin K, (w (ix2 k q) : EReal) = W (ix2 k q)) :
    FloatOps.matmul (DotDims.plain B K N) prec x w (constant ⟨2, ![B, N]⟩ .f32 0x00000000#32) (ix2 p q)
      = FloatOps.dotGeneral (DotDims.plain M K N) prec' sched A W (ix2 P q) := by
  rw [Cert.Lib.PlainDot.matmul_zero_apply, Cert.Lib.PlainDot.dotGeneral_apply]
  exact Finset.sum_congr rfl fun k _ => by rw [hx k, hw k]

end Cert.Lib.RowBlock

end
-- ==== Proof.Region0.lean ====
/-
  Region 0 of the kernel as a function of whole arrays.

  The region's grid has 25 points; point `t` reads rows `2000 t … 2000 t + 1999` of the node array `main_arg0`
  ([50000, 128]), the whole weight array `main_v16` ([128, 128]) and the whole bias row `main_v17` ([1, 128]), and
  writes the same rows of `main_v18`: the block of rows times the weights, accumulated from zero, plus the bias row.
  Entry `(r, q)` of the array the region leaves is therefore entry `(r, q)` of the product of the whole node array with
  the weights, plus the bias at `q` (`out0_apply`): a row block's product is the whole product's rows, the blocks of
  the 25 points tile the 50000 rows, and each point writes its block of that one function (`whole0`).
-/
import proofs.«158343_j26250840113269_2_alg».proof.Proof.Gen.KernelIdeal.Frame
import proofs.«158343_j26250840113269_2_alg».proof.Proof.LibRowBlock
import Idealize.ShloMosaic.Lib.Pipeline.Value
import Idealize.ShloMosaic.Lib.ValueLayout
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, as a constant function. -/
theorem zero_offsets0 : (![0, 0] : Fin 2 → Nat) = fun _ => 0 := funext fun a => by fin_cases a <;> rfl

/-- The block index of each window at each of the 25 points: the row-blocked windows (the node array, the result) are at
    block row `t`, column block 0; the whole windows (weights, bias) at block (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The stored value at local entry `(p, q)`: the block's product with the weights from the zero accumulator, plus the
    bias row at `q`. -/
theorem pay0_apply (x0 : FVec Ideal S2000x128 .f32) (x1 : FVec Ideal S128x128 .f32) (x2 : FVec Ideal S1x128 .f32) (p : Fin 2000) (q : Fin 128) :
    k0_pay1 x0 x1 x2 (ix2 p q)
      = FloatOps.matmul (DotDims.plain 2000 128 128) none x0 x1 (constant ⟨2, ![2000, 128]⟩ .f32 0x00000000#32) (ix2 p q) + x2 (ix2 (0 : Fin 1) q) := by
  unfold k0_pay1
  simp only [shapeCast_self]
  rw [addf_apply, broadcastTo_1b_ab_apply]
  rfl

/-- A window's block at a point, read at a local index, is its array at the index's image in the array. -/
theorem iblk0_0_apply (c : Dev nD) (t : Fin cfg0.N) (y : S2000x128.Idx) :
    iblk0 V c 0 t y = V c main_arg0 (((cfg0.win 0).blk t).view.emb y) := rfl
theorem iblk0_1_apply (c : Dev nD) (t : Fin cfg0.N) (y : S128x128.Idx) :
    iblk0 V c 1 t y = V c main_v16 (((cfg0.win 1).blk t).view.emb y) := rfl
theorem iblk0_2_apply (c : Dev nD) (t : Fin cfg0.N) (y : S1x128.Idx) :
    iblk0 V c 2 t y = V c main_v17 (((cfg0.win 2).blk t).view.emb y) := rfl

/-- Region 0's result as one function of the arrays it reads. -/
def whole0 (c : Dev nD) : S50000x128.Idx → Elt Ideal .f32 := fun i =>
  Host.dotGeneral (F := Ideal) (φ₁ := .f32) (φ₂ := .f32) (DotDims.plain 50000 128 128) none (V c main_arg0) (V c main_v16) i
    + V c main_v17 (ix2 (0 : Fin 1) (i 1))

/-- Local entry `(p, k)` of the node array's block at point `t` is entry `(2000 t + p, k)` of the array. -/
theorem emb0_0 (t : Fin cfg0.N) (p : Fin 2000) (k : Fin 128) (P : Fin 50000) (hP : P.val = t.val * 2000 + p.val) :
    ((cfg0.win 0).blk t).view.emb (ix2 p k) = ix2 P k := by
  obtain ⟨e0, e1, -⟩ := index_facts0 t
  funext a; apply Fin.ext
  match a with
  | ⟨0, _⟩ => show win0_0.index t (0 : Fin 2) * 2000 + 1 * p.val = P.val; omega
  | ⟨1, _⟩ => show win0_0.index t (1 : Fin 2) * 128 + 1 * k.val = k.val; omega

/-- The weight window's block is the whole array. -/
theorem emb0_1 (t : Fin cfg0.N) (k : Fin 128) (q : Fin 128) :
    ((cfg0.win 1).blk t).view.emb (ix2 k q) = ix2 k q := by
  obtain ⟨-, -, e0, e1, -⟩ := index_facts0 t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The bias window's block is the whole row. -/
theorem emb0_2 (t : Fin cfg0.N) (q : Fin 128) :
    ((cfg0.win 2).blk t).view.emb (ix2 (0 : Fin 1) q) = ix2 (0 : Fin 1) q := by
  obtain ⟨-, -, -, -, e0, e1, -⟩ := index_facts0 t
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- Local entry `(p, q)` of the result's block at point `t` is entry `(2000 t + p, q)` of the array. -/
theorem emb0_3 (t : Fin cfg0.N) (p : Fin 2000) (q : Fin 128) (P : Fin 50000) (hP : P.val = t.val * 2000 + p.val) :
    ((cfg0.win 3).blk t).view.emb (ix2 p q) = ix2 P q := by
  obtain ⟨-, -, -, -, -, -, e0, e1⟩ := index_facts0 t
  funext a; apply Fin.ext
  match a with
  | ⟨0, _⟩ => show win0_3.index t (0 : Fin 2) * 2000 + 1 * p.val = P.val; omega
  | ⟨1, _⟩ => show win0_3.index t (1 : Fin 2) * 128 + 1 * q.val = q.val; omega

/-- The payload of a block of rows, at the arrays the blocks are read from. -/
theorem pay0_eq (A : FVec Ideal S50000x128 .f32) (W : FVec Ideal S128x128 .f32) (b : FVec Ideal S1x128 .f32)
    (x0 : FVec Ideal S2000x128 .f32) (x1 : FVec Ideal S128x128 .f32) (x2 : FVec Ideal S1x128 .f32)
    (P : Fin 50000) (p : Fin 2000) (q : Fin 128)
    (h0 : ∀ k : Fin 128, x0 (ix2 p k) = A (ix2 P k)) (h1 : ∀ k : Fin 128, x1 (ix2 k q) = W (ix2 k q))
    (h2 : x2 (ix2 (0 : Fin 1) q) = b (ix2 (0 : Fin 1) q)) :
    k0_pay1 x0 x1 x2 (ix2 p q)
      = FloatOps.dotGeneral (DotDims.plain 50000 128 128) none .single A W (ix2 P q) + b (ix2 (0 : Fin 1) q) := by
  rw [pay0_apply, h2]
  exact congrArg (· + b (ix2 (0 : Fin 1) q)) (Cert.Lib.RowBlock.matmul_eq_dotGeneral none none .single A W x0 x1 P p q h0 h1)

/-- What point `t` writes back is block `t` of `whole0`. -/
theorem flushed0_eq (c : Dev nD) (t : Fin cfg0.N) :
    (dat0 V c).flushed 3 t = ((cfg0.win 3).blk t).view.read (Elt Ideal) (whole0 V c) := by
  show (cfg0.win 3).cut (grid0.coords t) ((dat0 V c).after 3 t) = _
  rw [after0_3]
  unfold out0_3
  rw [View.canon_unit_zero zero_offsets0]
  simp only [View.ld_unit_zero (S := S2000x128) zero_offsets0, View.ld_unit_zero (S := S128x128) zero_offsets0, View.ld_unit_zero (S := S1x128) zero_offsets0]
  show (fun j : S2000x128.Idx => k0_pay1 (iblk0 V c 0 t) (iblk0 V c 1 t) (iblk0 V c 2 t) j)
    = fun j : S2000x128.Idx => whole0 V c (((cfg0.win 3).blk t).view.emb j)
  funext j
  obtain ⟨p, q, rfl⟩ : ∃ (p : Fin 2000) (q : Fin 128), j = ix2 p q := ⟨j 0, j 1, eq_ix2 j⟩
  have hN : cfg0.N = 25 := N_0
  have ht : t.val < 25 := hN ▸ t.isLt
  have hp : t.val * 2000 + p.val < 50000 := by have := p.isLt; omega
  rw [emb0_3 t p q ⟨t.val * 2000 + p.val, hp⟩ rfl]
  refine (pay0_eq (V c main_arg0) (V c main_v16) (V c main_v17) _ _ _ ⟨t.val * 2000 + p.val, hp⟩ p q (fun k => ?_) (fun k => ?_) ?_).trans ?_
  · rw [iblk0_0_apply, emb0_0 t p k ⟨t.val * 2000 + p.val, hp⟩ rfl]
  · rw [iblk0_1_apply, emb0_1 t k q]
  · rw [iblk0_2_apply, emb0_2 t q]
  · rfl

/-- An index of the result array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v18).slice (win0_3.rect t)).set ↔ _
  rw [View.set_slice_whole, Rect.mem_set_unit]
  exact Iff.rfl

/-- Every row is in the block of the point numbered by the row's quotient by the block height. -/
theorem cover0 (i : S50000x128.Idx) : ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  have hq : (i 0).val / 2000 < cfg0.N := by rw [hN]; omega
  refine ⟨⟨(i 0).val / 2000, hq⟩, flush0_3 _, ?_⟩
  rw [mem_blk0]
  obtain ⟨-, -, -, -, -, -, e0, e1⟩ := index_facts0 ⟨(i 0).val / 2000, hq⟩
  intro a
  match a with
  | ⟨0, _⟩ =>
    show win0_3.index ⟨(i 0).val / 2000, hq⟩ (0 : Fin 2) * 2000 ≤ (i 0).val ∧ (i 0).val < win0_3.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win0_3.index ⟨(i 0).val / 2000, hq⟩ (1 : Fin 2) * 128 ≤ (i 1).val ∧ (i 1).val < win0_3.index ⟨(i 0).val / 2000, hq⟩ (1 : Fin 2) * 128 + 128
    omega

/-- The result array after region 0: `whole0` of the arrays the region reads. -/
theorem final0 (c : Dev nD) : (dat0 V c).arrAt 3 cfg0.N = whole0 V c :=
  (dat0 V c).arrAt_eq_of_cover 3 (whole0 V c) (fun t _ => flushed0_eq V c t) cover0

/-- Region 0's result array, entry by entry: the product of the node array with the weight array, plus the bias row. -/
theorem out0_apply (c : Dev nD) (r : Fin 50000) (q : Fin 128) :
    (dat0 V c).arrAt 3 cfg0.N (ix2 r q)
      = Host.dotGeneral (F := Ideal) (φ₁ := .f32) (φ₂ := .f32) (DotDims.plain 50000 128 128) none (V c main_arg0) (V c main_v16) (ix2 r q)
        + V c main_v17 (ix2 (0 : Fin 1) q) := by
  rw [final0]
  rfl

end Cert.KernelIdeal.Regions

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.Region1.lean ====
/-
  Region 1 of the kernel as functions of whole arrays.

  The region's grid has 25 points; point `t` reads rows `2000 t … 2000 t + 1999` of the node array `main_arg0`, of the
  scale column `main_v37` ([50000, 1]), of the aggregate array `main_v31` and of the carried array `main_v18`, and the whole
  weight array `main_v35` ([128, 128]) and bias row `main_v36` ([1, 128]); it writes the same rows of two result arrays.
  The first, `main_v38_0`, receives the node rows scaled by the column, minus the aggregate rows: entry `(r, q)` of the
  array the region leaves is `s (r, 0) * x (r, q) - a (r, q)` (`txn1_apply`). The second, `main_v38_1`, receives the carried
  rows plus the product of the FIRST stored block with the weights, accumulated from zero, plus the bias row: since the
  first stored block's rows are the rows of the first result array, entry `(r, q)` is the carried entry plus entry
  `(r, q)` of the product of the whole first result array with the weights, plus the bias at `q` (`out1_apply`). In both
  cases the blocks of the 25 points tile the 50000 rows and each point writes its block of one function of whole arrays.
-/
import proofs.«158343_j26250840113269_2_alg».proof.Proof.Gen.KernelIdeal.Frame
import proofs.«158343_j26250840113269_2_alg».proof.Proof.LibRowBlock
import proofs.«158343_j26250840113269_2_alg».proof.Proof.LibKeepdims
import Idealize.ShloMosaic.Lib.Pipeline.Value
import Idealize.ShloMosaic.Lib.ValueLayout
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, as a constant function. -/
theorem zero_offsets1 : (![0, 0] : Fin 2 → Nat) = fun _ => 0 := funext fun a => by fin_cases a <;> rfl

/-- The block index of each window at each of the 25 points: a row-blocked window is at block row `t`, column block 0;
    a whole window (weights, bias) at block (0, 0). -/
theorem index_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

/-- The first stored value at local entry `(p, q)`: the scale column at row `p` times the first block, minus the second. -/
theorem pay1_apply (v0 : FVec Ideal S2000x1 .f32) (v2 v5 : FVec Ideal S2000x128 .f32) (p : Fin 2000) (q : Fin 128) :
    k1_pay1 v0 v2 v5 (ix2 p q) = v0 (ix2 p (0 : Fin 1)) * v2 (ix2 p q) - v5 (ix2 p q) := by
  unfold k1_pay1
  simp only [shapeCast_self]
  rw [subf_apply, mulf_apply, Idealize.ShloMosaic.ValueKeepdims.broadcastTo_a1_ab_apply]

/-- The second stored value at local entry `(p, q)`: the carried block, plus the first stored value's product with the
    weights from the zero accumulator, plus the bias row at `q`. -/
theorem pay2_apply (v0 : FVec Ideal S2000x1 .f32) (v2 v5 v9 : FVec Ideal S2000x128 .f32) (v11 : FVec Ideal S128x128 .f32)
    (v15 : FVec Ideal S1x128 .f32) (p : Fin 2000) (q : Fin 128) :
    k1_pay2 v0 v2 v5 v9 v11 v15 (ix2 p q)
      = (v9 (ix2 p q) + FloatOps.matmul (DotDims.plain 2000 128 128) none (k1_pay1 v0 v2 v5) v11
            (constant ⟨2, ![2000, 128]⟩ .f32 0x00000000#32) (ix2 p q))
        + v15 (ix2 (0 : Fin 1) q) := by
  unfold k1_pay2
  simp only [shapeCast_self]
  rw [addf_apply, addf_apply, broadcastTo_1b_ab_apply]
  rfl

/-- A window's block at a point, read at a local index, is its array at the index's image in the array. -/
theorem iblk1_0_apply (c : Dev nD) (t : Fin cfg1.N) (y : S2000x128.Idx) :
    iblk1 V c 0 t y = V c main_arg0 (((cfg1.win 0).blk t).view.emb y) := rfl
theorem iblk1_1_apply (c : Dev nD) (t : Fin cfg1.N) (y : S2000x1.Idx) :
    iblk1 V c 1 t y = V c main_v37 (((cfg1.win 1).blk t).view.emb y) := rfl
theorem iblk1_2_apply (c : Dev nD) (t : Fin cfg1.N) (y : S2000x128.Idx) :
    iblk1 V c 2 t y = V c main_v31 (((cfg1.win 2).blk t).view.emb y) := rfl
theorem iblk1_3_apply (c : Dev nD) (t : Fin cfg1.N) (y : S128x128.Idx) :
    iblk1 V c 3 t y = V c main_v35 (((cfg1.win 3).blk t).view.emb y) := rfl
theorem iblk1_4_apply (c : Dev nD) (t : Fin cfg1.N) (y : S1x128.Idx) :
    iblk1 V c 4 t y = V c main_v36 (((cfg1.win 4).blk t).view.emb y) := rfl
theorem iblk1_5_apply (c : Dev nD) (t : Fin cfg1.N) (y : S2000x128.Idx) :
    iblk1 V c 5 t y = V c main_v18 (((cfg1.win 5).blk t).view.emb y) := rfl

/-- Local entry `(p, k)` of a row-blocked window's block at point `t` is entry `(2000 t + p, k)` of its array. -/
theorem emb1_0 (t : Fin cfg1.N) (p : Fin 2000) (k : Fin 128) (P : Fin 50000) (hP : P.val = t.val * 2000 + p.val) :
    ((cfg1.win 0).blk t).view.emb (ix2 p k) = ix2 P k := by
  obtain ⟨e0, e1⟩ := (index_facts1 t).1
  funext a; apply Fin.ext
  match a with
  | ⟨0, _⟩ => show win1_0.index t (0 : Fin 2) * 2000 + 1 * p.val = P.val; omega
  | ⟨1, _⟩ => show win1_0.index t (1 : Fin 2) * 128 + 1 * k.val = k.val; omega

theorem emb1_1 (t : Fin cfg1.N) (p : Fin 2000) (k : Fin 1) (P : Fin 50000) (hP : P.val = t.val * 2000 + p.val) :
    ((cfg1.win 1).blk t).view.emb (ix2 p k) = ix2 P k := by
  obtain ⟨e0, e1⟩ := (index_facts1 t).2.1
  funext a; apply Fin.ext
  match a with
  | ⟨0, _⟩ => show win1_1.index t (0 : Fin 2) * 2000 + 1 * p.val = P.val; omega
  | ⟨1, _⟩ => show win1_1.index t (1 : Fin 2) * 1 + 1 * k.val = k.val; omega

theorem emb1_2 (t : Fin cfg1.N) (p : Fin 2000) (k : Fin 128) (P : Fin 50000) (hP : P.val = t.val * 2000 + p.val) :
    ((cfg1.win 2).blk t).view.emb (ix2 p k) = ix2 P k := by
  obtain ⟨e0, e1⟩ := (index_facts1 t).2.2.1
  funext a; apply Fin.ext
  match a with
  | ⟨0, _⟩ => show win1_2.index t (0 : Fin 2) * 2000 + 1 * p.val = P.val; omega
  | ⟨1, _⟩ => show win1_2.index t (1 : Fin 2) * 128 + 1 * k.val = k.val; omega

theorem emb1_5 (t : Fin cfg1.N) (p : Fin 2000) (k : Fin 128) (P : Fin 50000) (hP : P.val = t.val * 2000 + p.val) :
    ((cfg1.win 5).blk t).view.emb (ix2 p k) = ix2 P k := by
  obtain ⟨e0, e1⟩ := (index_facts1 t).2.2.2.2.2.1
  funext a; apply Fin.ext
  match a with
  | ⟨0, _⟩ => show win1_5.index t (0 : Fin 2) * 2000 + 1 * p.val = P.val; omega
  | ⟨1, _⟩ => show win1_5.index t (1 : Fin 2) * 128 + 1 * k.val = k.val; omega

theorem emb1_6 (t : Fin cfg1.N) (p : Fin 2000) (k : Fin 128) (P : Fin 50000) (hP : P.val = t.val * 2000 + p.val) :
    ((cfg1.win 6).blk t).view.emb (ix2 p k) = ix2 P k := by
  obtain ⟨e0, e1⟩ := (index_facts1 t).2.2.2.2.2.2.1
  funext a; apply Fin.ext
  match a with
  | ⟨0, _⟩ => show win1_6.index t (0 : Fin 2) * 2000 + 1 * p.val = P.val; omega
  | ⟨1, _⟩ => show win1_6.index t (1 : Fin 2) * 128 + 1 * k.val = k.val; omega

theorem emb1_7 (t : Fin cfg1.N) (p : Fin 2000) (k : Fin 128) (P : Fin 50000) (hP : P.val = t.val * 2000 + p.val) :
    ((cfg1.win 7).blk t).view.emb (ix2 p k) = ix2 P k := by
  obtain ⟨e0, e1⟩ := (index_facts1 t).2.2.2.2.2.2.2
  funext a; apply Fin.ext
  match a with
  | ⟨0, _⟩ => show win1_7.index t (0 : Fin 2) * 2000 + 1 * p.val = P.val; omega
  | ⟨1, _⟩ => show win1_7.index t (1 : Fin 2) * 128 + 1 * k.val = k.val; omega

/-- The weight window's block is the whole array. -/
theorem emb1_3 (t : Fin cfg1.N) (k : Fin 128) (q : Fin 128) :
    ((cfg1.win 3).blk t).view.emb (ix2 k q) = ix2 k q := by
  obtain ⟨e0, e1⟩ := (index_facts1 t).2.2.2.1
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The bias window's block is the whole row. -/
theorem emb1_4 (t : Fin cfg1.N) (q : Fin 128) :
    ((cfg1.win 4).blk t).view.emb (ix2 (0 : Fin 1) q) = ix2 (0 : Fin 1) q := by
  obtain ⟨e0, e1⟩ := (index_facts1 t).2.2.2.2.1
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-! ## The first result array: the scaled node rows minus the aggregate -/

/-- Entry `(r, q)` is `s (r, 0) * x (r, q) - a (r, q)`: the rows of `x` scaled by the column `s`, minus `a`. -/
def scaledMinus1 (s : FVec Ideal S50000x1 .f32) (x a : FVec Ideal S50000x128 .f32) : FVec Ideal S50000x128 .f32 :=
  fun i => s (ix2 (i 0) (0 : Fin 1)) * x i - a i

/-- The first result array of region 1 as one function of the arrays it reads. -/
def wholeTxn1 (c : Dev nD) : S50000x128.Idx → Elt Ideal .f32 :=
  scaledMinus1 (V c main_v37) (V c main_arg0) (V c main_v31)

/-- The first stored value of the blocks at point `t`, at local entry `(p, k)`, is `wholeTxn1` at `(2000 t + p, k)`. -/
theorem txn_block1 (c : Dev nD) (t : Fin cfg1.N) (p : Fin 2000) (k : Fin 128) (P : Fin 50000) (hP : P.val = t.val * 2000 + p.val) :
    k1_pay1 (iblk1 V c 1 t) (iblk1 V c 0 t) (iblk1 V c 2 t) (ix2 p k) = wholeTxn1 V c (ix2 P k) := by
  refine (pay1_apply _ _ _ p k).trans ?_
  rw [iblk1_1_apply, iblk1_0_apply, iblk1_2_apply, emb1_1 t p 0 P hP, emb1_0 t p k P hP, emb1_2 t p k P hP]
  rfl

/-- What point `t` writes back to the first result array is block `t` of `wholeTxn1`. -/
theorem flushed1_6_eq (c : Dev nD) (t : Fin cfg1.N) :
    (dat1 V c).flushed 6 t = ((cfg1.win 6).blk t).view.read (Elt Ideal) (wholeTxn1 V c) := by
  show (cfg1.win 6).cut (grid1.coords t) ((dat1 V c).after 6 t) = _
  rw [after1_6]
  unfold out1_6
  rw [View.canon_unit_zero zero_offsets1]
  simp only [View.ld_unit_zero (S := S2000x128) zero_offsets1, View.ld_unit_zero (S := S2000x1) zero_offsets1]
  show (fun j : S2000x128.Idx => k1_pay1 (iblk1 V c 1 t) (iblk1 V c 0 t) (iblk1 V c 2 t) j)
    = fun j : S2000x128.Idx => wholeTxn1 V c (((cfg1.win 6).blk t).view.emb j)
  funext j
  obtain ⟨p, q, rfl⟩ : ∃ (p : Fin 2000) (q : Fin 128), j = ix2 p q := ⟨j 0, j 1, eq_ix2 j⟩
  have hN : cfg1.N = 25 := N_1
  have ht : t.val < 25 := hN ▸ t.isLt
  have hp : t.val * 2000 + p.val < 50000 := by have := p.isLt; omega
  rw [emb1_6 t p q ⟨t.val * 2000 + p.val, hp⟩ rfl]
  exact txn_block1 V c t p q ⟨t.val * 2000 + p.val, hp⟩ rfl

/-- An index of the array is in point `t`'s block iff each coordinate is in the block's range on its axis. -/
theorem mem_blk1_6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v38_0).slice (win1_6.rect t)).set ↔ _
  rw [View.set_slice_whole, Rect.mem_set_unit]
  exact Iff.rfl

/-- Every row is in the block of the point numbered by the row's quotient by the block height. -/
theorem cover1_6 (i : S50000x128.Idx) : ∃ t : Fin cfg1.N, (cfg1.win 6).flush t = true ∧ i ∈ ((cfg1.win 6).blk t).view.set := by
  have hN : cfg1.N = 25 := N_1
  have hi0 : (i 0).val < 50000 := (i 0).isLt
  have hi1 : (i 1).val < 128 := (i 1).isLt
  have hq : (i 0).val / 2000 < cfg1.N := by rw [hN]; omega
  refine ⟨⟨(i 0).val / 2000, hq⟩, flush1_6 _, ?_⟩
  rw [mem_blk1_6]
  obtain ⟨e0, e1⟩ := (index_facts1 ⟨(i 0).val / 2000, hq⟩).2.2.2.2.2.2.1
  intro a
  match a with
  | ⟨0, _⟩ =>
    show win1_6.index ⟨(i 0).val / 2000, hq⟩ (0 : Fin 2) * 2000 ≤ (i 0).val ∧ (i 0).val < win1_6.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, hq⟩ (1 : Fin 2) * 128 ≤ (i 1).val ∧ (i 1).val < win1_6.index ⟨(i 0).val / 2000, hq⟩ (1 : Fin 2) * 128 + 128
    omega

/-- The first result array after region 1: `wholeTxn1` of the arrays the region reads. -/
theorem final1_6 (c : Dev nD) : (dat1 V c).arrAt 6 cfg1.N = wholeTxn1 V c :=
  (dat1 V c).arrAt_eq_of_cover 6 (wholeTxn1 V c) (fun t _ => flushed1_6_eq V c t) cover1_6

/-- Region 1's first result array, entry by entry: the scale column's row entry times the node entry, minus the aggregate
    entry — `sd`, `xc`, `ag` the contents of the scale column, the node array and the aggregate array at the region's entry. -/
theorem txn1_apply (c : Dev nD) (sd : FVec Ideal S50000x1 .f32) (xc ag : FVec Ideal S50000x128 .f32)
    (hsd : V c main_v37 = sd) (hxc : V c main_arg0 = xc) (hag : V c main_v31 = ag) (r : Fin 50000) (q : Fin 128) :
    (dat1 V c).arrAt 6 cfg1.N (ix2 r q) = sd (ix2 r (0 : Fin 1)) * xc (ix2 r q) - ag (ix2 r q) := by
  subst hsd hxc hag
  rw [final1_6]
  rfl

/-! ## The second result array: the carried array plus the first result's product with the weights, plus the bias -/

/-- Entry `(r, q)` is `o (r, q) + (A · w) (r, q) + b (0, q)`: the carried array, plus the product of `A` with the weights, plus
    the bias row. -/
def carriedPlus1 (o A : FVec Ideal S50000x128 .f32) (w : FVec Ideal S128x128 .f32) (b : FVec Ideal S1x128 .f32) :
    FVec Ideal S50000x128 .f32 :=
  fun i => (o i + Host.dotGeneral (F := Ideal) (DotDims.plain 50000 128 128) none A w i) + b (ix2 (0 : Fin 1) (i 1))

/-- The second result array of region 1 as one function of the arrays it reads and of the first result array. -/
def wholeOut1 (c : Dev nD) : S50000x128.Idx → Elt Ideal .f32 :=
  carriedPlus1 (V c main_v18) ((dat1 V c).arrAt 6 cfg1.N) (V c main_v35) (V c main_v36)

/-- The second stored value of a block of rows, at the arrays the blocks are read from: `A` the array whose rows the
    first stored value's rows are, `O` the carried array, `W` the weights, `b` the bias row. -/
theorem pay2_eq (A O : FVec Ideal S50000x128 .f32) (W : FVec Ideal S128x128 .f32) (b : FVec Ideal S1x128 .f32)
    (v0 : FVec Ideal S2000x1 .f32) (v2 v5 v9 : FVec Ideal S2000x128 .f32) (v11 : FVec Ideal S128x128 .f32) (v15 : FVec Ideal S1x128 .f32)
    (P : Fin 50000) (p : Fin 2000) (q : Fin 128)
    (hA : ∀ k : Fin 128, k1_pay1 v0 v2 v5 (ix2 p k) = A (ix2 P k)) (hW : ∀ k : Fin 128, v11 (ix2 k q) = W (ix2 k q))
    (hb : v15 (ix2 (0 : Fin 1) q) = b (ix2 (0 : Fin 1) q)) (hO : v9 (ix2 p q) = O (ix2 P q)) :
    k1_pay2 v0 v2 v5 v9 v11 v15 (ix2 p q)
      = (O (ix2 P q) + FloatOps.dotGeneral (DotDims.plain 50000 128 128) none .single A W (ix2 P q)) + b (ix2 (0 : Fin 1) q) := by
  rw [pay2_apply, hb, hO, Cert.Lib.RowBlock.matmul_eq_dotGeneral none none .single A W (k1_pay1 v0 v2 v5) v11 P p q hA hW]

/-- What point `t` writes back to the second result array is block `t` of `wholeOut1`. -/
theorem flushed1_7_eq (c : Dev nD) (t : Fin cfg1.N) :
    (dat1 V c).flushed 7 t = ((cfg1.win 7).blk t).view.read (Elt Ideal) (wholeOut1 V c) := by
  show (cfg1.win 7).cut (grid1.coords t) ((dat1 V c).after 7 t) = _
  rw [after1_7]
  unfold out1_7
  rw [View.canon_unit_zero zero_offsets1]
  simp only [View.ld_unit_zero (S := S2000x128) zero_offsets1, View.ld_unit_zero (S := S2000x1) zero_offsets1,
    View.ld_unit_zero (S := S128x128) zero_offsets1, View.ld_unit_zero (S := S1x128) zero_offsets1]
  show (fun j : S2000x128.Idx => k1_pay2 (iblk1 V c 1 t) (iblk1 V c 0 t) (iblk1 V c 2 t) (iblk1 V c 5 t) (iblk1 V c 3 t) (iblk1 V c 4 t) j)
    = fun j : S2000x128.Idx => wholeOut1 V c (((cfg1.win 7).blk t).view.emb j)
  funext j
  obtain ⟨p, q, rfl⟩ : ∃ (p : Fin 2000) (q : Fin 128), j = ix2 p q := ⟨j 0, j 1, eq_ix2 j⟩
  have hN : cfg1.N = 25 := N_1
  have ht : t.val < 25 := hN ▸ t.isLt
  have hp : t.val * 2000 + p.val < 50000 := by have := p.isLt; omega
  rw [emb1_7 t p q ⟨t.val * 2000 + p.val, hp⟩ rfl]
  refine (pay2_eq ((dat1 V c).arrAt 6 cfg1.N) (V c main_v18) (V c main_v35) (V c main_v36) _ _ _ _ _ _
    ⟨t.val * 2000 + p.val, hp⟩ p q (fun k => ?_) (fun k => ?_) ?_ ?_).trans ?_
  · exact (txn_block1 V c t p k ⟨t.val * 2000 + p.val, hp⟩ rfl).trans (congrFun (final1_6 V c).symm _)
  · rw [iblk1_3_apply, emb1_3 t k q]
  · rw [iblk1_4_apply, emb1_4 t q]
  · rw [iblk1_5_apply, emb1_5 t p q ⟨t.val * 2000 + p.val, hp⟩ rfl]
  · rfl

/-- An index of the array is in point `t`'s block iff each coordinate is in the block's range on its axis. -/
theorem mem_blk1_7 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v38_1).slice (win1_7.rect t)).set ↔ _
  rw [View.set_slice_whole, Rect.mem_set_unit]
  exact Iff.rfl

/-- Every row is in the block of the point numbered by the row's quotient by the block height. -/
theorem cover1_7 (i : S50000x128.Idx) : ∃ t : Fin cfg1.N, (cfg1.win 7).flush t = true ∧ i ∈ ((cfg1.win 7).blk t).view.set := by
  have hN : cfg1.N = 25 := N_1
  have hi0 : (i 0).val < 50000 := (i 0).isLt
  have hi1 : (i 1).val < 128 := (i 1).isLt
  have hq : (i 0).val / 2000 < cfg1.N := by rw [hN]; omega
  refine ⟨⟨(i 0).val / 2000, hq⟩, flush1_7 _, ?_⟩
  rw [mem_blk1_7]
  obtain ⟨e0, e1⟩ := (index_facts1 ⟨(i 0).val / 2000, hq⟩).2.2.2.2.2.2.2
  intro a
  match a with
  | ⟨0, _⟩ =>
    show win1_7.index ⟨(i 0).val / 2000, hq⟩ (0 : Fin 2) * 2000 ≤ (i 0).val ∧ (i 0).val < win1_7.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win1_7.index ⟨(i 0).val / 2000, hq⟩ (1 : Fin 2) * 128 ≤ (i 1).val ∧ (i 1).val < win1_7.index ⟨(i 0).val / 2000, hq⟩ (1 : Fin 2) * 128 + 128
    omega

/-- The second result array after region 1: `wholeOut1`. -/
theorem final1_7 (c : Dev nD) : (dat1 V c).arrAt 7 cfg1.N = wholeOut1 V c :=
  (dat1 V c).arrAt_eq_of_cover 7 (wholeOut1 V c) (fun t _ => flushed1_7_eq V c t) cover1_7

/-- Region 1's second result array, entry by entry: the carried entry, plus the entry of the product of the first
    result array with the weight array, plus the bias at the column — `op`, `wm`, `bv` the contents of the carried array,
    the weight array and the bias row at the region's entry. -/
theorem out1_apply (c : Dev nD) (op : FVec Ideal S50000x128 .f32) (wm : FVec Ideal S128x128 .f32) (bv : FVec Ideal S1x128 .f32)
    (hop : V c main_v18 = op) (hwm : V c main_v35 = wm) (hbv : V c main_v36 = bv) (r : Fin 50000) (q : Fin 128) :
    (dat1 V c).arrAt 7 cfg1.N (ix2 r q)
      = (op (ix2 r q)
          + Host.dotGeneral (F := Ideal) (φ₁ := .f32) (DotDims.plain 50000 128 128) none ((dat1 V c).arrAt 6 cfg1.N) wm (ix2 r q))
        + bv (ix2 (0 : Fin 1) q) := by
  subst hop hwm hbv
  rw [final1_7]
  rfl

end Cert.KernelIdeal.Regions

end
-- ==== Proof.Region2.lean ====
/-
  Region 2 of the kernel as whole-array functions, on the extended reals.

  The region's grid has 25 points; point `t` works on rows `2000 t … 2000 t + 1999` of seven row-blocked arrays and on the
  whole weight matrix and bias row. Its first output array ends holding, entry by entry,
  `2 · (sd(r, 0) · xc(r, q) − ag(r, q)) − xp(r, q)`; its second output array ends holding
  `(op(r, q) + (T · wm)(r, q)) + bv(0, q)`, where `T` is the first output array the same region leaves and `T · wm` the
  one whole matrix product: each point's product of its 2000 rows with the whole weight matrix, accumulated from zero, is
  those rows of the whole product, the same sum term by term.

  The steps: the block indices of every window decided over the grid; each input block's entry as an entry of its array;
  the two stored payloads at a local index; what a point writes back as a block of the whole-array function; every row
  is in the block of point `r / 2000`; hence the arrays after the region.
-/
import proofs.«158343_j26250840113269_2_alg».proof.Proof.Gen.KernelIdeal.Frame
import proofs.«158343_j26250840113269_2_alg».proof.Proof.LibPlainDot
import proofs.«158343_j26250840113269_2_alg».proof.Proof.LibRowBlock
import proofs.«158343_j26250840113269_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Regions

open Cert.KernelIdeal Cert.KernelIdeal.Gen

variable (V : (c : Dev nD) → (b : Ref sig .tc) → Buf (Elt Ideal) ((c : Thread nD τ).loc b))

local infixl:70 " *ₑ " => (HMul.hMul : EReal → EReal → EReal)
local infixl:65 " -ₑ " => (HSub.hSub : EReal → EReal → EReal)
local infixl:65 " +ₑ " => (HAdd.hAdd : EReal → EReal → EReal)

theorem hz_R2 : (![0, 0] : Fin 2 → Nat) = fun _ => 0 := funext fun a => by fin_cases a <;> rfl

/-- The windows' block indices over the grid: the row-blocked windows sit at block row `t`, the whole windows at block zero. -/
theorem idx_facts_R2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0)
    ∧ (win2_8.index t (0 : Fin 2) = t.val ∧ win2_8.index t (1 : Fin 2) = 0) :=
  (by decide +kernel : ∀ t : Fin grid2.N, _)

/-- The payload of the first store at a local index. -/
theorem pay1_apply_R2 (sd : Vec Ideal S2000x1 .f32) (xc ag xp : Vec Ideal S2000x128 .f32) (p : Fin 2000) (q : Fin 128) :
    k2_pay1 sd xc ag xp (ix2 p q)
      = Ideal.ofBits .f32 0x40000000#32 * (sd (ix2 p (0 : Fin 1)) * xc (ix2 p q) - ag (ix2 p q)) - xp (ix2 p q) := by
  unfold k2_pay1
  simp only [shapeCast_self]
  rw [subf_apply, mulf_apply, broadcast_apply, subf_apply, mulf_apply, ValueKeepdims.broadcastTo_a1_ab_apply]
  rfl

/-- Window 0's block at point `t`, entry `(p, q)`, is its array's entry `(2000 t + p, q)`. -/
theorem blk0_apply_R2 (c : Dev nD) (t : Fin cfg2.N) (p : Fin 2000) (q : Fin 128) (r : Fin 50000)
    (hr : r.val = t.val * 2000 + p.val) :
    (iblk2 V c 0 t : Vec Ideal S2000x128 .f32) (ix2 p q) = (V c main_v38_0 : S50000x128.Idx → EReal) (ix2 r q) := by
  unfold iblk2
  rw [View.read_apply]
  show V c main_v38_0 _ = V c main_v38_0 _
  refine congrArg _ ?_
  funext a
  apply Fin.ext
  match a with
  | ⟨0, _⟩ => show win2_0.index t (0 : Fin 2) * 2000 + 1 * p.val = r.val; rw [(idx_facts_R2 t).1.1, hr]; omega
  | ⟨1, _⟩ => show win2_0.index t (1 : Fin 2) * 128 + 1 * q.val = q.val; rw [(idx_facts_R2 t).1.2]; omega

/-- Window 1's block at point `t`, entry `(p, q)`, is its array's entry `(2000 t + p, q)`. -/
theorem blk1_apply_R2 (c : Dev nD) (t : Fin cfg2.N) (p : Fin 2000) (q : Fin 128) (r : Fin 50000)
    (hr : r.val = t.val * 2000 + p.val) :
    (iblk2 V c 1 t : Vec Ideal S2000x128 .f32) (ix2 p q) = (V c main_arg0 : S50000x128.Idx → EReal) (ix2 r q) := by
  unfold iblk2
  rw [View.read_apply]
  show V c main_arg0 _ = V c main_arg0 _
  refine congrArg _ ?_
  funext a
  apply Fin.ext
  match a with
  | ⟨0, _⟩ => show win2_1.index t (0 : Fin 2) * 2000 + 1 * p.val = r.val; rw [(idx_facts_R2 t).2.1.1, hr]; omega
  | ⟨1, _⟩ => show win2_1.index t (1 : Fin 2) * 128 + 1 * q.val = q.val; rw [(idx_facts_R2 t).2.1.2]; omega

/-- Window 2's block (a column) at point `t`, entry `(p, 0)`, is its array's entry `(2000 t + p, 0)`. -/
theorem blk2_apply_R2 (c : Dev nD) (t : Fin cfg2.N) (p : Fin 2000) (r : Fin 50000)
    (hr : r.val = t.val * 2000 + p.val) :
    (iblk2 V c 2 t : Vec Ideal S2000x1 .f32) (ix2 p (0 : Fin 1)) = (V c main_v57 : S50000x1.Idx → EReal) (ix2 r (0 : Fin 1)) := by
  unfold iblk2
  rw [View.read_apply]
  show V c main_v57 _ = V c main_v57 _
  refine congrArg _ ?_
  funext a
  apply Fin.ext
  match a with
  | ⟨0, _⟩ => show win2_2.index t (0 : Fin 2) * 2000 + 1 * p.val = r.val; rw [(idx_facts_R2 t).2.2.1.1, hr]; omega
  | ⟨1, _⟩ => show win2_2.index t (1 : Fin 2) * 1 + 1 * (0 : Fin 1).val = (0 : Fin 1).val; rw [(idx_facts_R2 t).2.2.1.2]; rfl

/-- Window 3's block at point `t`, entry `(p, q)`, is its array's entry `(2000 t + p, q)`. -/
theorem blk3_apply_R2 (c : Dev nD) (t : Fin cfg2.N) (p : Fin 2000) (q : Fin 128) (r : Fin 50000)
    (hr : r.val = t.val * 2000 + p.val) :
    (iblk2 V c 3 t : Vec Ideal S2000x128 .f32) (ix2 p q) = (V c main_v51 : S50000x128.Idx → EReal) (ix2 r q) := by
  unfold iblk2
  rw [View.read_apply]
  show V c main_v51 _ = V c main_v51 _
  refine congrArg _ ?_
  funext a
  apply Fin.ext
  match a with
  | ⟨0, _⟩ => show win2_3.index t (0 : Fin 2) * 2000 + 1 * p.val = r.val; rw [(idx_facts_R2 t).2.2.2.1.1, hr]; omega
  | ⟨1, _⟩ => show win2_3.index t (1 : Fin 2) * 128 + 1 * q.val = q.val; rw [(idx_facts_R2 t).2.2.2.1.2]; omega

/-- Window 4's block is its whole array. -/
theorem blk4_apply_R2 (c : Dev nD) (t : Fin cfg2.N) (k : Fin 128) (q : Fin 128) :
    (iblk2 V c 4 t : Vec Ideal S128x128 .f32) (ix2 k q) = (V c main_v55 : S128x128.Idx → EReal) (ix2 k q) := by
  unfold iblk2
  rw [View.read_apply]
  show V c main_v55 _ = V c main_v55 _
  refine congrArg _ ?_
  funext a
  apply Fin.ext
  match a with
  | ⟨0, _⟩ => show win2_4.index t (0 : Fin 2) * 128 + 1 * k.val = k.val; rw [(idx_facts_R2 t).2.2.2.2.1.1]; omega
  | ⟨1, _⟩ => show win2_4.index t (1 : Fin 2) * 128 + 1 * q.val = q.val; rw [(idx_facts_R2 t).2.2.2.2.1.2]; omega

/-- Window 5's block is its whole array. -/
theorem blk5_apply_R2 (c : Dev nD) (t : Fin cfg2.N) (q : Fin 128) :
    (iblk2 V c 5 t : Vec Ideal S1x128 .f32) (ix2 (0 : Fin 1) q) = (V c main_v56 : S1x128.Idx → EReal) (ix2 (0 : Fin 1) q) := by
  unfold iblk2
  rw [View.read_apply]
  show V c main_v56 _ = V c main_v56 _
  refine congrArg _ ?_
  funext a
  apply Fin.ext
  match a with
  | ⟨0, _⟩ => show win2_5.index t (0 : Fin 2) * 1 + 1 * (0 : Fin 1).val = (0 : Fin 1).val; rw [(idx_facts_R2 t).2.2.2.2.2.1.1]; rfl
  | ⟨1, _⟩ => show win2_5.index t (1 : Fin 2) * 128 + 1 * q.val = q.val; rw [(idx_facts_R2 t).2.2.2.2.2.1.2]; omega

/-- Window 6's block at point `t`, entry `(p, q)`, is its array's entry `(2000 t + p, q)`. -/
theorem blk6_apply_R2 (c : Dev nD) (t : Fin cfg2.N) (p : Fin 2000) (q : Fin 128) (r : Fin 50000)
    (hr : r.val = t.val * 2000 + p.val) :
    (iblk2 V c 6 t : Vec Ideal S2000x128 .f32) (ix2 p q) = (V c main_v38_1 : S50000x128.Idx → EReal) (ix2 r q) := by
  unfold iblk2
  rw [View.read_apply]
  show V c main_v38_1 _ = V c main_v38_1 _
  refine congrArg _ ?_
  funext a
  apply Fin.ext
  match a with
  | ⟨0, _⟩ => show win2_6.index t (0 : Fin 2) * 2000 + 1 * p.val = r.val; rw [(idx_facts_R2 t).2.2.2.2.2.2.1.1, hr]; omega
  | ⟨1, _⟩ => show win2_6.index t (1 : Fin 2) * 128 + 1 * q.val = q.val; rw [(idx_facts_R2 t).2.2.2.2.2.2.1.2]; omega

/-- The first output array as one function of the arrays the region reads. -/
def txnFn_R2 (sd : S50000x1.Idx → EReal) (xc ag xp : S50000x128.Idx → EReal) : S50000x128.Idx → EReal :=
  fun i => Ideal.ofBits .f32 0x40000000#32
      * (sd (ix2 (⟨(i 0).val, idx2_lt0 i⟩ : Fin 50000) (0 : Fin 1)) * xc i - ag i) - xp i

theorem txnFn_apply_R2 (sd : S50000x1.Idx → EReal) (xc ag xp : S50000x128.Idx → EReal) (r : Fin 50000) (q : Fin 128) :
    txnFn_R2 sd xc ag xp (ix2 r q)
      = Ideal.ofBits .f32 0x40000000#32 * (sd (ix2 r (0 : Fin 1)) * xc (ix2 r q) - ag (ix2 r q)) - xp (ix2 r q) := rfl

/-- The first payload of the blocks at point `t`, at local `(p, q)`, is the function's entry at row `2000 t + p`. -/
theorem pay1_blk_R2 (c : Dev nD) (t : Fin cfg2.N) (p : Fin 2000) (q : Fin 128) (r : Fin 50000)
    (hr : r.val = t.val * 2000 + p.val) :
    k2_pay1 (iblk2 V c 2 t) (iblk2 V c 0 t) (iblk2 V c 3 t) (iblk2 V c 1 t) (ix2 p q)
      = txnFn_R2 (V c main_v57) (V c main_v38_0) (V c main_v51) (V c main_arg0) (ix2 r q) := by
  rw [pay1_apply_R2, txnFn_apply_R2, blk2_apply_R2 V c t p r hr, blk0_apply_R2 V c t p q r hr,
    blk3_apply_R2 V c t p q r hr, blk1_apply_R2 V c t p q r hr]

theorem point_lt_R2 (t : Fin cfg2.N) : t.val < 25 := lt_of_lt_of_eq t.isLt N_2

/-- An entry of point `t`'s block of an output window sits at row `2000 t + p` of the array. -/
theorem emb7_R2 (t : Fin cfg2.N) (p : Fin 2000) (q : Fin 128) (h : t.val * 2000 + p.val < 50000) :
    ((cfg2.win 7).blk t).view.emb (ix2 p q) = ix2 (⟨t.val * 2000 + p.val, h⟩ : Fin 50000) q := by
  funext a
  apply Fin.ext
  match a with
  | ⟨0, _⟩ => show win2_7.index t (0 : Fin 2) * 2000 + 1 * p.val = t.val * 2000 + p.val; rw [(idx_facts_R2 t).2.2.2.2.2.2.2.1.1]; omega
  | ⟨1, _⟩ => show win2_7.index t (1 : Fin 2) * 128 + 1 * q.val = q.val; rw [(idx_facts_R2 t).2.2.2.2.2.2.2.1.2]; omega

/-- What point `t` writes back to window 7 is block `t` of the function. -/
theorem flushed7_eq_R2 (c : Dev nD) (t : Fin cfg2.N) :
    (dat2 V c).flushed 7 t
      = ((cfg2.win 7).blk t).view.read (Elt Ideal) (txnFn_R2 (V c main_v57) (V c main_v38_0) (V c main_v51) (V c main_arg0)) := by
  show (cfg2.win 7).cut (grid2.coords t) ((dat2 V c).after 7 t) = _
  rw [after2_7]
  unfold out2_7
  rw [View.canon_unit_zero hz_R2]
  simp only [View.ld_unit_zero (S := S2000x128) hz_R2, View.ld_unit_zero (S := S2000x1) hz_R2]
  funext j
  obtain ⟨p, q, rfl⟩ : ∃ (p : Fin 2000) (q : Fin 128), j = ix2 p q := ⟨j 0, j 1, eq_ix2 j⟩
  have ht := point_lt_R2 t
  have hp := p.isLt
  rw [View.read_apply, emb7_R2 t p q (by omega)]
  exact pay1_blk_R2 V c t p q _ rfl

/-- An index of the array is in point `t`'s block of window 7 iff each coordinate is in the block's range on its axis. -/
theorem mem_blk7_R2 (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v58_0).slice (win2_7.rect t)).set ↔ _
  rw [View.set_slice_whole, Rect.mem_set_unit]
  exact Iff.rfl

/-- Row `r` of window 7's array is in the block of point `r / 2000`, which writes back. -/
theorem cover7_R2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 25 := N_2
  have hlt : (i 0).val / 2000 < cfg2.N := by rw [hN]; omega
  refine ⟨⟨(i 0).val / 2000, hlt⟩, flush2_7 _, ?_⟩
  rw [mem_blk7_R2]
  have e := (idx_facts_R2 ⟨(i 0).val / 2000, hlt⟩).2.2.2.2.2.2.2.1
  intro a
  match a with
  | ⟨0, _⟩ =>
    show win2_7.index ⟨(i 0).val / 2000, hlt⟩ (0 : Fin 2) * 2000 ≤ (i 0).val ∧ (i 0).val < win2_7.index ⟨(i 0).val / 2000, hlt⟩ (0 : Fin 2) * 2000 + 2000
    rw [e.1]; show (i 0).val / 2000 * 2000 ≤ (i 0).val ∧ (i 0).val < (i 0).val / 2000 * 2000 + 2000; omega
  | ⟨1, _⟩ =>
    show win2_7.index ⟨(i 0).val / 2000, hlt⟩ (1 : Fin 2) * 128 ≤ (i 1).val ∧ (i 1).val < win2_7.index ⟨(i 0).val / 2000, hlt⟩ (1 : Fin 2) * 128 + 128
    rw [e.2]; omega

/-- Window 7's array after the region is the function of the arrays the region reads. -/
theorem final7_R2 (c : Dev nD) :
    (dat2 V c).arrAt 7 cfg2.N = txnFn_R2 (V c main_v57) (V c main_v38_0) (V c main_v51) (V c main_arg0) :=
  (dat2 V c).arrAt_eq_of_cover 7 (txnFn_R2 (V c main_v57) (V c main_v38_0) (V c main_v51) (V c main_arg0))
    (fun t _ => flushed7_eq_R2 V c t) cover7_R2

/-- Region 2's first output array, entry by entry. -/
theorem txn2 (c : Dev nD) (r : Fin 50000) (q : Fin 128) :
    (dat2 V c).arrAt 7 cfg2.N (ix2 r q)
      = Ideal.ofBits .f32 0x40000000#32
          *ₑ (V c main_v57 (ix2 r (0 : Fin 1)) *ₑ V c main_v38_0 (ix2 r q) -ₑ V c main_v51 (ix2 r q))
        -ₑ V c main_arg0 (ix2 r q) := by
  rw [final7_R2]
  rfl

/-- The payload of the second store at a local index: the loaded sixth block, plus the product of the first payload with the
    weight block into the zero accumulator, plus the bias row. -/
theorem pay2_apply_R2 (sd : Vec Ideal S2000x1 .f32) (xc ag xp op : Vec Ideal S2000x128 .f32) (wm : Vec Ideal S128x128 .f32)
    (bv : Vec Ideal S1x128 .f32) (p : Fin 2000) (q : Fin 128) :
    k2_pay2 sd xc ag xp op wm bv (ix2 p q)
      = (op (ix2 p q)
          + FloatOps.matmul (F := Ideal) (φ₁ := .f32) (φ₂ := .f32) (DotDims.plain 2000 128 128) none (k2_pay1 sd xc ag xp) wm
              (constant (F := Ideal) ⟨2, ![2000, 128]⟩ .f32 0x00000000#32) (ix2 p q))
        + bv (ix2 (0 : Fin 1) q) := by
  unfold k2_pay2
  simp only [shapeCast_self]
  rw [addf_apply, addf_apply, broadcastTo_1b_ab_apply]
  rfl

/-- The second output array as one function of the first output array and the arrays the region reads. -/
def outFn_R2 (op : S50000x128.Idx → EReal) (T : FVec Ideal S50000x128 .f32) (wm : FVec Ideal S128x128 .f32)
    (bv : S1x128.Idx → EReal) : S50000x128.Idx → EReal :=
  fun i => (op i + Host.dotGeneral (DotDims.plain 50000 128 128) none T wm i)
    + bv (ix2 (0 : Fin 1) (⟨(i 1).val, idx2_lt1 i⟩ : Fin 128))

theorem outFn_apply_R2 (op : S50000x128.Idx → EReal) (T : FVec Ideal S50000x128 .f32) (wm : FVec Ideal S128x128 .f32)
    (bv : S1x128.Idx → EReal) (r : Fin 50000) (q : Fin 128) :
    outFn_R2 op T wm bv (ix2 r q)
      = (op (ix2 r q) + Host.dotGeneral (DotDims.plain 50000 128 128) none T wm (ix2 r q)) + bv (ix2 (0 : Fin 1) q) := rfl

/-- The second payload of the blocks at point `t`, at local `(p, q)`, is the function's entry at row `2000 t + p`: the
    block's rows of the first payload are rows of the first output's function, so the block's product is the whole product's row. -/
theorem pay2_blk_R2 (c : Dev nD) (t : Fin cfg2.N) (p : Fin 2000) (q : Fin 128) (r : Fin 50000)
    (hr : r.val = t.val * 2000 + p.val) :
    k2_pay2 (iblk2 V c 2 t) (iblk2 V c 0 t) (iblk2 V c 3 t) (iblk2 V c 1 t) (iblk2 V c 6 t) (iblk2 V c 4 t) (iblk2 V c 5 t) (ix2 p q)
      = outFn_R2 (V c main_v38_1) (txnFn_R2 (V c main_v57) (V c main_v38_0) (V c main_v51) (V c main_arg0)) (V c main_v55) (V c main_v56) (ix2 r q) := by
  rw [pay2_apply_R2, outFn_apply_R2, blk6_apply_R2 V c t p q r hr, blk5_apply_R2 V c t q]
  rw [Cert.Lib.RowBlock.matmul_eq_dotGeneral (M := 50000) (K := 128) (N := 128) (B := 2000)
    (φ₁ := .f32) (φ₂ := .f32) (ψ₁ := .f32) (ψ₂ := .f32) none none .single
    (txnFn_R2 (V c main_v57) (V c main_v38_0) (V c main_v51) (V c main_arg0)) (V c main_v55)
    (k2_pay1 (iblk2 V c 2 t) (iblk2 V c 0 t) (iblk2 V c 3 t) (iblk2 V c 1 t)) (iblk2 V c 4 t) r p q
    (fun k => pay1_blk_R2 V c t p k r hr) (fun k => blk4_apply_R2 V c t k q)]

theorem emb8_R2 (t : Fin cfg2.N) (p : Fin 2000) (q : Fin 128) (h : t.val * 2000 + p.val < 50000) :
    ((cfg2.win 8).blk t).view.emb (ix2 p q) = ix2 (⟨t.val * 2000 + p.val, h⟩ : Fin 50000) q := by
  funext a
  apply Fin.ext
  match a with
  | ⟨0, _⟩ => show win2_8.index t (0 : Fin 2) * 2000 + 1 * p.val = t.val * 2000 + p.val; rw [(idx_facts_R2 t).2.2.2.2.2.2.2.2.1]; omega
  | ⟨1, _⟩ => show win2_8.index t (1 : Fin 2) * 128 + 1 * q.val = q.val; rw [(idx_facts_R2 t).2.2.2.2.2.2.2.2.2]; omega

/-- What point `t` writes back to window 8 is block `t` of the function. -/
theorem flushed8_eq_R2 (c : Dev nD) (t : Fin cfg2.N) :
    (dat2 V c).flushed 8 t
      = ((cfg2.win 8).blk t).view.read (Elt Ideal) (outFn_R2 (V c main_v38_1) (txnFn_R2 (V c main_v57) (V c main_v38_0) (V c main_v51) (V c main_arg0)) (V c main_v55) (V c main_v56)) := by
  show (cfg2.win 8).cut (grid2.coords t) ((dat2 V c).after 8 t) = _
  rw [after2_8]
  unfold out2_8
  rw [View.canon_unit_zero hz_R2]
  simp only [View.ld_unit_zero (S := S2000x128) hz_R2, View.ld_unit_zero (S := S2000x1) hz_R2,
    View.ld_unit_zero (S := S128x128) hz_R2, View.ld_unit_zero (S := S1x128) hz_R2]
  funext j
  obtain ⟨p, q, rfl⟩ : ∃ (p : Fin 2000) (q : Fin 128), j = ix2 p q := ⟨j 0, j 1, eq_ix2 j⟩
  have ht := point_lt_R2 t
  have hp := p.isLt
  rw [View.read_apply, emb8_R2 t p q (by omega)]
  exact pay2_blk_R2 V c t p q _ rfl

theorem mem_blk8_R2 (t : Fin cfg2.N) (i : S50000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v58_1).slice (win2_8.rect t)).set ↔ _
  rw [View.set_slice_whole, Rect.mem_set_unit]
  exact Iff.rfl

/-- Row `r` of window 8's array is in the block of point `r / 2000`, which writes back. -/
theorem cover8_R2 (i : S50000x128.Idx) :
    ∃ t : Fin cfg2.N, (cfg2.win 8).flush t = true ∧ i ∈ ((cfg2.win 8).blk t).view.set := by
  have hi0 : (i 0).val < 50000 := (i 0).isLt
  have hi1 : (i 1).val < 128 := (i 1).isLt
  have hN : cfg2.N = 25 := N_2
  have hlt : (i 0).val / 2000 < cfg2.N := by rw [hN]; omega
  refine ⟨⟨(i 0).val / 2000, hlt⟩, flush2_8 _, ?_⟩
  rw [mem_blk8_R2]
  have e := (idx_facts_R2 ⟨(i 0).val / 2000, hlt⟩).2.2.2.2.2.2.2.2
  intro a
  match a with
  | ⟨0, _⟩ =>
    show win2_8.index ⟨(i 0).val / 2000, hlt⟩ (0 : Fin 2) * 2000 ≤ (i 0).val ∧ (i 0).val < win2_8.index ⟨(i 0).val / 2000, hlt⟩ (0 : Fin 2) * 2000 + 2000
    rw [e.1]; show (i 0).val / 2000 * 2000 ≤ (i 0).val ∧ (i 0).val < (i 0).val / 2000 * 2000 + 2000; omega
  | ⟨1, _⟩ =>
    show win2_8.index ⟨(i 0).val / 2000, hlt⟩ (1 : Fin 2) * 128 ≤ (i 1).val ∧ (i 1).val < win2_8.index ⟨(i 0).val / 2000, hlt⟩ (1 : Fin 2) * 128 + 128
    rw [e.2]; omega

/-- Window 8's array after the region is the function of the first output's function and the arrays the region reads. -/
theorem final8_R2 (c : Dev nD) :
    (dat2 V c).arrAt 8 cfg2.N = outFn_R2 (V c main_v38_1) (txnFn_R2 (V c main_v57) (V c main_v38_0) (V c main_v51) (V c main_arg0)) (V c main_v55) (V c main_v56) :=
  (dat2 V c).arrAt_eq_of_cover 8 (outFn_R2 (V c main_v38_1) (txnFn_R2 (V c main_v57) (V c main_v38_0) (V c main_v51) (V c main_arg0)) (V c main_v55) (V c main_v56))
    (fun t _ => flushed8_eq_R2 V c t) cover8_R2

/-- Region 2's second output array, entry by entry: the sixth array plus the whole product of the first output array the
    region leaves with the weight array, plus the bias row. -/
theorem out2 (c : Dev nD) (r : Fin 50000) (q : Fin 128) :
    (dat2 V c).arrAt 8 cfg2.N (ix2 r q)
      = (V c main_v38_1 (ix2 r q)
          +ₑ Host.dotGeneral (F := Ideal) (φ₁ := .f32) (φ₂ := .f32) (DotDims.plain 50000 128 128) none
              ((dat2 V c).arrAt 7 cfg2.N) (V c main_v55) (ix2 r q))
        +ₑ V c main_v56 (ix2 (0 : Fin 1) q) := by
  rw [final8_R2, final7_R2]
  rfl

end Cert.KernelIdeal.Regions

end
-- ==== Proof.Region3.lean ====
/-
  Region 3 of the kernel as whole-array functions, on the extended reals.

  The region's grid has 25 points; point `t` works on rows `2000 t … 2000 t + 1999` of seven row-blocked arrays and on the
  whole weight matrix and bias row. Its first output array ends holding, entry by entry,
  `2 · (sd(r, 0) · xc(r, q) − ag(r, q)) − xp(r, q)`; its second output array ends holding
  `(op(r, q) + (T · wm)(r, q)) + bv(0, q)`, where `T` is the first output array the same region leaves and `T · wm` the
  one whole matrix product: each point's product of its 2000 rows with the whole weight matrix, accumulated from zero, is
  those rows of the whole product, the same sum term by term.

  The steps: the block indices of every window decided over the grid; each input block's entry as an entry of its array;
  the two stored payloads at a local index; what a point writes back as a block of the whole-array function; every row
  is in the block of point `r / 2000`; hence the arrays after the region.
-/
import proofs.«158343_j26250840113269_2_alg».proof.Proof.Gen.KernelIdeal.Frame
import proofs.«158343_j26250840113269_2_alg».proof.Proof.LibPlainDot
import proofs.«158343_j26250840113269_2_alg».proof.Proof.LibRowBlock
import proofs.«158343_j26250840113269_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Regions

open Cert.KernelIdeal Cert.KernelIdeal.Gen

variable (V : (c : Dev nD) → (b : Ref sig .tc) → Buf (Elt Ideal) ((c : Thread nD τ).loc b))

local infixl:70 " *ₑ " => (HMul.hMul : EReal → EReal → EReal)
local infixl:65 " -ₑ " => (HSub.hSub : EReal → EReal → EReal)
local infixl:65 " +ₑ " => (HAdd.hAdd : EReal → EReal → EReal)

theorem hz_R3 : (![0, 0] : Fin 2 → Nat) = fun _ => 0 := funext fun a => by fin_cases a <;> rfl

/-- The windows' block indices over the grid: the row-blocked windows sit at block row `t`, the whole windows at block zero. -/
theorem idx_facts_R3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = t.val ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0) :=
  (by decide +kernel : ∀ t : Fin grid3.N, _)

/-- The payload of the first store at a local index. -/
theorem pay1_apply_R3 (sd : Vec Ideal S2000x1 .f32) (xc ag xp : Vec Ideal S2000x128 .f32) (p : Fin 2000) (q : Fin 128) :
    k3_pay1 sd xc ag xp (ix2 p q)
      = Ideal.ofBits .f32 0x40000000#32 * (sd (ix2 p (0 : Fin 1)) * xc (ix2 p q) - ag (ix2 p q)) - xp (ix2 p q) := by
  unfold k3_pay1
  simp only [shapeCast_self]
  rw [subf_apply, mulf_apply, broadcast_apply, subf_apply, mulf_apply, ValueKeepdims.broadcastTo_a1_ab_apply]
  rfl

/-- Window 0's block at point `t`, entry `(p, q)`, is its array's entry `(2000 t + p, q)`. -/
theorem blk0_apply_R3 (c : Dev nD) (t : Fin cfg3.N) (p : Fin 2000) (q : Fin 128) (r : Fin 50000)
    (hr : r.val = t.val * 2000 + p.val) :
    (iblk3 V c 0 t : Vec Ideal S2000x128 .f32) (ix2 p q) = (V c main_v58_0 : S50000x128.Idx → EReal) (ix2 r q) := by
  unfold iblk3
  rw [View.read_apply]
  show V c main_v58_0 _ = V c main_v58_0 _
  refine congrArg _ ?_
  funext a
  apply Fin.ext
  match a with
  | ⟨0, _⟩ => show win3_0.index t (0 : Fin 2) * 2000 + 1 * p.val = r.val; rw [(idx_facts_R3 t).1.1, hr]; omega
  | ⟨1, _⟩ => show win3_0.index t (1 : Fin 2) * 128 + 1 * q.val = q.val; rw [(idx_facts_R3 t).1.2]; omega

/-- Window 1's block at point `t`, entry `(p, q)`, is its array's entry `(2000 t + p, q)`. -/
theorem blk1_apply_R3 (c : Dev nD) (t : Fin cfg3.N) (p : Fin 2000) (q : Fin 128) (r : Fin 50000)
    (hr : r.val = t.val * 2000 + p.val) :
    (iblk3 V c 1 t : Vec Ideal S2000x128 .f32) (ix2 p q) = (V c main_v38_0 : S50000x128.Idx → EReal) (ix2 r q) := by
  unfold iblk3
  rw [View.read_apply]
  show V c main_v38_0 _ = V c main_v38_0 _
  refine congrArg _ ?_
  funext a
  apply Fin.ext
  match a with
  | ⟨0, _⟩ => show win3_1.index t (0 : Fin 2) * 2000 + 1 * p.val = r.val; rw [(idx_facts_R3 t).2.1.1, hr]; omega
  | ⟨1, _⟩ => show win3_1.index t (1 : Fin 2) * 128 + 1 * q.val = q.val; rw [(idx_facts_R3 t).2.1.2]; omega

/-- Window 2's block (a column) at point `t`, entry `(p, 0)`, is its array's entry `(2000 t + p, 0)`. -/
theorem blk2_apply_R3 (c : Dev nD) (t : Fin cfg3.N) (p : Fin 2000) (r : Fin 50000)
    (hr : r.val = t.val * 2000 + p.val) :
    (iblk3 V c 2 t : Vec Ideal S2000x1 .f32) (ix2 p (0 : Fin 1)) = (V c main_v77 : S50000x1.Idx → EReal) (ix2 r (0 : Fin 1)) := by
  unfold iblk3
  rw [View.read_apply]
  show V c main_v77 _ = V c main_v77 _
  refine congrArg _ ?_
  funext a
  apply Fin.ext
  match a with
  | ⟨0, _⟩ => show win3_2.index t (0 : Fin 2) * 2000 + 1 * p.val = r.val; rw [(idx_facts_R3 t).2.2.1.1, hr]; omega
  | ⟨1, _⟩ => show win3_2.index t (1 : Fin 2) * 1 + 1 * (0 : Fin 1).val = (0 : Fin 1).val; rw [(idx_facts_R3 t).2.2.1.2]; rfl

/-- Window 3's block at point `t`, entry `(p, q)`, is its array's entry `(2000 t + p, q)`. -/
theorem blk3_apply_R3 (c : Dev nD) (t : Fin cfg3.N) (p : Fin 2000) (q : Fin 128) (r : Fin 50000)
    (hr : r.val = t.val * 2000 + p.val) :
    (iblk3 V c 3 t : Vec Ideal S2000x128 .f32) (ix2 p q) = (V c main_v71 : S50000x128.Idx → EReal) (ix2 r q) := by
  unfold iblk3
  rw [View.read_apply]
  show V c main_v71 _ = V c main_v71 _
  refine congrArg _ ?_
  funext a
  apply Fin.ext
  match a with
  | ⟨0, _⟩ => show win3_3.index t (0 : Fin 2) * 2000 + 1 * p.val = r.val; rw [(idx_facts_R3 t).2.2.2.1.1, hr]; omega
  | ⟨1, _⟩ => show win3_3.index t (1 : Fin 2) * 128 + 1 * q.val = q.val; rw [(idx_facts_R3 t).2.2.2.1.2]; omega

/-- Window 4's block is its whole array. -/
theorem blk4_apply_R3 (c : Dev nD) (t : Fin cfg3.N) (k : Fin 128) (q : Fin 128) :
    (iblk3 V c 4 t : Vec Ideal S128x128 .f32) (ix2 k q) = (V c main_v75 : S128x128.Idx → EReal) (ix2 k q) := by
  unfold iblk3
  rw [View.read_apply]
  show V c main_v75 _ = V c main_v75 _
  refine congrArg _ ?_
  funext a
  apply Fin.ext
  match a with
  | ⟨0, _⟩ => show win3_4.index t (0 : Fin 2) * 128 + 1 * k.val = k.val; rw [(idx_facts_R3 t).2.2.2.2.1.1]; omega
  | ⟨1, _⟩ => show win3_4.index t (1 : Fin 2) * 128 + 1 * q.val = q.val; rw [(idx_facts_R3 t).2.2.2.2.1.2]; omega

/-- Window 5's block is its whole array. -/
theorem blk5_apply_R3 (c : Dev nD) (t : Fin cfg3.N) (q : Fin 128) :
    (iblk3 V c 5 t : Vec Ideal S1x128 .f32) (ix2 (0 : Fin 1) q) = (V c main_v76 : S1x128.Idx → EReal) (ix2 (0 : Fin 1) q) := by
  unfold iblk3
  rw [View.read_apply]
  show V c main_v76 _ = V c main_v76 _
  refine congrArg _ ?_
  funext a
  apply Fin.ext
  match a with
  | ⟨0, _⟩ => show win3_5.index t (0 : Fin 2) * 1 + 1 * (0 : Fin 1).val = (0 : Fin 1).val; rw [(idx_facts_R3 t).2.2.2.2.2.1.1]; rfl
  | ⟨1, _⟩ => show win3_5.index t (1 : Fin 2) * 128 + 1 * q.val = q.val; rw [(idx_facts_R3 t).2.2.2.2.2.1.2]; omega

/-- Window 6's block at point `t`, entry `(p, q)`, is its array's entry `(2000 t + p, q)`. -/
theorem blk6_apply_R3 (c : Dev nD) (t : Fin cfg3.N) (p : Fin 2000) (q : Fin 128) (r : Fin 50000)
    (hr : r.val = t.val * 2000 + p.val) :
    (iblk3 V c 6 t : Vec Ideal S2000x128 .f32) (ix2 p q) = (V c main_v58_1 : S50000x128.Idx → EReal) (ix2 r q) := by
  unfold iblk3
  rw [View.read_apply]
  show V c main_v58_1 _ = V c main_v58_1 _
  refine congrArg _ ?_
  funext a
  apply Fin.ext
  match a with
  | ⟨0, _⟩ => show win3_6.index t (0 : Fin 2) * 2000 + 1 * p.val = r.val; rw [(idx_facts_R3 t).2.2.2.2.2.2.1.1, hr]; omega
  | ⟨1, _⟩ => show win3_6.index t (1 : Fin 2) * 128 + 1 * q.val = q.val; rw [(idx_facts_R3 t).2.2.2.2.2.2.1.2]; omega

/-- The first output array as one function of the arrays the region reads. -/
def txnFn_R3 (sd : S50000x1.Idx → EReal) (xc ag xp : S50000x128.Idx → EReal) : S50000x128.Idx → EReal :=
  fun i => Ideal.ofBits .f32 0x40000000#32
      * (sd (ix2 (⟨(i 0).val, idx2_lt0 i⟩ : Fin 50000) (0 : Fin 1)) * xc i - ag i) - xp i

theorem txnFn_apply_R3 (sd : S50000x1.Idx → EReal) (xc ag xp : S50000x128.Idx → EReal) (r : Fin 50000) (q : Fin 128) :
    txnFn_R3 sd xc ag xp (ix2 r q)
      = Ideal.ofBits .f32 0x40000000#32 * (sd (ix2 r (0 : Fin 1)) * xc (ix2 r q) - ag (ix2 r q)) - xp (ix2 r q) := rfl

/-- The first payload of the blocks at point `t`, at local `(p, q)`, is the function's entry at row `2000 t + p`. -/
theorem pay1_blk_R3 (c : Dev nD) (t : Fin cfg3.N) (p : Fin 2000) (q : Fin 128) (r : Fin 50000)
    (hr : r.val = t.val * 2000 + p.val) :
    k3_pay1 (iblk3 V c 2 t) (iblk3 V c 0 t) (iblk3 V c 3 t) (iblk3 V c 1 t) (ix2 p q)
      = txnFn_R3 (V c main_v77) (V c main_v58_0) (V c main_v71) (V c main_v38_0) (ix2 r q) := by
  rw [pay1_apply_R3, txnFn_apply_R3, blk2_apply_R3 V c t p r hr, blk0_apply_R3 V c t p q r hr,
    blk3_apply_R3 V c t p q r hr, blk1_apply_R3 V c t p q r hr]

theorem point_lt_R3 (t : Fin cfg3.N) : t.val < 25 := lt_of_lt_of_eq t.isLt N_3

/-- An entry of point `t`'s block of an output window sits at row `2000 t + p` of the array. -/
theorem emb7_R3 (t : Fin cfg3.N) (p : Fin 2000) (q : Fin 128) (h : t.val * 2000 + p.val < 50000) :
    ((cfg3.win 7).blk t).view.emb (ix2 p q) = ix2 (⟨t.val * 2000 + p.val, h⟩ : Fin 50000) q := by
  funext a
  apply Fin.ext
  match a with
  | ⟨0, _⟩ => show win3_7.index t (0 : Fin 2) * 2000 + 1 * p.val = t.val * 2000 + p.val; rw [(idx_facts_R3 t).2.2.2.2.2.2.2.1.1]; omega
  | ⟨1, _⟩ => show win3_7.index t (1 : Fin 2) * 128 + 1 * q.val = q.val; rw [(idx_facts_R3 t).2.2.2.2.2.2.2.1.2]; omega

/-- What point `t` writes back to window 7 is block `t` of the function. -/
theorem flushed7_eq_R3 (c : Dev nD) (t : Fin cfg3.N) :
    (dat3 V c).flushed 7 t
      = ((cfg3.win 7).blk t).view.read (Elt Ideal) (txnFn_R3 (V c main_v77) (V c main_v58_0) (V c main_v71) (V c main_v38_0)) := by
  show (cfg3.win 7).cut (grid3.coords t) ((dat3 V c).after 7 t) = _
  rw [after3_7]
  unfold out3_7
  rw [View.canon_unit_zero hz_R3]
  simp only [View.ld_unit_zero (S := S2000x128) hz_R3, View.ld_unit_zero (S := S2000x1) hz_R3]
  funext j
  obtain ⟨p, q, rfl⟩ : ∃ (p : Fin 2000) (q : Fin 128), j = ix2 p q := ⟨j 0, j 1, eq_ix2 j⟩
  have ht := point_lt_R3 t
  have hp := p.isLt
  rw [View.read_apply, emb7_R3 t p q (by omega)]
  exact pay1_blk_R3 V c t p q _ rfl

/-- An index of the array is in point `t`'s block of window 7 iff each coordinate is in the block's range on its axis. -/
theorem mem_blk7_R3 (t : Fin cfg3.N) (i : S50000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole main_v78_0).slice (win3_7.rect t)).set ↔ _
  rw [View.set_slice_whole, Rect.mem_set_unit]
  exact Iff.rfl

/-- Row `r` of window 7's array is in the block of point `r / 2000`, which writes back. -/
theorem cover7_R3 (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have hN : cfg3.N = 25 := N_3
  have hlt : (i 0).val / 2000 < cfg3.N := by rw [hN]; omega
  refine ⟨⟨(i 0).val / 2000, hlt⟩, flush3_7 _, ?_⟩
  rw [mem_blk7_R3]
  have e := (idx_facts_R3 ⟨(i 0).val / 2000, hlt⟩).2.2.2.2.2.2.2.1
  intro a
  match a with
  | ⟨0, _⟩ =>
    show win3_7.index ⟨(i 0).val / 2000, hlt⟩ (0 : Fin 2) * 2000 ≤ (i 0).val ∧ (i 0).val < win3_7.index ⟨(i 0).val / 2000, hlt⟩ (0 : Fin 2) * 2000 + 2000
    rw [e.1]; show (i 0).val / 2000 * 2000 ≤ (i 0).val ∧ (i 0).val < (i 0).val / 2000 * 2000 + 2000; omega
  | ⟨1, _⟩ =>
    show win3_7.index ⟨(i 0).val / 2000, hlt⟩ (1 : Fin 2) * 128 ≤ (i 1).val ∧ (i 1).val < win3_7.index ⟨(i 0).val / 2000, hlt⟩ (1 : Fin 2) * 128 + 128
    rw [e.2]; omega

/-- Window 7's array after the region is the function of the arrays the region reads. -/
theorem final7_R3 (c : Dev nD) :
    (dat3 V c).arrAt 7 cfg3.N = txnFn_R3 (V c main_v77) (V c main_v58_0) (V c main_v71) (V c main_v38_0) :=
  (dat3 V c).arrAt_eq_of_cover 7 (txnFn_R3 (V c main_v77) (V c main_v58_0) (V c main_v71) (V c main_v38_0))
    (fun t _ => flushed7_eq_R3 V c t) cover7_R3

/-- Region 3's first output array, entry by entry. -/
theorem txn3 (c : Dev nD) (r : Fin 50000) (q : Fin 128) :
    (dat3 V c).arrAt 7 cfg3.N (ix2 r q)
      = Ideal.ofBits .f32 0x40000000#32
          *ₑ (V c main_v77 (ix2 r (0 : Fin 1)) *ₑ V c main_v58_0 (ix2 r q) -ₑ V c main_v71 (ix2 r q))
        -ₑ V c main_v38_0 (ix2 r q) := by
  rw [final7_R3]
  rfl

/-- The payload of the second store at a local index: the loaded sixth block, plus the product of the first payload with the
    weight block into the zero accumulator, plus the bias row. -/
theorem pay2_apply_R3 (sd : Vec Ideal S2000x1 .f32) (xc ag xp op : Vec Ideal S2000x128 .f32) (wm : Vec Ideal S128x128 .f32)
    (bv : Vec Ideal S1x128 .f32) (p : Fin 2000) (q : Fin 128) :
    k3_pay2 sd xc ag xp op wm bv (ix2 p q)
      = (op (ix2 p q)
          + FloatOps.matmul (F := Ideal) (φ₁ := .f32) (φ₂ := .f32) (DotDims.plain 2000 128 128) none (k3_pay1 sd xc ag xp) wm
              (constant (F := Ideal) ⟨2, ![2000, 128]⟩ .f32 0x00000000#32) (ix2 p q))
        + bv (ix2 (0 : Fin 1) q) := by
  unfold k3_pay2
  simp only [shapeCast_self]
  rw [addf_apply, addf_apply, broadcastTo_1b_ab_apply]
  rfl

/-- The second output array as one function of the first output array and the arrays the region reads. -/
def outFn_R3 (op : S50000x128.Idx → EReal) (T : FVec Ideal S50000x128 .f32) (wm : FVec Ideal S128x128 .f32)
    (bv : S1x128.Idx → EReal) : S50000x128.Idx → EReal :=
  fun i => (op i + Host.dotGeneral (DotDims.plain 50000 128 128) none T wm i)
    + bv (ix2 (0 : Fin 1) (⟨(i 1).val, idx2_lt1 i⟩ : Fin 128))

theorem outFn_apply_R3 (op : S50000x128.Idx → EReal) (T : FVec Ideal S50000x128 .f32) (wm : FVec Ideal S128x128 .f32)
    (bv : S1x128.Idx → EReal) (r : Fin 50000) (q : Fin 128) :
    outFn_R3 op T wm bv (ix2 r q)
      = (op (ix2 r q) + Host.dotGeneral (DotDims.plain 50000 128 128) none T wm (ix2 r q)) + bv (ix2 (0 : Fin 1) q) := rfl

/-- The second payload of the blocks at point `t`, at local `(p, q)`, is the function's entry at row `2000 t + p`: the
    block's rows of the first payload are rows of the first output's function, so the block's product is the whole product's row. -/
theorem pay2_blk_R3 (c : Dev nD) (t : Fin cfg3.N) (p : Fin 2000) (q : Fin 128) (r : Fin 50000)
    (hr : r.val = t.val * 2000 + p.val) :
    k3_pay2 (iblk3 V c 2 t) (iblk3 V c 0 t) (iblk3 V c 3 t) (iblk3 V c 1 t) (iblk3 V c 6 t) (iblk3 V c 4 t) (iblk3 V c 5 t) (ix2 p q)
      = outFn_R3 (V c main_v58_1) (txnFn_R3 (V c main_v77) (V c main_v58_0) (V c main_v71) (V c main_v38_0)) (V c main_v75) (V c main_v76) (ix2 r q) := by
  rw [pay2_apply_R3, outFn_apply_R3, blk6_apply_R3 V c t p q r hr, blk5_apply_R3 V c t q]
  rw [Cert.Lib.RowBlock.matmul_eq_dotGeneral (M := 50000) (K := 128) (N := 128) (B := 2000)
    (φ₁ := .f32) (φ₂ := .f32) (ψ₁ := .f32) (ψ₂ := .f32) none none .single
    (txnFn_R3 (V c main_v77) (V c main_v58_0) (V c main_v71) (V c main_v38_0)) (V c main_v75)
    (k3_pay1 (iblk3 V c 2 t) (iblk3 V c 0 t) (iblk3 V c 3 t) (iblk3 V c 1 t)) (iblk3 V c 4 t) r p q
    (fun k => pay1_blk_R3 V c t p k r hr) (fun k => blk4_apply_R3 V c t k q)]

theorem emb8_R3 (t : Fin cfg3.N) (p : Fin 2000) (q : Fin 128) (h : t.val * 2000 + p.val < 50000) :
    ((cfg3.win 8).blk t).view.emb (ix2 p q) = ix2 (⟨t.val * 2000 + p.val, h⟩ : Fin 50000) q := by
  funext a
  apply Fin.ext
  match a with
  | ⟨0, _⟩ => show win3_8.index t (0 : Fin 2) * 2000 + 1 * p.val = t.val * 2000 + p.val; rw [(idx_facts_R3 t).2.2.2.2.2.2.2.2.1]; omega
  | ⟨1, _⟩ => show win3_8.index t (1 : Fin 2) * 128 + 1 * q.val = q.val; rw [(idx_facts_R3 t).2.2.2.2.2.2.2.2.2]; omega

/-- What point `t` writes back to window 8 is block `t` of the function. -/
theorem flushed8_eq_R3 (c : Dev nD) (t : Fin cfg3.N) :
    (dat3 V c).flushed 8 t
      = ((cfg3.win 8).blk t).view.read (Elt Ideal) (outFn_R3 (V c main_v58_1) (txnFn_R3 (V c main_v77) (V c main_v58_0) (V c main_v71) (V c main_v38_0)) (V c main_v75) (V c main_v76)) := by
  show (cfg3.win 8).cut (grid3.coords t) ((dat3 V c).after 8 t) = _
  rw [after3_8]
  unfold out3_8
  rw [View.canon_unit_zero hz_R3]
  simp only [View.ld_unit_zero (S := S2000x128) hz_R3, View.ld_unit_zero (S := S2000x1) hz_R3,
    View.ld_unit_zero (S := S128x128) hz_R3, View.ld_unit_zero (S := S1x128) hz_R3]
  funext j
  obtain ⟨p, q, rfl⟩ : ∃ (p : Fin 2000) (q : Fin 128), j = ix2 p q := ⟨j 0, j 1, eq_ix2 j⟩
  have ht := point_lt_R3 t
  have hp := p.isLt
  rw [View.read_apply, emb8_R3 t p q (by omega)]
  exact pay2_blk_R3 V c t p q _ rfl

theorem mem_blk8_R3 (t : Fin cfg3.N) (i : S50000x128.Idx) :
    i ∈ ((cfg3.win 8).blk t).view.set ↔ ∀ a : Fin 2, win3_8.index t a * S2000x128.size a ≤ (i a).val ∧ (i a).val < win3_8.index t a * S2000x128.size a + S2000x128.size a := by
  show i ∈ ((View.whole main_v78_1).slice (win3_8.rect t)).set ↔ _
  rw [View.set_slice_whole, Rect.mem_set_unit]
  exact Iff.rfl

/-- Row `r` of window 8's array is in the block of point `r / 2000`, which writes back. -/
theorem cover8_R3 (i : S50000x128.Idx) :
    ∃ t : Fin cfg3.N, (cfg3.win 8).flush t = true ∧ i ∈ ((cfg3.win 8).blk t).view.set := by
  have hi0 : (i 0).val < 50000 := (i 0).isLt
  have hi1 : (i 1).val < 128 := (i 1).isLt
  have hN : cfg3.N = 25 := N_3
  have hlt : (i 0).val / 2000 < cfg3.N := by rw [hN]; omega
  refine ⟨⟨(i 0).val / 2000, hlt⟩, flush3_8 _, ?_⟩
  rw [mem_blk8_R3]
  have e := (idx_facts_R3 ⟨(i 0).val / 2000, hlt⟩).2.2.2.2.2.2.2.2
  intro a
  match a with
  | ⟨0, _⟩ =>
    show win3_8.index ⟨(i 0).val / 2000, hlt⟩ (0 : Fin 2) * 2000 ≤ (i 0).val ∧ (i 0).val < win3_8.index ⟨(i 0).val / 2000, hlt⟩ (0 : Fin 2) * 2000 + 2000
    rw [e.1]; show (i 0).val / 2000 * 2000 ≤ (i 0).val ∧ (i 0).val < (i 0).val / 2000 * 2000 + 2000; omega
  | ⟨1, _⟩ =>
    show win3_8.index ⟨(i 0).val / 2000, hlt⟩ (1 : Fin 2) * 128 ≤ (i 1).val ∧ (i 1).val < win3_8.index ⟨(i 0).val / 2000, hlt⟩ (1 : Fin 2) * 128 + 128
    rw [e.2]; omega

/-- Window 8's array after the region is the function of the first output's function and the arrays the region reads. -/
theorem final8_R3 (c : Dev nD) :
    (dat3 V c).arrAt 8 cfg3.N = outFn_R3 (V c main_v58_1) (txnFn_R3 (V c main_v77) (V c main_v58_0) (V c main_v71) (V c main_v38_0)) (V c main_v75) (V c main_v76) :=
  (dat3 V c).arrAt_eq_of_cover 8 (outFn_R3 (V c main_v58_1) (txnFn_R3 (V c main_v77) (V c main_v58_0) (V c main_v71) (V c main_v38_0)) (V c main_v75) (V c main_v76))
    (fun t _ => flushed8_eq_R3 V c t) cover8_R3

/-- Region 3's second output array, entry by entry: the sixth array plus the whole product of the first output array the
    region leaves with the weight array, plus the bias row. -/
theorem out3 (c : Dev nD) (r : Fin 50000) (q : Fin 128) :
    (dat3 V c).arrAt 8 cfg3.N (ix2 r q)
      = (V c main_v58_1 (ix2 r q)
          +ₑ Host.dotGeneral (F := Ideal) (φ₁ := .f32) (φ₂ := .f32) (DotDims.plain 50000 128 128) none
              ((dat3 V c).arrAt 7 cfg3.N) (V c main_v75) (ix2 r q))
        +ₑ V c main_v76 (ix2 (0 : Fin 1) q) := by
  rw [final8_R3, final7_R3]
  rfl

end Cert.KernelIdeal.Regions

end
-- ==== Proof.Region4.lean ====
/-
  Region 4 of the kernel as whole-array functions, on the extended reals.

  The region's grid has 25 points; point `t` works on rows `2000 t … 2000 t + 1999` of seven row-blocked arrays and on the
  whole weight matrix and bias row. Its first output array ends holding, entry by entry,
  `2 · (sd(r, 0) · xc(r, q) − ag(r, q)) − xp(r, q)`; its second output array ends holding
  `(op(r, q) + (T · wm)(r, q)) + bv(0, q)`, where `T` is the first output array the same region leaves and `T · wm` the
  one whole matrix product: each point's product of its 2000 rows with the whole weight matrix, accumulated from zero, is
  those rows of the whole product, the same sum term by term.

  The steps: the block indices of every window decided over the grid; each input block's entry as an entry of its array;
  the two stored payloads at a local index; what a point writes back as a block of the whole-array function; every row
  is in the block of point `r / 2000`; hence the arrays after the region.
-/
import proofs.«158343_j26250840113269_2_alg».proof.Proof.Gen.KernelIdeal.Frame
import proofs.«158343_j26250840113269_2_alg».proof.Proof.LibPlainDot
import proofs.«158343_j26250840113269_2_alg».proof.Proof.LibRowBlock
import proofs.«158343_j26250840113269_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Regions

open Cert.KernelIdeal Cert.KernelIdeal.Gen

variable (V : (c : Dev nD) → (b : Ref sig .tc) → Buf (Elt Ideal) ((c : Thread nD τ).loc b))

local infixl:70 " *ₑ " => (HMul.hMul : EReal → EReal → EReal)
local infixl:65 " -ₑ " => (HSub.hSub : EReal → EReal → EReal)
local infixl:65 " +ₑ " => (HAdd.hAdd : EReal → EReal → EReal)

theorem hz_R4 : (![0, 0] : Fin 2 → Nat) = fun _ => 0 := funext fun a => by fin_cases a <;> rfl

/-- The windows' block indices over the grid: the row-blocked windows sit at block row `t`, the whole windows at block zero. -/
theorem idx_facts_R4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0)
    ∧ (win4_7.index t (0 : Fin 2) = t.val ∧ win4_7.index t (1 : Fin 2) = 0)
    ∧ (win4_8.index t (0 : Fin 2) = t.val ∧ win4_8.index t (1 : Fin 2) = 0) :=
  (by decide +kernel : ∀ t : Fin grid4.N, _)

/-- The payload of the first store at a local index. -/
theorem pay1_apply_R4 (sd : Vec Ideal S2000x1 .f32) (xc ag xp : Vec Ideal S2000x128 .f32) (p : Fin 2000) (q : Fin 128) :
    k4_pay1 sd xc ag xp (ix2 p q)
      = Ideal.ofBits .f32 0x40000000#32 * (sd (ix2 p (0 : Fin 1)) * xc (ix2 p q) - ag (ix2 p q)) - xp (ix2 p q) := by
  unfold k4_pay1
  simp only [shapeCast_self]
  rw [subf_apply, mulf_apply, broadcast_apply, subf_apply, mulf_apply, ValueKeepdims.broadcastTo_a1_ab_apply]
  rfl

/-- Window 0's block at point `t`, entry `(p, q)`, is its array's entry `(2000 t + p, q)`. -/
theorem blk0_apply_R4 (c : Dev nD) (t : Fin cfg4.N) (p : Fin 2000) (q : Fin 128) (r : Fin 50000)
    (hr : r.val = t.val * 2000 + p.val) :
    (iblk4 V c 0 t : Vec Ideal S2000x128 .f32) (ix2 p q) = (V c main_v78_0 : S50000x128.Idx → EReal) (ix2 r q) := by
  unfold iblk4
  rw [View.read_apply]
  show V c main_v78_0 _ = V c main_v78_0 _
  refine congrArg _ ?_
  funext a
  apply Fin.ext
  match a with
  | ⟨0, _⟩ => show win4_0.index t (0 : Fin 2) * 2000 + 1 * p.val = r.val; rw [(idx_facts_R4 t).1.1, hr]; omega
  | ⟨1, _⟩ => show win4_0.index t (1 : Fin 2) * 128 + 1 * q.val = q.val; rw [(idx_facts_R4 t).1.2]; omega

/-- Window 1's block at point `t`, entry `(p, q)`, is its array's entry `(2000 t + p, q)`. -/
theorem blk1_apply_R4 (c : Dev nD) (t : Fin cfg4.N) (p : Fin 2000) (q : Fin 128) (r : Fin 50000)
    (hr : r.val = t.val * 2000 + p.val) :
    (iblk4 V c 1 t : Vec Ideal S2000x128 .f32) (ix2 p q) = (V c main_v58_0 : S50000x128.Idx → EReal) (ix2 r q) := by
  unfold iblk4
  rw [View.read_apply]
  show V c main_v58_0 _ = V c main_v58_0 _
  refine congrArg _ ?_
  funext a
  apply Fin.ext
  match a with
  | ⟨0, _⟩ => show win4_1.index t (0 : Fin 2) * 2000 + 1 * p.val = r.val; rw [(idx_facts_R4 t).2.1.1, hr]; omega
  | ⟨1, _⟩ => show win4_1.index t (1 : Fin 2) * 128 + 1 * q.val = q.val; rw [(idx_facts_R4 t).2.1.2]; omega

/-- Window 2's block (a column) at point `t`, entry `(p, 0)`, is its array's entry `(2000 t + p, 0)`. -/
theorem blk2_apply_R4 (c : Dev nD) (t : Fin cfg4.N) (p : Fin 2000) (r : Fin 50000)
    (hr : r.val = t.val * 2000 + p.val) :
    (iblk4 V c 2 t : Vec Ideal S2000x1 .f32) (ix2 p (0 : Fin 1)) = (V c main_v97 : S50000x1.Idx → EReal) (ix2 r (0 : Fin 1)) := by
  unfold iblk4
  rw [View.read_apply]
  show V c main_v97 _ = V c main_v97 _
  refine congrArg _ ?_
  funext a
  apply Fin.ext
  match a with
  | ⟨0, _⟩ => show win4_2.index t (0 : Fin 2) * 2000 + 1 * p.val = r.val; rw [(idx_facts_R4 t).2.2.1.1, hr]; omega
  | ⟨1, _⟩ => show win4_2.index t (1 : Fin 2) * 1 + 1 * (0 : Fin 1).val = (0 : Fin 1).val; rw [(idx_facts_R4 t).2.2.1.2]; rfl

/-- Window 3's block at point `t`, entry `(p, q)`, is its array's entry `(2000 t + p, q)`. -/
theorem blk3_apply_R4 (c : Dev nD) (t : Fin cfg4.N) (p : Fin 2000) (q : Fin 128) (r : Fin 50000)
    (hr : r.val = t.val * 2000 + p.val) :
    (iblk4 V c 3 t : Vec Ideal S2000x128 .f32) (ix2 p q) = (V c main_v91 : S50000x128.Idx → EReal) (ix2 r q) := by
  unfold iblk4
  rw [View.read_apply]
  show V c main_v91 _ = V c main_v91 _
  refine congrArg _ ?_
  funext a
  apply Fin.ext
  match a with
  | ⟨0, _⟩ => show win4_3.index t (0 : Fin 2) * 2000 + 1 * p.val = r.val; rw [(idx_facts_R4 t).2.2.2.1.1, hr]; omega
  | ⟨1, _⟩ => show win4_3.index t (1 : Fin 2) * 128 + 1 * q.val = q.val; rw [(idx_facts_R4 t).2.2.2.1.2]; omega

/-- Window 4's block is its whole array. -/
theorem blk4_apply_R4 (c : Dev nD) (t : Fin cfg4.N) (k : Fin 128) (q : Fin 128) :
    (iblk4 V c 4 t : Vec Ideal S128x128 .f32) (ix2 k q) = (V c main_v95 : S128x128.Idx → EReal) (ix2 k q) := by
  unfold iblk4
  rw [View.read_apply]
  show V c main_v95 _ = V c main_v95 _
  refine congrArg _ ?_
  funext a
  apply Fin.ext
  match a with
  | ⟨0, _⟩ => show win4_4.index t (0 : Fin 2) * 128 + 1 * k.val = k.val; rw [(idx_facts_R4 t).2.2.2.2.1.1]; omega
  | ⟨1, _⟩ => show win4_4.index t (1 : Fin 2) * 128 + 1 * q.val = q.val; rw [(idx_facts_R4 t).2.2.2.2.1.2]; omega

/-- Window 5's block is its whole array. -/
theorem blk5_apply_R4 (c : Dev nD) (t : Fin cfg4.N) (q : Fin 128) :
    (iblk4 V c 5 t : Vec Ideal S1x128 .f32) (ix2 (0 : Fin 1) q) = (V c main_v96 : S1x128.Idx → EReal) (ix2 (0 : Fin 1) q) := by
  unfold iblk4
  rw [View.read_apply]
  show V c main_v96 _ = V c main_v96 _
  refine congrArg _ ?_
  funext a
  apply Fin.ext
  match a with
  | ⟨0, _⟩ => show win4_5.index t (0 : Fin 2) * 1 + 1 * (0 : Fin 1).val = (0 : Fin 1).val; rw [(idx_facts_R4 t).2.2.2.2.2.1.1]; rfl
  | ⟨1, _⟩ => show win4_5.index t (1 : Fin 2) * 128 + 1 * q.val = q.val; rw [(idx_facts_R4 t).2.2.2.2.2.1.2]; omega

/-- Window 6's block at point `t`, entry `(p, q)`, is its array's entry `(2000 t + p, q)`. -/
theorem blk6_apply_R4 (c : Dev nD) (t : Fin cfg4.N) (p : Fin 2000) (q : Fin 128) (r : Fin 50000)
    (hr : r.val = t.val * 2000 + p.val) :
    (iblk4 V c 6 t : Vec Ideal S2000x128 .f32) (ix2 p q) = (V c main_v78_1 : S50000x128.Idx → EReal) (ix2 r q) := by
  unfold iblk4
  rw [View.read_apply]
  show V c main_v78_1 _ = V c main_v78_1 _
  refine congrArg _ ?_
  funext a
  apply Fin.ext
  match a with
  | ⟨0, _⟩ => show win4_6.index t (0 : Fin 2) * 2000 + 1 * p.val = r.val; rw [(idx_facts_R4 t).2.2.2.2.2.2.1.1, hr]; omega
  | ⟨1, _⟩ => show win4_6.index t (1 : Fin 2) * 128 + 1 * q.val = q.val; rw [(idx_facts_R4 t).2.2.2.2.2.2.1.2]; omega

/-- The first output array as one function of the arrays the region reads. -/
def txnFn_R4 (sd : S50000x1.Idx → EReal) (xc ag xp : S50000x128.Idx → EReal) : S50000x128.Idx → EReal :=
  fun i => Ideal.ofBits .f32 0x40000000#32
      * (sd (ix2 (⟨(i 0).val, idx2_lt0 i⟩ : Fin 50000) (0 : Fin 1)) * xc i - ag i) - xp i

theorem txnFn_apply_R4 (sd : S50000x1.Idx → EReal) (xc ag xp : S50000x128.Idx → EReal) (r : Fin 50000) (q : Fin 128) :
    txnFn_R4 sd xc ag xp (ix2 r q)
      = Ideal.ofBits .f32 0x40000000#32 * (sd (ix2 r (0 : Fin 1)) * xc (ix2 r q) - ag (ix2 r q)) - xp (ix2 r q) := rfl

/-- The first payload of the blocks at point `t`, at local `(p, q)`, is the function's entry at row `2000 t + p`. -/
theorem pay1_blk_R4 (c : Dev nD) (t : Fin cfg4.N) (p : Fin 2000) (q : Fin 128) (r : Fin 50000)
    (hr : r.val = t.val * 2000 + p.val) :
    k4_pay1 (iblk4 V c 2 t) (iblk4 V c 0 t) (iblk4 V c 3 t) (iblk4 V c 1 t) (ix2 p q)
      = txnFn_R4 (V c main_v97) (V c main_v78_0) (V c main_v91) (V c main_v58_0) (ix2 r q) := by
  rw [pay1_apply_R4, txnFn_apply_R4, blk2_apply_R4 V c t p r hr, blk0_apply_R4 V c t p q r hr,
    blk3_apply_R4 V c t p q r hr, blk1_apply_R4 V c t p q r hr]

theorem point_lt_R4 (t : Fin cfg4.N) : t.val < 25 := lt_of_lt_of_eq t.isLt N_4

/-- An entry of point `t`'s block of an output window sits at row `2000 t + p` of the array. -/
theorem emb7_R4 (t : Fin cfg4.N) (p : Fin 2000) (q : Fin 128) (h : t.val * 2000 + p.val < 50000) :
    ((cfg4.win 7).blk t).view.emb (ix2 p q) = ix2 (⟨t.val * 2000 + p.val, h⟩ : Fin 50000) q := by
  funext a
  apply Fin.ext
  match a with
  | ⟨0, _⟩ => show win4_7.index t (0 : Fin 2) * 2000 + 1 * p.val = t.val * 2000 + p.val; rw [(idx_facts_R4 t).2.2.2.2.2.2.2.1.1]; omega
  | ⟨1, _⟩ => show win4_7.index t (1 : Fin 2) * 128 + 1 * q.val = q.val; rw [(idx_facts_R4 t).2.2.2.2.2.2.2.1.2]; omega

/-- What point `t` writes back to window 7 is block `t` of the function. -/
theorem flushed7_eq_R4 (c : Dev nD) (t : Fin cfg4.N) :
    (dat4 V c).flushed 7 t
      = ((cfg4.win 7).blk t).view.read (Elt Ideal) (txnFn_R4 (V c main_v97) (V c main_v78_0) (V c main_v91) (V c main_v58_0)) := by
  show (cfg4.win 7).cut (grid4.coords t) ((dat4 V c).after 7 t) = _
  rw [after4_7]
  unfold out4_7
  rw [View.canon_unit_zero hz_R4]
  simp only [View.ld_unit_zero (S := S2000x128) hz_R4, View.ld_unit_zero (S := S2000x1) hz_R4]
  funext j
  obtain ⟨p, q, rfl⟩ : ∃ (p : Fin 2000) (q : Fin 128), j = ix2 p q := ⟨j 0, j 1, eq_ix2 j⟩
  have ht := point_lt_R4 t
  have hp := p.isLt
  rw [View.read_apply, emb7_R4 t p q (by omega)]
  exact pay1_blk_R4 V c t p q _ rfl

/-- An index of the array is in point `t`'s block of window 7 iff each coordinate is in the block's range on its axis. -/
theorem mem_blk7_R4 (t : Fin cfg4.N) (i : S50000x128.Idx) :
    i ∈ ((cfg4.win 7).blk t).view.set ↔ ∀ a : Fin 2, win4_7.index t a * S2000x128.size a ≤ (i a).val ∧ (i a).val < win4_7.index t a * S2000x128.size a + S2000x128.size a := by
  show i ∈ ((View.whole main_v98_0).slice (win4_7.rect t)).set ↔ _
  rw [View.set_slice_whole, Rect.mem_set_unit]
  exact Iff.rfl

/-- Row `r` of window 7's array is in the block of point `r / 2000`, which writes back. -/
theorem cover7_R4 (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 25 := N_4
  have hlt : (i 0).val / 2000 < cfg4.N := by rw [hN]; omega
  refine ⟨⟨(i 0).val / 2000, hlt⟩, flush4_7 _, ?_⟩
  rw [mem_blk7_R4]
  have e := (idx_facts_R4 ⟨(i 0).val / 2000, hlt⟩).2.2.2.2.2.2.2.1
  intro a
  match a with
  | ⟨0, _⟩ =>
    show win4_7.index ⟨(i 0).val / 2000, hlt⟩ (0 : Fin 2) * 2000 ≤ (i 0).val ∧ (i 0).val < win4_7.index ⟨(i 0).val / 2000, hlt⟩ (0 : Fin 2) * 2000 + 2000
    rw [e.1]; show (i 0).val / 2000 * 2000 ≤ (i 0).val ∧ (i 0).val < (i 0).val / 2000 * 2000 + 2000; omega
  | ⟨1, _⟩ =>
    show win4_7.index ⟨(i 0).val / 2000, hlt⟩ (1 : Fin 2) * 128 ≤ (i 1).val ∧ (i 1).val < win4_7.index ⟨(i 0).val / 2000, hlt⟩ (1 : Fin 2) * 128 + 128
    rw [e.2]; omega

/-- Window 7's array after the region is the function of the arrays the region reads. -/
theorem final7_R4 (c : Dev nD) :
    (dat4 V c).arrAt 7 cfg4.N = txnFn_R4 (V c main_v97) (V c main_v78_0) (V c main_v91) (V c main_v58_0) :=
  (dat4 V c).arrAt_eq_of_cover 7 (txnFn_R4 (V c main_v97) (V c main_v78_0) (V c main_v91) (V c main_v58_0))
    (fun t _ => flushed7_eq_R4 V c t) cover7_R4

/-- Region 4's first output array, entry by entry. -/
theorem txn4 (c : Dev nD) (r : Fin 50000) (q : Fin 128) :
    (dat4 V c).arrAt 7 cfg4.N (ix2 r q)
      = Ideal.ofBits .f32 0x40000000#32
          *ₑ (V c main_v97 (ix2 r (0 : Fin 1)) *ₑ V c main_v78_0 (ix2 r q) -ₑ V c main_v91 (ix2 r q))
        -ₑ V c main_v58_0 (ix2 r q) := by
  rw [final7_R4]
  rfl

/-- The payload of the second store at a local index: the loaded sixth block, plus the product of the first payload with the
    weight block into the zero accumulator, plus the bias row. -/
theorem pay2_apply_R4 (sd : Vec Ideal S2000x1 .f32) (xc ag xp op : Vec Ideal S2000x128 .f32) (wm : Vec Ideal S128x128 .f32)
    (bv : Vec Ideal S1x128 .f32) (p : Fin 2000) (q : Fin 128) :
    k4_pay2 sd xc ag xp op wm bv (ix2 p q)
      = (op (ix2 p q)
          + FloatOps.matmul (F := Ideal) (φ₁ := .f32) (φ₂ := .f32) (DotDims.plain 2000 128 128) none (k4_pay1 sd xc ag xp) wm
              (constant (F := Ideal) ⟨2, ![2000, 128]⟩ .f32 0x00000000#32) (ix2 p q))
        + bv (ix2 (0 : Fin 1) q) := by
  unfold k4_pay2
  simp only [shapeCast_self]
  rw [addf_apply, addf_apply, broadcastTo_1b_ab_apply]
  rfl

/-- The second output array as one function of the first output array and the arrays the region reads. -/
def outFn_R4 (op : S50000x128.Idx → EReal) (T : FVec Ideal S50000x128 .f32) (wm : FVec Ideal S128x128 .f32)
    (bv : S1x128.Idx → EReal) : S50000x128.Idx → EReal :=
  fun i => (op i + Host.dotGeneral (DotDims.plain 50000 128 128) none T wm i)
    + bv (ix2 (0 : Fin 1) (⟨(i 1).val, idx2_lt1 i⟩ : Fin 128))

theorem outFn_apply_R4 (op : S50000x128.Idx → EReal) (T : FVec Ideal S50000x128 .f32) (wm : FVec Ideal S128x128 .f32)
    (bv : S1x128.Idx → EReal) (r : Fin 50000) (q : Fin 128) :
    outFn_R4 op T wm bv (ix2 r q)
      = (op (ix2 r q) + Host.dotGeneral (DotDims.plain 50000 128 128) none T wm (ix2 r q)) + bv (ix2 (0 : Fin 1) q) := rfl

/-- The second payload of the blocks at point `t`, at local `(p, q)`, is the function's entry at row `2000 t + p`: the
    block's rows of the first payload are rows of the first output's function, so the block's product is the whole product's row. -/
theorem pay2_blk_R4 (c : Dev nD) (t : Fin cfg4.N) (p : Fin 2000) (q : Fin 128) (r : Fin 50000)
    (hr : r.val = t.val * 2000 + p.val) :
    k4_pay2 (iblk4 V c 2 t) (iblk4 V c 0 t) (iblk4 V c 3 t) (iblk4 V c 1 t) (iblk4 V c 6 t) (iblk4 V c 4 t) (iblk4 V c 5 t) (ix2 p q)
      = outFn_R4 (V c main_v78_1) (txnFn_R4 (V c main_v97) (V c main_v78_0) (V c main_v91) (V c main_v58_0)) (V c main_v95) (V c main_v96) (ix2 r q) := by
  rw [pay2_apply_R4, outFn_apply_R4, blk6_apply_R4 V c t p q r hr, blk5_apply_R4 V c t q]
  rw [Cert.Lib.RowBlock.matmul_eq_dotGeneral (M := 50000) (K := 128) (N := 128) (B := 2000)
    (φ₁ := .f32) (φ₂ := .f32) (ψ₁ := .f32) (ψ₂ := .f32) none none .single
    (txnFn_R4 (V c main_v97) (V c main_v78_0) (V c main_v91) (V c main_v58_0)) (V c main_v95)
    (k4_pay1 (iblk4 V c 2 t) (iblk4 V c 0 t) (iblk4 V c 3 t) (iblk4 V c 1 t)) (iblk4 V c 4 t) r p q
    (fun k => pay1_blk_R4 V c t p k r hr) (fun k => blk4_apply_R4 V c t k q)]

theorem emb8_R4 (t : Fin cfg4.N) (p : Fin 2000) (q : Fin 128) (h : t.val * 2000 + p.val < 50000) :
    ((cfg4.win 8).blk t).view.emb (ix2 p q) = ix2 (⟨t.val * 2000 + p.val, h⟩ : Fin 50000) q := by
  funext a
  apply Fin.ext
  match a with
  | ⟨0, _⟩ => show win4_8.index t (0 : Fin 2) * 2000 + 1 * p.val = t.val * 2000 + p.val; rw [(idx_facts_R4 t).2.2.2.2.2.2.2.2.1]; omega
  | ⟨1, _⟩ => show win4_8.index t (1 : Fin 2) * 128 + 1 * q.val = q.val; rw [(idx_facts_R4 t).2.2.2.2.2.2.2.2.2]; omega

/-- What point `t` writes back to window 8 is block `t` of the function. -/
theorem flushed8_eq_R4 (c : Dev nD) (t : Fin cfg4.N) :
    (dat4 V c).flushed 8 t
      = ((cfg4.win 8).blk t).view.read (Elt Ideal) (outFn_R4 (V c main_v78_1) (txnFn_R4 (V c main_v97) (V c main_v78_0) (V c main_v91) (V c main_v58_0)) (V c main_v95) (V c main_v96)) := by
  show (cfg4.win 8).cut (grid4.coords t) ((dat4 V c).after 8 t) = _
  rw [after4_8]
  unfold out4_8
  rw [View.canon_unit_zero hz_R4]
  simp only [View.ld_unit_zero (S := S2000x128) hz_R4, View.ld_unit_zero (S := S2000x1) hz_R4,
    View.ld_unit_zero (S := S128x128) hz_R4, View.ld_unit_zero (S := S1x128) hz_R4]
  funext j
  obtain ⟨p, q, rfl⟩ : ∃ (p : Fin 2000) (q : Fin 128), j = ix2 p q := ⟨j 0, j 1, eq_ix2 j⟩
  have ht := point_lt_R4 t
  have hp := p.isLt
  rw [View.read_apply, emb8_R4 t p q (by omega)]
  exact pay2_blk_R4 V c t p q _ rfl

theorem mem_blk8_R4 (t : Fin cfg4.N) (i : S50000x128.Idx) :
    i ∈ ((cfg4.win 8).blk t).view.set ↔ ∀ a : Fin 2, win4_8.index t a * S2000x128.size a ≤ (i a).val ∧ (i a).val < win4_8.index t a * S2000x128.size a + S2000x128.size a := by
  show i ∈ ((View.whole main_v98_1).slice (win4_8.rect t)).set ↔ _
  rw [View.set_slice_whole, Rect.mem_set_unit]
  exact Iff.rfl

/-- Row `r` of window 8's array is in the block of point `r / 2000`, which writes back. -/
theorem cover8_R4 (i : S50000x128.Idx) :
    ∃ t : Fin cfg4.N, (cfg4.win 8).flush t = true ∧ i ∈ ((cfg4.win 8).blk t).view.set := by
  have hi0 : (i 0).val < 50000 := (i 0).isLt
  have hi1 : (i 1).val < 128 := (i 1).isLt
  have hN : cfg4.N = 25 := N_4
  have hlt : (i 0).val / 2000 < cfg4.N := by rw [hN]; omega
  refine ⟨⟨(i 0).val / 2000, hlt⟩, flush4_8 _, ?_⟩
  rw [mem_blk8_R4]
  have e := (idx_facts_R4 ⟨(i 0).val / 2000, hlt⟩).2.2.2.2.2.2.2.2
  intro a
  match a with
  | ⟨0, _⟩ =>
    show win4_8.index ⟨(i 0).val / 2000, hlt⟩ (0 : Fin 2) * 2000 ≤ (i 0).val ∧ (i 0).val < win4_8.index ⟨(i 0).val / 2000, hlt⟩ (0 : Fin 2) * 2000 + 2000
    rw [e.1]; show (i 0).val / 2000 * 2000 ≤ (i 0).val ∧ (i 0).val < (i 0).val / 2000 * 2000 + 2000; omega
  | ⟨1, _⟩ =>
    show win4_8.index ⟨(i 0).val / 2000, hlt⟩ (1 : Fin 2) * 128 ≤ (i 1).val ∧ (i 1).val < win4_8.index ⟨(i 0).val / 2000, hlt⟩ (1 : Fin 2) * 128 + 128
    rw [e.2]; omega

/-- Window 8's array after the region is the function of the first output's function and the arrays the region reads. -/
theorem final8_R4 (c : Dev nD) :
    (dat4 V c).arrAt 8 cfg4.N = outFn_R4 (V c main_v78_1) (txnFn_R4 (V c main_v97) (V c main_v78_0) (V c main_v91) (V c main_v58_0)) (V c main_v95) (V c main_v96) :=
  (dat4 V c).arrAt_eq_of_cover 8 (outFn_R4 (V c main_v78_1) (txnFn_R4 (V c main_v97) (V c main_v78_0) (V c main_v91) (V c main_v58_0)) (V c main_v95) (V c main_v96))
    (fun t _ => flushed8_eq_R4 V c t) cover8_R4

/-- Region 4's second output array, entry by entry: the sixth array plus the whole product of the first output array the
    region leaves with the weight array, plus the bias row. -/
theorem out4 (c : Dev nD) (r : Fin 50000) (q : Fin 128) :
    (dat4 V c).arrAt 8 cfg4.N (ix2 r q)
      = (V c main_v78_1 (ix2 r q)
          +ₑ Host.dotGeneral (F := Ideal) (φ₁ := .f32) (φ₂ := .f32) (DotDims.plain 50000 128 128) none
              ((dat4 V c).arrAt 7 cfg4.N) (V c main_v95) (ix2 r q))
        +ₑ V c main_v96 (ix2 (0 : Fin 1) q) := by
  rw [final8_R4, final7_R4]
  rfl

end Cert.KernelIdeal.Regions

end
-- ==== Proof.Region5.lean ====
/-
  Region 5 of the kernel as whole-array functions, on the extended reals.

  The region's grid has 25 points; point `t` works on rows `2000 t … 2000 t + 1999` of seven row-blocked arrays and on the
  whole weight matrix and bias row. Its first output array ends holding, entry by entry,
  `2 · (sd(r, 0) · xc(r, q) − ag(r, q)) − xp(r, q)`; its second output array ends holding
  `(op(r, q) + (T · wm)(r, q)) + bv(0, q)`, where `T` is the first output array the same region leaves and `T · wm` the
  one whole matrix product: each point's product of its 2000 rows with the whole weight matrix, accumulated from zero, is
  those rows of the whole product, the same sum term by term.

  The steps: the block indices of every window decided over the grid; each input block's entry as an entry of its array;
  the two stored payloads at a local index; what a point writes back as a block of the whole-array function; every row
  is in the block of point `r / 2000`; hence the arrays after the region.
-/
import proofs.«158343_j26250840113269_2_alg».proof.Proof.Gen.KernelIdeal.Frame
import proofs.«158343_j26250840113269_2_alg».proof.Proof.LibPlainDot
import proofs.«158343_j26250840113269_2_alg».proof.Proof.LibRowBlock
import proofs.«158343_j26250840113269_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Regions

open Cert.KernelIdeal Cert.KernelIdeal.Gen

variable (V : (c : Dev nD) → (b : Ref sig .tc) → Buf (Elt Ideal) ((c : Thread nD τ).loc b))

local infixl:70 " *ₑ " => (HMul.hMul : EReal → EReal → EReal)
local infixl:65 " -ₑ " => (HSub.hSub : EReal → EReal → EReal)
local infixl:65 " +ₑ " => (HAdd.hAdd : EReal → EReal → EReal)

theorem hz_R5 : (![0, 0] : Fin 2 → Nat) = fun _ => 0 := funext fun a => by fin_cases a <;> rfl

/-- The windows' block indices over the grid: the row-blocked windows sit at block row `t`, the whole windows at block zero. -/
theorem idx_facts_R5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = t.val ∧ win5_3.index t (1 : Fin 2) = 0)
    ∧ (win5_4.index t (0 : Fin 2) = 0 ∧ win5_4.index t (1 : Fin 2) = 0)
    ∧ (win5_5.index t (0 : Fin 2) = 0 ∧ win5_5.index t (1 : Fin 2) = 0)
    ∧ (win5_6.index t (0 : Fin 2) = t.val ∧ win5_6.index t (1 : Fin 2) = 0)
    ∧ (win5_7.index t (0 : Fin 2) = t.val ∧ win5_7.index t (1 : Fin 2) = 0)
    ∧ (win5_8.index t (0 : Fin 2) = t.val ∧ win5_8.index t (1 : Fin 2) = 0) :=
  (by decide +kernel : ∀ t : Fin grid5.N, _)

/-- The payload of the first store at a local index. -/
theorem pay1_apply_R5 (sd : Vec Ideal S2000x1 .f32) (xc ag xp : Vec Ideal S2000x128 .f32) (p : Fin 2000) (q : Fin 128) :
    k5_pay1 sd xc ag xp (ix2 p q)
      = Ideal.ofBits .f32 0x40000000#32 * (sd (ix2 p (0 : Fin 1)) * xc (ix2 p q) - ag (ix2 p q)) - xp (ix2 p q) := by
  unfold k5_pay1
  simp only [shapeCast_self]
  rw [subf_apply, mulf_apply, broadcast_apply, subf_apply, mulf_apply, ValueKeepdims.broadcastTo_a1_ab_apply]
  rfl

/-- Window 0's block at point `t`, entry `(p, q)`, is its array's entry `(2000 t + p, q)`. -/
theorem blk0_apply_R5 (c : Dev nD) (t : Fin cfg5.N) (p : Fin 2000) (q : Fin 128) (r : Fin 50000)
    (hr : r.val = t.val * 2000 + p.val) :
    (iblk5 V c 0 t : Vec Ideal S2000x128 .f32) (ix2 p q) = (V c main_v98_0 : S50000x128.Idx → EReal) (ix2 r q) := by
  unfold iblk5
  rw [View.read_apply]
  show V c main_v98_0 _ = V c main_v98_0 _
  refine congrArg _ ?_
  funext a
  apply Fin.ext
  match a with
  | ⟨0, _⟩ => show win5_0.index t (0 : Fin 2) * 2000 + 1 * p.val = r.val; rw [(idx_facts_R5 t).1.1, hr]; omega
  | ⟨1, _⟩ => show win5_0.index t (1 : Fin 2) * 128 + 1 * q.val = q.val; rw [(idx_facts_R5 t).1.2]; omega

/-- Window 1's block at point `t`, entry `(p, q)`, is its array's entry `(2000 t + p, q)`. -/
theorem blk1_apply_R5 (c : Dev nD) (t : Fin cfg5.N) (p : Fin 2000) (q : Fin 128) (r : Fin 50000)
    (hr : r.val = t.val * 2000 + p.val) :
    (iblk5 V c 1 t : Vec Ideal S2000x128 .f32) (ix2 p q) = (V c main_v78_0 : S50000x128.Idx → EReal) (ix2 r q) := by
  unfold iblk5
  rw [View.read_apply]
  show V c main_v78_0 _ = V c main_v78_0 _
  refine congrArg _ ?_
  funext a
  apply Fin.ext
  match a with
  | ⟨0, _⟩ => show win5_1.index t (0 : Fin 2) * 2000 + 1 * p.val = r.val; rw [(idx_facts_R5 t).2.1.1, hr]; omega
  | ⟨1, _⟩ => show win5_1.index t (1 : Fin 2) * 128 + 1 * q.val = q.val; rw [(idx_facts_R5 t).2.1.2]; omega

/-- Window 2's block (a column) at point `t`, entry `(p, 0)`, is its array's entry `(2000 t + p, 0)`. -/
theorem blk2_apply_R5 (c : Dev nD) (t : Fin cfg5.N) (p : Fin 2000) (r : Fin 50000)
    (hr : r.val = t.val * 2000 + p.val) :
    (iblk5 V c 2 t : Vec Ideal S2000x1 .f32) (ix2 p (0 : Fin 1)) = (V c main_v118 : S50000x1.Idx → EReal) (ix2 r (0 : Fin 1)) := by
  unfold iblk5
  rw [View.read_apply]
  show V c main_v118 _ = V c main_v118 _
  refine congrArg _ ?_
  funext a
  apply Fin.ext
  match a with
  | ⟨0, _⟩ => show win5_2.index t (0 : Fin 2) * 2000 + 1 * p.val = r.val; rw [(idx_facts_R5 t).2.2.1.1, hr]; omega
  | ⟨1, _⟩ => show win5_2.index t (1 : Fin 2) * 1 + 1 * (0 : Fin 1).val = (0 : Fin 1).val; rw [(idx_facts_R5 t).2.2.1.2]; rfl

/-- Window 3's block at point `t`, entry `(p, q)`, is its array's entry `(2000 t + p, q)`. -/
theorem blk3_apply_R5 (c : Dev nD) (t : Fin cfg5.N) (p : Fin 2000) (q : Fin 128) (r : Fin 50000)
    (hr : r.val = t.val * 2000 + p.val) :
    (iblk5 V c 3 t : Vec Ideal S2000x128 .f32) (ix2 p q) = (V c main_v111 : S50000x128.Idx → EReal) (ix2 r q) := by
  unfold iblk5
  rw [View.read_apply]
  show V c main_v111 _ = V c main_v111 _
  refine congrArg _ ?_
  funext a
  apply Fin.ext
  match a with
  | ⟨0, _⟩ => show win5_3.index t (0 : Fin 2) * 2000 + 1 * p.val = r.val; rw [(idx_facts_R5 t).2.2.2.1.1, hr]; omega
  | ⟨1, _⟩ => show win5_3.index t (1 : Fin 2) * 128 + 1 * q.val = q.val; rw [(idx_facts_R5 t).2.2.2.1.2]; omega

/-- Window 4's block is its whole array. -/
theorem blk4_apply_R5 (c : Dev nD) (t : Fin cfg5.N) (k : Fin 128) (q : Fin 128) :
    (iblk5 V c 4 t : Vec Ideal S128x128 .f32) (ix2 k q) = (V c main_v116 : S128x128.Idx → EReal) (ix2 k q) := by
  unfold iblk5
  rw [View.read_apply]
  show V c main_v116 _ = V c main_v116 _
  refine congrArg _ ?_
  funext a
  apply Fin.ext
  match a with
  | ⟨0, _⟩ => show win5_4.index t (0 : Fin 2) * 128 + 1 * k.val = k.val; rw [(idx_facts_R5 t).2.2.2.2.1.1]; omega
  | ⟨1, _⟩ => show win5_4.index t (1 : Fin 2) * 128 + 1 * q.val = q.val; rw [(idx_facts_R5 t).2.2.2.2.1.2]; omega

/-- Window 5's block is its whole array. -/
theorem blk5_apply_R5 (c : Dev nD) (t : Fin cfg5.N) (q : Fin 128) :
    (iblk5 V c 5 t : Vec Ideal S1x128 .f32) (ix2 (0 : Fin 1) q) = (V c main_v117 : S1x128.Idx → EReal) (ix2 (0 : Fin 1) q) := by
  unfold iblk5
  rw [View.read_apply]
  show V c main_v117 _ = V c main_v117 _
  refine congrArg _ ?_
  funext a
  apply Fin.ext
  match a with
  | ⟨0, _⟩ => show win5_5.index t (0 : Fin 2) * 1 + 1 * (0 : Fin 1).val = (0 : Fin 1).val; rw [(idx_facts_R5 t).2.2.2.2.2.1.1]; rfl
  | ⟨1, _⟩ => show win5_5.index t (1 : Fin 2) * 128 + 1 * q.val = q.val; rw [(idx_facts_R5 t).2.2.2.2.2.1.2]; omega

/-- Window 6's block at point `t`, entry `(p, q)`, is its array's entry `(2000 t + p, q)`. -/
theorem blk6_apply_R5 (c : Dev nD) (t : Fin cfg5.N) (p : Fin 2000) (q : Fin 128) (r : Fin 50000)
    (hr : r.val = t.val * 2000 + p.val) :
    (iblk5 V c 6 t : Vec Ideal S2000x128 .f32) (ix2 p q) = (V c main_v98_1 : S50000x128.Idx → EReal) (ix2 r q) := by
  unfold iblk5
  rw [View.read_apply]
  show V c main_v98_1 _ = V c main_v98_1 _
  refine congrArg _ ?_
  funext a
  apply Fin.ext
  match a with
  | ⟨0, _⟩ => show win5_6.index t (0 : Fin 2) * 2000 + 1 * p.val = r.val; rw [(idx_facts_R5 t).2.2.2.2.2.2.1.1, hr]; omega
  | ⟨1, _⟩ => show win5_6.index t (1 : Fin 2) * 128 + 1 * q.val = q.val; rw [(idx_facts_R5 t).2.2.2.2.2.2.1.2]; omega

/-- The first output array as one function of the arrays the region reads. -/
def txnFn_R5 (sd : S50000x1.Idx → EReal) (xc ag xp : S50000x128.Idx → EReal) : S50000x128.Idx → EReal :=
  fun i => Ideal.ofBits .f32 0x40000000#32
      * (sd (ix2 (⟨(i 0).val, idx2_lt0 i⟩ : Fin 50000) (0 : Fin 1)) * xc i - ag i) - xp i

theorem txnFn_apply_R5 (sd : S50000x1.Idx → EReal) (xc ag xp : S50000x128.Idx → EReal) (r : Fin 50000) (q : Fin 128) :
    txnFn_R5 sd xc ag xp (ix2 r q)
      = Ideal.ofBits .f32 0x40000000#32 * (sd (ix2 r (0 : Fin 1)) * xc (ix2 r q) - ag (ix2 r q)) - xp (ix2 r q) := rfl

/-- The first payload of the blocks at point `t`, at local `(p, q)`, is the function's entry at row `2000 t + p`. -/
theorem pay1_blk_R5 (c : Dev nD) (t : Fin cfg5.N) (p : Fin 2000) (q : Fin 128) (r : Fin 50000)
    (hr : r.val = t.val * 2000 + p.val) :
    k5_pay1 (iblk5 V c 2 t) (iblk5 V c 0 t) (iblk5 V c 3 t) (iblk5 V c 1 t) (ix2 p q)
      = txnFn_R5 (V c main_v118) (V c main_v98_0) (V c main_v111) (V c main_v78_0) (ix2 r q) := by
  rw [pay1_apply_R5, txnFn_apply_R5, blk2_apply_R5 V c t p r hr, blk0_apply_R5 V c t p q r hr,
    blk3_apply_R5 V c t p q r hr, blk1_apply_R5 V c t p q r hr]

theorem point_lt_R5 (t : Fin cfg5.N) : t.val < 25 := lt_of_lt_of_eq t.isLt N_5

/-- An entry of point `t`'s block of an output window sits at row `2000 t + p` of the array. -/
theorem emb7_R5 (t : Fin cfg5.N) (p : Fin 2000) (q : Fin 128) (h : t.val * 2000 + p.val < 50000) :
    ((cfg5.win 7).blk t).view.emb (ix2 p q) = ix2 (⟨t.val * 2000 + p.val, h⟩ : Fin 50000) q := by
  funext a
  apply Fin.ext
  match a with
  | ⟨0, _⟩ => show win5_7.index t (0 : Fin 2) * 2000 + 1 * p.val = t.val * 2000 + p.val; rw [(idx_facts_R5 t).2.2.2.2.2.2.2.1.1]; omega
  | ⟨1, _⟩ => show win5_7.index t (1 : Fin 2) * 128 + 1 * q.val = q.val; rw [(idx_facts_R5 t).2.2.2.2.2.2.2.1.2]; omega

/-- What point `t` writes back to window 7 is block `t` of the function. -/
theorem flushed7_eq_R5 (c : Dev nD) (t : Fin cfg5.N) :
    (dat5 V c).flushed 7 t
      = ((cfg5.win 7).blk t).view.read (Elt Ideal) (txnFn_R5 (V c main_v118) (V c main_v98_0) (V c main_v111) (V c main_v78_0)) := by
  show (cfg5.win 7).cut (grid5.coords t) ((dat5 V c).after 7 t) = _
  rw [after5_7]
  unfold out5_7
  rw [View.canon_unit_zero hz_R5]
  simp only [View.ld_unit_zero (S := S2000x128) hz_R5, View.ld_unit_zero (S := S2000x1) hz_R5]
  funext j
  obtain ⟨p, q, rfl⟩ : ∃ (p : Fin 2000) (q : Fin 128), j = ix2 p q := ⟨j 0, j 1, eq_ix2 j⟩
  have ht := point_lt_R5 t
  have hp := p.isLt
  rw [View.read_apply, emb7_R5 t p q (by omega)]
  exact pay1_blk_R5 V c t p q _ rfl

/-- An index of the array is in point `t`'s block of window 7 iff each coordinate is in the block's range on its axis. -/
theorem mem_blk7_R5 (t : Fin cfg5.N) (i : S50000x128.Idx) :
    i ∈ ((cfg5.win 7).blk t).view.set ↔ ∀ a : Fin 2, win5_7.index t a * S2000x128.size a ≤ (i a).val ∧ (i a).val < win5_7.index t a * S2000x128.size a + S2000x128.size a := by
  show i ∈ ((View.whole main_v119_0).slice (win5_7.rect t)).set ↔ _
  rw [View.set_slice_whole, Rect.mem_set_unit]
  exact Iff.rfl

/-- Row `r` of window 7's array is in the block of point `r / 2000`, which writes back. -/
theorem cover7_R5 (i : S50000x128.Idx) :
    ∃ t : Fin cfg5.N, (cfg5.win 7).flush t = true ∧ i ∈ ((cfg5.win 7).blk t).view.set := by
  have hi0 : (i 0).val < 50000 := (i 0).isLt
  have hi1 : (i 1).val < 128 := (i 1).isLt
  have hN : cfg5.N = 25 := N_5
  have hlt : (i 0).val / 2000 < cfg5.N := by rw [hN]; omega
  refine ⟨⟨(i 0).val / 2000, hlt⟩, flush5_7 _, ?_⟩
  rw [mem_blk7_R5]
  have e := (idx_facts_R5 ⟨(i 0).val / 2000, hlt⟩).2.2.2.2.2.2.2.1
  intro a
  match a with
  | ⟨0, _⟩ =>
    show win5_7.index ⟨(i 0).val / 2000, hlt⟩ (0 : Fin 2) * 2000 ≤ (i 0).val ∧ (i 0).val < win5_7.index ⟨(i 0).val / 2000, hlt⟩ (0 : Fin 2) * 2000 + 2000
    rw [e.1]; show (i 0).val / 2000 * 2000 ≤ (i 0).val ∧ (i 0).val < (i 0).val / 2000 * 2000 + 2000; omega
  | ⟨1, _⟩ =>
    show win5_7.index ⟨(i 0).val / 2000, hlt⟩ (1 : Fin 2) * 128 ≤ (i 1).val ∧ (i 1).val < win5_7.index ⟨(i 0).val / 2000, hlt⟩ (1 : Fin 2) * 128 + 128
    rw [e.2]; omega

/-- Window 7's array after the region is the function of the arrays the region reads. -/
theorem final7_R5 (c : Dev nD) :
    (dat5 V c).arrAt 7 cfg5.N = txnFn_R5 (V c main_v118) (V c main_v98_0) (V c main_v111) (V c main_v78_0) :=
  (dat5 V c).arrAt_eq_of_cover 7 (txnFn_R5 (V c main_v118) (V c main_v98_0) (V c main_v111) (V c main_v78_0))
    (fun t _ => flushed7_eq_R5 V c t) cover7_R5

/-- Region 5's first output array, entry by entry. -/
theorem txn5 (c : Dev nD) (r : Fin 50000) (q : Fin 128) :
    (dat5 V c).arrAt 7 cfg5.N (ix2 r q)
      = Ideal.ofBits .f32 0x40000000#32
          *ₑ (V c main_v118 (ix2 r (0 : Fin 1)) *ₑ V c main_v98_0 (ix2 r q) -ₑ V c main_v111 (ix2 r q))
        -ₑ V c main_v78_0 (ix2 r q) := by
  rw [final7_R5]
  rfl

/-- The payload of the second store at a local index: the loaded sixth block, plus the product of the first payload with the
    weight block into the zero accumulator, plus the bias row. -/
theorem pay2_apply_R5 (sd : Vec Ideal S2000x1 .f32) (xc ag xp op : Vec Ideal S2000x128 .f32) (wm : Vec Ideal S128x128 .f32)
    (bv : Vec Ideal S1x128 .f32) (p : Fin 2000) (q : Fin 128) :
    k5_pay2 sd xc ag xp op wm bv (ix2 p q)
      = (op (ix2 p q)
          + FloatOps.matmul (F := Ideal) (φ₁ := .f32) (φ₂ := .f32) (DotDims.plain 2000 128 128) none (k5_pay1 sd xc ag xp) wm
              (constant (F := Ideal) ⟨2, ![2000, 128]⟩ .f32 0x00000000#32) (ix2 p q))
        + bv (ix2 (0 : Fin 1) q) := by
  unfold k5_pay2
  simp only [shapeCast_self]
  rw [addf_apply, addf_apply, broadcastTo_1b_ab_apply]
  rfl

/-- The second output array as one function of the first output array and the arrays the region reads. -/
def outFn_R5 (op : S50000x128.Idx → EReal) (T : FVec Ideal S50000x128 .f32) (wm : FVec Ideal S128x128 .f32)
    (bv : S1x128.Idx → EReal) : S50000x128.Idx → EReal :=
  fun i => (op i + Host.dotGeneral (DotDims.plain 50000 128 128) none T wm i)
    + bv (ix2 (0 : Fin 1) (⟨(i 1).val, idx2_lt1 i⟩ : Fin 128))

theorem outFn_apply_R5 (op : S50000x128.Idx → EReal) (T : FVec Ideal S50000x128 .f32) (wm : FVec Ideal S128x128 .f32)
    (bv : S1x128.Idx → EReal) (r : Fin 50000) (q : Fin 128) :
    outFn_R5 op T wm bv (ix2 r q)
      = (op (ix2 r q) + Host.dotGeneral (DotDims.plain 50000 128 128) none T wm (ix2 r q)) + bv (ix2 (0 : Fin 1) q) := rfl

/-- The second payload of the blocks at point `t`, at local `(p, q)`, is the function's entry at row `2000 t + p`: the
    block's rows of the first payload are rows of the first output's function, so the block's product is the whole product's row. -/
theorem pay2_blk_R5 (c : Dev nD) (t : Fin cfg5.N) (p : Fin 2000) (q : Fin 128) (r : Fin 50000)
    (hr : r.val = t.val * 2000 + p.val) :
    k5_pay2 (iblk5 V c 2 t) (iblk5 V c 0 t) (iblk5 V c 3 t) (iblk5 V c 1 t) (iblk5 V c 6 t) (iblk5 V c 4 t) (iblk5 V c 5 t) (ix2 p q)
      = outFn_R5 (V c main_v98_1) (txnFn_R5 (V c main_v118) (V c main_v98_0) (V c main_v111) (V c main_v78_0)) (V c main_v116) (V c main_v117) (ix2 r q) := by
  rw [pay2_apply_R5, outFn_apply_R5, blk6_apply_R5 V c t p q r hr, blk5_apply_R5 V c t q]
  rw [Cert.Lib.RowBlock.matmul_eq_dotGeneral (M := 50000) (K := 128) (N := 128) (B := 2000)
    (φ₁ := .f32) (φ₂ := .f32) (ψ₁ := .f32) (ψ₂ := .f32) none none .single
    (txnFn_R5 (V c main_v118) (V c main_v98_0) (V c main_v111) (V c main_v78_0)) (V c main_v116)
    (k5_pay1 (iblk5 V c 2 t) (iblk5 V c 0 t) (iblk5 V c 3 t) (iblk5 V c 1 t)) (iblk5 V c 4 t) r p q
    (fun k => pay1_blk_R5 V c t p k r hr) (fun k => blk4_apply_R5 V c t k q)]

theorem emb8_R5 (t : Fin cfg5.N) (p : Fin 2000) (q : Fin 128) (h : t.val * 2000 + p.val < 50000) :
    ((cfg5.win 8).blk t).view.emb (ix2 p q) = ix2 (⟨t.val * 2000 + p.val, h⟩ : Fin 50000) q := by
  funext a
  apply Fin.ext
  match a with
  | ⟨0, _⟩ => show win5_8.index t (0 : Fin 2) * 2000 + 1 * p.val = t.val * 2000 + p.val; rw [(idx_facts_R5 t).2.2.2.2.2.2.2.2.1]; omega
  | ⟨1, _⟩ => show win5_8.index t (1 : Fin 2) * 128 + 1 * q.val = q.val; rw [(idx_facts_R5 t).2.2.2.2.2.2.2.2.2]; omega

/-- What point `t` writes back to window 8 is block `t` of the function. -/
theorem flushed8_eq_R5 (c : Dev nD) (t : Fin cfg5.N) :
    (dat5 V c).flushed 8 t
      = ((cfg5.win 8).blk t).view.read (Elt Ideal) (outFn_R5 (V c main_v98_1) (txnFn_R5 (V c main_v118) (V c main_v98_0) (V c main_v111) (V c main_v78_0)) (V c main_v116) (V c main_v117)) := by
  show (cfg5.win 8).cut (grid5.coords t) ((dat5 V c).after 8 t) = _
  rw [after5_8]
  unfold out5_8
  rw [View.canon_unit_zero hz_R5]
  simp only [View.ld_unit_zero (S := S2000x128) hz_R5, View.ld_unit_zero (S := S2000x1) hz_R5,
    View.ld_unit_zero (S := S128x128) hz_R5, View.ld_unit_zero (S := S1x128) hz_R5]
  funext j
  obtain ⟨p, q, rfl⟩ : ∃ (p : Fin 2000) (q : Fin 128), j = ix2 p q := ⟨j 0, j 1, eq_ix2 j⟩
  have ht := point_lt_R5 t
  have hp := p.isLt
  rw [View.read_apply, emb8_R5 t p q (by omega)]
  exact pay2_blk_R5 V c t p q _ rfl

theorem mem_blk8_R5 (t : Fin cfg5.N) (i : S50000x128.Idx) :
    i ∈ ((cfg5.win 8).blk t).view.set ↔ ∀ a : Fin 2, win5_8.index t a * S2000x128.size a ≤ (i a).val ∧ (i a).val < win5_8.index t a * S2000x128.size a + S2000x128.size a := by
  show i ∈ ((View.whole main_v119_1).slice (win5_8.rect t)).set ↔ _
  rw [View.set_slice_whole, Rect.mem_set_unit]
  exact Iff.rfl

/-- Row `r` of window 8's array is in the block of point `r / 2000`, which writes back. -/
theorem cover8_R5 (i : S50000x128.Idx) :
    ∃ t : Fin cfg5.N, (cfg5.win 8).flush t = true ∧ i ∈ ((cfg5.win 8).blk t).view.set := by
  have hi0 : (i 0).val < 50000 := (i 0).isLt
  have hi1 : (i 1).val < 128 := (i 1).isLt
  have hN : cfg5.N = 25 := N_5
  have hlt : (i 0).val / 2000 < cfg5.N := by rw [hN]; omega
  refine ⟨⟨(i 0).val / 2000, hlt⟩, flush5_8 _, ?_⟩
  rw [mem_blk8_R5]
  have e := (idx_facts_R5 ⟨(i 0).val / 2000, hlt⟩).2.2.2.2.2.2.2.2
  intro a
  match a with
  | ⟨0, _⟩ =>
    show win5_8.index ⟨(i 0).val / 2000, hlt⟩ (0 : Fin 2) * 2000 ≤ (i 0).val ∧ (i 0).val < win5_8.index ⟨(i 0).val / 2000, hlt⟩ (0 : Fin 2) * 2000 + 2000
    rw [e.1]; show (i 0).val / 2000 * 2000 ≤ (i 0).val ∧ (i 0).val < (i 0).val / 2000 * 2000 + 2000; omega
  | ⟨1, _⟩ =>
    show win5_8.index ⟨(i 0).val / 2000, hlt⟩ (1 : Fin 2) * 128 ≤ (i 1).val ∧ (i 1).val < win5_8.index ⟨(i 0).val / 2000, hlt⟩ (1 : Fin 2) * 128 + 128
    rw [e.2]; omega

/-- Window 8's array after the region is the function of the first output's function and the arrays the region reads. -/
theorem final8_R5 (c : Dev nD) :
    (dat5 V c).arrAt 8 cfg5.N = outFn_R5 (V c main_v98_1) (txnFn_R5 (V c main_v118) (V c main_v98_0) (V c main_v111) (V c main_v78_0)) (V c main_v116) (V c main_v117) :=
  (dat5 V c).arrAt_eq_of_cover 8 (outFn_R5 (V c main_v98_1) (txnFn_R5 (V c main_v118) (V c main_v98_0) (V c main_v111) (V c main_v78_0)) (V c main_v116) (V c main_v117))
    (fun t _ => flushed8_eq_R5 V c t) cover8_R5

/-- Region 5's second output array, entry by entry: the sixth array plus the whole product of the first output array the
    region leaves with the weight array, plus the bias row. -/
theorem out5 (c : Dev nD) (r : Fin 50000) (q : Fin 128) :
    (dat5 V c).arrAt 8 cfg5.N (ix2 r q)
      = (V c main_v98_1 (ix2 r q)
          +ₑ Host.dotGeneral (F := Ideal) (φ₁ := .f32) (φ₂ := .f32) (DotDims.plain 50000 128 128) none
              ((dat5 V c).arrAt 7 cfg5.N) (V c main_v116) (ix2 r q))
        +ₑ V c main_v117 (ix2 (0 : Fin 1) q) := by
  rw [final8_R5, final7_R5]
  rfl

end Cert.KernelIdeal.Regions

end
-- ==== Proof.KChainSteps.lean ====
/-
  The idealized kernel's eleven output arrays, each from the ones before it, on the extended reals.

  Region 0 leaves `O₀ = x · W₀ + b₀`. Region 1 leaves `T₁ = sdeg · x − agg(x)` and `O₁ = (O₀ + T₁ · W₁) + b₁`. Region k ≥ 2
  leaves `T_k = 2 · (sdeg · T_{k−1} − agg(T_{k−1})) − T_{k−2}` and `O_k = (O_{k−1} + T_k · W_k) + b_k` (the last bias row
  carrying the module's bias), where `sdeg` is the scaled-degree column and `agg` the aggregation with the scaled edge
  weights: each region's whole-array value, at the inputs the host side and the earlier regions supply.
-/
import proofs.«158343_j26250840113269_2_alg».proof.Proof.KChainVals
import proofs.«158343_j26250840113269_2_alg».proof.Proof.Region0
import proofs.«158343_j26250840113269_2_alg».proof.Proof.Region1
import proofs.«158343_j26250840113269_2_alg».proof.Proof.Region2
import proofs.«158343_j26250840113269_2_alg».proof.Proof.Region3
import proofs.«158343_j26250840113269_2_alg».proof.Proof.Region4
import proofs.«158343_j26250840113269_2_alg».proof.Proof.Region5

set_option maxRecDepth 16384

noncomputable section

namespace Cert.KernelIdeal.Chain

open Cert.KernelIdeal Cert.KernelIdeal.Gen Cert.KernelIdeal.Regions Idealize.ShloMosaic Idealize.ShloMosaic.TcCoe
open Idealize.SL.Sem Idealize.ShloMosaic.ValueIdx

variable (m : (ℓ : Loc nD τ sig) → Buf (Elt Ideal) ℓ) (ρ : Dev nD → PrngReg) (c : Dev nD)

/-! ## The output arrays, as the boundary after their region holds them -/
abbrev O0 : FVec Ideal S50000x128 .f32 := W2 m ρ c (Proc.devRef .tc main_v18)
abbrev T1 : FVec Ideal S50000x128 .f32 := W4 m ρ c (Proc.devRef .tc main_v38_0)
abbrev O1 : FVec Ideal S50000x128 .f32 := W4 m ρ c (Proc.devRef .tc main_v38_1)
abbrev T2 : FVec Ideal S50000x128 .f32 := W6 m ρ c (Proc.devRef .tc main_v58_0)
abbrev O2 : FVec Ideal S50000x128 .f32 := W6 m ρ c (Proc.devRef .tc main_v58_1)
abbrev T3 : FVec Ideal S50000x128 .f32 := W8 m ρ c (Proc.devRef .tc main_v78_0)
abbrev O3 : FVec Ideal S50000x128 .f32 := W8 m ρ c (Proc.devRef .tc main_v78_1)
abbrev T4 : FVec Ideal S50000x128 .f32 := W10 m ρ c (Proc.devRef .tc main_v98_0)
abbrev O4 : FVec Ideal S50000x128 .f32 := W10 m ρ c (Proc.devRef .tc main_v98_1)
abbrev T5 : FVec Ideal S50000x128 .f32 := W12 m ρ c (Proc.devRef .tc main_v119_0)
abbrev O5 : FVec Ideal S50000x128 .f32 := W12 m ρ c (Proc.devRef .tc main_v119_1)

/-! ## Each region's inputs, read at the region's entry contents -/
theorem vin0_0 : V1 m ρ c main_arg0 = A0 m c := in0_0 m ρ c
theorem vin0_1 : V1 m ρ c main_v16 = wT0 (A4 m c) := in0_1 m ρ c
theorem vin0_2 : V1 m ρ c main_v17 = bT0 (A5 m c) := in0_2 m ρ c

theorem vin1_xc : V3 m ρ c main_arg0 = A0 m c := in1_xc m ρ c
theorem vin1_sd : V3 m ρ c main_v37 = colT (sdegT (A2 m c) (A1 m c)) := in1_sd m ρ c
theorem vin1_ag : V3 m ρ c main_v31 = aggT (sedgeT (A2 m c) (A1 m c)) (A2 m c) (A3 m c) (A0 m c) := in1_ag m ρ c
theorem vin1_wm : V3 m ρ c main_v35 = wT1 (A4 m c) := in1_wm m ρ c
theorem vin1_bv : V3 m ρ c main_v36 = bT1 (A5 m c) := in1_bv m ρ c
theorem vin1_op : V3 m ρ c main_v18 = O0 m ρ c := in1_op m ρ c

theorem vin2_xc : V5 m ρ c main_v38_0 = T1 m ρ c := in2_xc m ρ c
theorem vin2_xp : V5 m ρ c main_arg0 = A0 m c := in2_xp m ρ c
theorem vin2_sd : V5 m ρ c main_v57 = colT (sdegT (A2 m c) (A1 m c)) := in2_sd m ρ c
theorem vin2_ag : V5 m ρ c main_v51 = aggT (sedgeT (A2 m c) (A1 m c)) (A2 m c) (A3 m c) (T1 m ρ c) := in2_ag m ρ c
theorem vin2_wm : V5 m ρ c main_v55 = wT2 (A4 m c) := in2_wm m ρ c
theorem vin2_bv : V5 m ρ c main_v56 = bT2 (A5 m c) := in2_bv m ρ c
theorem vin2_op : V5 m ρ c main_v38_1 = O1 m ρ c := in2_op m ρ c

theorem vin3_xc : V7 m ρ c main_v58_0 = T2 m ρ c := in3_xc m ρ c
theorem vin3_xp : V7 m ρ c main_v38_0 = T1 m ρ c := in3_xp m ρ c
theorem vin3_sd : V7 m ρ c main_v77 = colT (sdegT (A2 m c) (A1 m c)) := in3_sd m ρ c
theorem vin3_ag : V7 m ρ c main_v71 = aggT (sedgeT (A2 m c) (A1 m c)) (A2 m c) (A3 m c) (T2 m ρ c) := in3_ag m ρ c
theorem vin3_wm : V7 m ρ c main_v75 = wT3 (A4 m c) := in3_wm m ρ c
theorem vin3_bv : V7 m ρ c main_v76 = bT3 (A5 m c) := in3_bv m ρ c
theorem vin3_op : V7 m ρ c main_v58_1 = O2 m ρ c := in3_op m ρ c

theorem vin4_xc : V9 m ρ c main_v78_0 = T3 m ρ c := in4_xc m ρ c
theorem vin4_xp : V9 m ρ c main_v58_0 = T2 m ρ c := in4_xp m ρ c
theorem vin4_sd : V9 m ρ c main_v97 = colT (sdegT (A2 m c) (A1 m c)) := in4_sd m ρ c
theorem vin4_ag : V9 m ρ c main_v91 = aggT (sedgeT (A2 m c) (A1 m c)) (A2 m c) (A3 m c) (T3 m ρ c) := in4_ag m ρ c
theorem vin4_wm : V9 m ρ c main_v95 = wT4 (A4 m c) := in4_wm m ρ c
theorem vin4_bv : V9 m ρ c main_v96 = bT4 (A5 m c) := in4_bv m ρ c
theorem vin4_op : V9 m ρ c main_v78_1 = O3 m ρ c := in4_op m ρ c

theorem vin5_xc : V11 m ρ c main_v98_0 = T4 m ρ c := in5_xc m ρ c
theorem vin5_xp : V11 m ρ c main_v78_0 = T3 m ρ c := in5_xp m ρ c
theorem vin5_sd : V11 m ρ c main_v118 = colT (sdegT (A2 m c) (A1 m c)) := in5_sd m ρ c
theorem vin5_ag : V11 m ρ c main_v111 = aggT (sedgeT (A2 m c) (A1 m c)) (A2 m c) (A3 m c) (T4 m ρ c) := in5_ag m ρ c
theorem vin5_wm : V11 m ρ c main_v116 = wT5 (A4 m c) := in5_wm m ρ c
theorem vin5_bv : V11 m ρ c main_v117 = bT5 (A5 m c) (A6 m c) := in5_bv m ρ c
theorem vin5_op : V11 m ρ c main_v98_1 = O4 m ρ c := in5_op m ρ c

/-! ## Region 0 -/
theorem O0_apply (r : Fin 50000) (q : Fin 128) :
    O0 m ρ c (ix2 r q) = Host.dotGeneral (F := Ideal) (φ₁ := .f32) (φ₂ := .f32) (DotDims.plain 50000 128 128) none (A0 m c) (wT0 (A4 m c)) (ix2 r q) + bT0 (A5 m c) (ix2 (0 : Fin 1) q) := by
  refine (congrFun (W2_arr m ρ c 3) (ix2 r q)).trans ((out0_apply (V1 m ρ) c r q).trans ?_)
  rw [vin0_0, vin0_1, vin0_2]

/-! ## Region 1 -/
theorem T1_apply (r : Fin 50000) (q : Fin 128) :
    T1 m ρ c (ix2 r q) = colT (sdegT (A2 m c) (A1 m c)) (ix2 r (0 : Fin 1)) * A0 m c (ix2 r q) - aggT (sedgeT (A2 m c) (A1 m c)) (A2 m c) (A3 m c) (A0 m c) (ix2 r q) := by
  refine (congrFun (W4_arr m ρ c 6) (ix2 r q)).trans ?_
  exact txn1_apply (V3 m ρ) c _ _ _ (vin1_sd m ρ c) (vin1_xc m ρ c) (vin1_ag m ρ c) r q

theorem O1_apply (r : Fin 50000) (q : Fin 128) :
    O1 m ρ c (ix2 r q) = (O0 m ρ c (ix2 r q) + Host.dotGeneral (F := Ideal) (φ₁ := .f32) (φ₂ := .f32) (DotDims.plain 50000 128 128) none (T1 m ρ c) (wT1 (A4 m c)) (ix2 r q)) + bT1 (A5 m c) (ix2 (0 : Fin 1) q) := by
  refine (congrFun (W4_arr m ρ c 7) (ix2 r q)).trans ?_
  have h := out1_apply (V3 m ρ) c _ _ _ (vin1_op m ρ c) (vin1_wm m ρ c) (vin1_bv m ρ c) r q
  rw [← W4_arr m ρ c 6] at h
  exact h

/-! ## Region 2 -/
theorem T2_eq : T2 m ρ c = txnFn_R2 (colT (sdegT (A2 m c) (A1 m c))) (T1 m ρ c) (aggT (sedgeT (A2 m c) (A1 m c)) (A2 m c) (A3 m c) (T1 m ρ c)) (A0 m c) := by
  refine (W6_arr m ρ c 7).trans ((final7_R2 (V5 m ρ) c).trans ?_)
  rw [vin2_sd, vin2_xc, vin2_ag, vin2_xp]

theorem O2_eq : O2 m ρ c = outFn_R2 (O1 m ρ c) (T2 m ρ c) (wT2 (A4 m c)) (bT2 (A5 m c)) := by
  refine (W6_arr m ρ c 8).trans ((final8_R2 (V5 m ρ) c).trans ?_)
  rw [vin2_sd, vin2_xc, vin2_ag, vin2_xp, vin2_op, vin2_wm, vin2_bv, ← T2_eq]

theorem T2_apply (r : Fin 50000) (q : Fin 128) :
    T2 m ρ c (ix2 r q) = Ideal.ofBits .f32 0x40000000#32 * (colT (sdegT (A2 m c) (A1 m c)) (ix2 r (0 : Fin 1)) * T1 m ρ c (ix2 r q) - aggT (sedgeT (A2 m c) (A1 m c)) (A2 m c) (A3 m c) (T1 m ρ c) (ix2 r q)) - A0 m c (ix2 r q) := by
  rw [T2_eq]; exact txnFn_apply_R2 _ _ _ _ r q

theorem O2_apply (r : Fin 50000) (q : Fin 128) :
    O2 m ρ c (ix2 r q) = (O1 m ρ c (ix2 r q) + Host.dotGeneral (F := Ideal) (φ₁ := .f32) (φ₂ := .f32) (DotDims.plain 50000 128 128) none (T2 m ρ c) (wT2 (A4 m c)) (ix2 r q)) + bT2 (A5 m c) (ix2 (0 : Fin 1) q) := by
  rw [O2_eq]; exact outFn_apply_R2 _ _ _ _ r q

/-! ## Region 3 -/
theorem T3_eq : T3 m ρ c = txnFn_R3 (colT (sdegT (A2 m c) (A1 m c))) (T2 m ρ c) (aggT (sedgeT (A2 m c) (A1 m c)) (A2 m c) (A3 m c) (T2 m ρ c)) (T1 m ρ c) := by
  refine (W8_arr m ρ c 7).trans ((final7_R3 (V7 m ρ) c).trans ?_)
  rw [vin3_sd, vin3_xc, vin3_ag, vin3_xp]

theorem O3_eq : O3 m ρ c = outFn_R3 (O2 m ρ c) (T3 m ρ c) (wT3 (A4 m c)) (bT3 (A5 m c)) := by
  refine (W8_arr m ρ c 8).trans ((final8_R3 (V7 m ρ) c).trans ?_)
  rw [vin3_sd, vin3_xc, vin3_ag, vin3_xp, vin3_op, vin3_wm, vin3_bv, ← T3_eq]

theorem T3_apply (r : Fin 50000) (q : Fin 128) :
    T3 m ρ c (ix2 r q) = Ideal.ofBits .f32 0x40000000#32 * (colT (sdegT (A2 m c) (A1 m c)) (ix2 r (0 : Fin 1)) * T2 m ρ c (ix2 r q) - aggT (sedgeT (A2 m c) (A1 m c)) (A2 m c) (A3 m c) (T2 m ρ c) (ix2 r q)) - T1 m ρ c (ix2 r q) := by
  rw [T3_eq]; exact txnFn_apply_R3 _ _ _ _ r q

theorem O3_apply (r : Fin 50000) (q : Fin 128) :
    O3 m ρ c (ix2 r q) = (O2 m ρ c (ix2 r q) + Host.dotGeneral (F := Ideal) (φ₁ := .f32) (φ₂ := .f32) (DotDims.plain 50000 128 128) none (T3 m ρ c) (wT3 (A4 m c)) (ix2 r q)) + bT3 (A5 m c) (ix2 (0 : Fin 1) q) := by
  rw [O3_eq]; exact outFn_apply_R3 _ _ _ _ r q

/-! ## Region 4 -/
theorem T4_eq : T4 m ρ c = txnFn_R4 (colT (sdegT (A2 m c) (A1 m c))) (T3 m ρ c) (aggT (sedgeT (A2 m c) (A1 m c)) (A2 m c) (A3 m c) (T3 m ρ c)) (T2 m ρ c) := by
  refine (W10_arr m ρ c 7).trans ((final7_R4 (V9 m ρ) c).trans ?_)
  rw [vin4_sd, vin4_xc, vin4_ag, vin4_xp]

theorem O4_eq : O4 m ρ c = outFn_R4 (O3 m ρ c) (T4 m ρ c) (wT4 (A4 m c)) (bT4 (A5 m c)) := by
  refine (W10_arr m ρ c 8).trans ((final8_R4 (V9 m ρ) c).trans ?_)
  rw [vin4_sd, vin4_xc, vin4_ag, vin4_xp, vin4_op, vin4_wm, vin4_bv, ← T4_eq]

theorem T4_apply (r : Fin 50000) (q : Fin 128) :
    T4 m ρ c (ix2 r q) = Ideal.ofBits .f32 0x40000000#32 * (colT (sdegT (A2 m c) (A1 m c)) (ix2 r (0 : Fin 1)) * T3 m ρ c (ix2 r q) - aggT (sedgeT (A2 m c) (A1 m c)) (A2 m c) (A3 m c) (T3 m ρ c) (ix2 r q)) - T2 m ρ c (ix2 r q) := by
  rw [T4_eq]; exact txnFn_apply_R4 _ _ _ _ r q

theorem O4_apply (r : Fin 50000) (q : Fin 128) :
    O4 m ρ c (ix2 r q) = (O3 m ρ c (ix2 r q) + Host.dotGeneral (F := Ideal) (φ₁ := .f32) (φ₂ := .f32) (DotDims.plain 50000 128 128) none (T4 m ρ c) (wT4 (A4 m c)) (ix2 r q)) + bT4 (A5 m c) (ix2 (0 : Fin 1) q) := by
  rw [O4_eq]; exact outFn_apply_R4 _ _ _ _ r q

/-! ## Region 5 -/
theorem T5_eq : T5 m ρ c = txnFn_R5 (colT (sdegT (A2 m c) (A1 m c))) (T4 m ρ c) (aggT (sedgeT (A2 m c) (A1 m c)) (A2 m c) (A3 m c) (T4 m ρ c)) (T3 m ρ c) := by
  refine (W12_arr m ρ c 7).trans ((final7_R5 (V11 m ρ) c).trans ?_)
  rw [vin5_sd, vin5_xc, vin5_ag, vin5_xp]

theorem O5_eq : O5 m ρ c = outFn_R5 (O4 m ρ c) (T5 m ρ c) (wT5 (A4 m c)) (bT5 (A5 m c) (A6 m c)) := by
  refine (W12_arr m ρ c 8).trans ((final8_R5 (V11 m ρ) c).trans ?_)
  rw [vin5_sd, vin5_xc, vin5_ag, vin5_xp, vin5_op, vin5_wm, vin5_bv, ← T5_eq]

theorem T5_apply (r : Fin 50000) (q : Fin 128) :
    T5 m ρ c (ix2 r q) = Ideal.ofBits .f32 0x40000000#32 * (colT (sdegT (A2 m c) (A1 m c)) (ix2 r (0 : Fin 1)) * T4 m ρ c (ix2 r q) - aggT (sedgeT (A2 m c) (A1 m c)) (A2 m c) (A3 m c) (T4 m ρ c) (ix2 r q)) - T3 m ρ c (ix2 r q) := by
  rw [T5_eq]; exact txnFn_apply_R5 _ _ _ _ r q

theorem O5_apply (r : Fin 50000) (q : Fin 128) :
    O5 m ρ c (ix2 r q) = (O4 m ρ c (ix2 r q) + Host.dotGeneral (F := Ideal) (φ₁ := .f32) (φ₂ := .f32) (DotDims.plain 50000 128 128) none (T5 m ρ c) (wT5 (A4 m c)) (ix2 r q)) + bT5 (A5 m c) (A6 m c) (ix2 (0 : Fin 1) q) := by
  rw [O5_eq]; exact outFn_apply_R5 _ _ _ _ r q

end Cert.KernelIdeal.Chain

end
-- ==== Proof.LibRowGather.lean ====
/-
  Rows of a matrix taken and added by an index column, read at an entry.

  `x[idx]` of a matrix `x : [N, C]` at an integer column `idx : [R, 1]` lowers to a gather with offset axis 1, collapsed
  slice axis 0, start index map `[0]`, index vector axis 1 and slice sizes `[1, C]`: result entry `(e, f)` is `x` at row
  `idx[e, 0]`, read as a signed integer and clamped into `[0, N − 1]`, column `f` (`rowGather_apply`); for a vector
  `x : [N]` the same with no offset axis (`vecGather_apply`). The accumulating scatter with update window axis 1,
  inserted window axis 0, scatter-dims-to-operand-dims `[0]` and index vector axis 1 adds update row `e` onto row
  `idx[e, 0]`, read signed and NOT clamped, of an `[N, C]` operand, and drops it when that row is outside: an update
  entry `(e, f)` lands on operand entry `i` only if `idx[e, 0]` is the row of `i` (`rowScatter_row_of_hit`).
-/
import Idealize.ShloMosaic.Lib.ValueIdx

noncomputable section

namespace Cert.Lib.Rows

open Idealize.ShloMosaic Idealize.ShloMosaic.ValueIdx

section Gather
variable {α : Type}

/-- The dimension numbers of taking rows of an `[N, C]` matrix at an index column `[R, 1]`. -/
abbrev rowGatherDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def clampRow {w : Nat} (N : Nat) (hN : 0 < N) (v : BitVec w) : Fin N := ⟨min v.toInt.toNat (N - 1), by omega⟩

/-- Rows taken from a matrix, at entry `(e, f)`: the matrix at the clamped row `idx[e, 0]`, column `f`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowGatherDims N R C wf) x idx (ix2 e f) = x (ix2 (clampRow N hN (idx (ix2 e 0))) f) := by
  unfold Host.gather
  congr 1
  funext a
  refine Fin.ext ?_
  match a with
  | ⟨0, _⟩ =>
    show (rowGatherDims N R C wf).start (ix2 e f) idx 0 + (rowGatherDims N R C wf).batchCoord (ix2 e f) 0
      + (rowGatherDims N R C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e f) ⟨List.idxOf (0 : Fin 2) (rowGatherDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N R C wf).start (ix2 e f) idx 1 + (rowGatherDims N R C wf).batchCoord (ix2 e f) 1
      + (rowGatherDims N R C wf).offCoord (ix2 e f) 1 = _
    rw [GatherDims.batchCoord_eq_zero _ _ _ List.not_mem_nil]
    unfold GatherDims.start
    rw [dif_neg (show ¬ (1 : Fin 2) ∈ ([0] : List (Fin 2)) by decide)]
    simp only [Nat.add_zero, Nat.zero_add]
    rfl

/-- The dimension numbers of taking entries of a vector `[N]` at an index column `[R, 1]`. -/
abbrev vecGatherDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries taken from a vector, at `e`: the vector at the clamped `idx[e, 0]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (clampRow N hN (idx (ix2 e 0)))) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

section Scatter

/-- The dimension numbers of adding update rows `[R, C]` onto the rows of an `[N, C]` operand that an index column
    `[R, 1]` names. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update entry `(e, f)` that lands on operand entry `i` has its start index `idx[e, 0]`, read signed, equal to
    the row of `i`. -/
theorem rowScatter_row_of_hit {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowScatterDims N R C wf).resultIdx? j idx = some i) :
    (idx (ix2 (j 0) 0)).toInt = ((i 0).val : Int) := by
  unfold ScatterDims.resultIdx? at h
  split at h
  · rename_i hall
    have h0 := congrArg (fun k : (⟨2, ![N, C]⟩ : Shape).Idx => (k 0).val) (Option.some.inj h)
    have hpos := (hall 0).1
    have hst : (rowScatterDims N R C wf).start j idx 0 = (idx (ix2 (j 0) 0)).toInt := by
      unfold ScatterDims.start
      rw [dif_pos (show (0 : Fin 2) ∈ (rowScatterDims N R C wf).scatterDimsToOperandDims from List.mem_singleton.mpr rfl)]
      have hsi : (rowScatterDims N R C wf).siIdx j ⟨List.idxOf (0 : Fin 2) (rowScatterDims N R C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      exact congrArg (fun k => (idx k).toInt) hsi
    have hw : (rowScatterDims N R C wf).window j 0 = 0 := by
      unfold ScatterDims.window
      rw [dif_neg (show ¬ (0 : Fin 2) ∈ (rowScatterDims N R C wf).sKept by simp [ScatterDims.sKept, Shape.kept])]
    simp only [hst, hw] at h0 hpos
    omega
  · exact absurd h (by simp)

end Scatter

end Cert.Lib.Rows

end
-- ==== Proof.LibEdgeAggregate.lean ====
/-
  A graph aggregation read at an entry: `agg[i, k] = Σ over edges e with dst[e] = i of x[src[e], k]`, on the extended
  reals.

  The aggregation is computed as rows of `x : [N, C]` taken at the edges' source column, then added onto the rows of a
  zero `[N, C]` array that the edges' destination column names. An accumulating row scatter of updates `[R, C]` at an
  index column `[R, 1]` lands update entry `(e, f)` on operand entry `(i, k)` exactly when `idx[e, 0]`, read signed, is
  `i` and `f = k` (`rowScatter_resultIdx_iff`); so its value at `(i, k)` is the operand there plus the sum over the update
  rows `e` of `upd[e, k]` where `idx[e, 0] = i` and `0` elsewhere (`rowScatterAdd_apply`).

  With 32-bit source and destination vectors `src, dst : [E]`, a negative source wrapped once by a constant `cN`
  (`wrapIdx`) and then clamped by the gather (`srcRow`), edge `e` adds `edge … i k e` to entry `(i, k)`: `x[srcRow e, k]`
  when `dst[e] = i`, else `0`. The aggregation over ALL edges at once is `0 + Σ_{e < E} edge e` (`whole_apply`); the
  aggregation over the `n` edges `o … o + n − 1`, their indices taken by a slice and the rows taken from a narrower-format
  copy of the matrix that is then widened (the identity on the extended reals), is `0 + Σ_{e < n} edge (o + e)` of the SAME
  per-edge function (`chunk_apply`), so that consecutive chunks add up to the whole.
-/
import Idealize.ShloMosaic.Lib.ValueIdx
import Idealize.ShloMosaic.Lib.Pipeline.Value
import Idealize.ShloMosaic.PureOps.Ideal.Laws
import proofs.«158343_j26250840113269_2_alg».proof.Proof.LibRowGather

noncomputable section

open scoped BigOperators

namespace Cert.Lib.EdgeAggregate

open Idealize.ShloMosaic Idealize.ShloMosaic.ValueIdx Cert.Lib.Rows

section Scatter

variable {N R C w : Nat} (wf : ScatterDims.WF ⟨2, ![N, C]⟩ ⟨2, ![R, 1]⟩ ⟨2, ![R, C]⟩ [1] [0] [0] 1)

/-- The window of update entry `(e, f)` starts, on the row axis, at `idx[e, 0]` read signed. -/
theorem rowScatter_start0 (idx : IVec ⟨2, ![R, 1]⟩ w) (j : (⟨2, ![R, C]⟩ : Shape).Idx) :
    (rowScatterDims N R C wf).start j idx 0 = (idx (ix2 (j 0) 0)).toInt := by
  unfold ScatterDims.start
  rw [dif_pos (show (0 : Fin 2) ∈ (rowScatterDims N R C wf).scatterDimsToOperandDims from List.mem_singleton.mpr rfl)]
  have hsi : (rowScatterDims N R C wf).siIdx j ⟨List.idxOf (0 : Fin 2) (rowScatterDims N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun k => (idx k).toInt) hsi

/-- … and, on the column axis, at `0`. -/
theorem rowScatter_start1 (idx : IVec ⟨2, ![R, 1]⟩ w) (j : (⟨2, ![R, C]⟩ : Shape).Idx) :
    (rowScatterDims N R C wf).start j idx 1 = 0 := by
  unfold ScatterDims.start
  rw [dif_neg (show ¬ (1 : Fin 2) ∈ ([0] : List (Fin 2)) by decide)]

/-- The window coordinate of an update entry on the row axis is `0` (the axis is inserted). -/
theorem rowScatter_window0 (j : (⟨2, ![R, C]⟩ : Shape).Idx) : (rowScatterDims N R C wf).window j 0 = 0 := by
  unfold ScatterDims.window
  rw [dif_neg (show ¬ (0 : Fin 2) ∈ (rowScatterDims N R C wf).sKept by simp [ScatterDims.sKept, Shape.kept])]

/-- The window coordinate of update entry `(e, f)` on the column axis is `f`. -/
theorem rowScatter_window1 (j : (⟨2, ![R, C]⟩ : Shape).Idx) : (rowScatterDims N R C wf).window j 1 = (j 1).val := by
  unfold ScatterDims.window
  have hk : (rowScatterDims N R C wf).sKept = [1] := rfl
  rw [dif_pos (show (1 : Fin 2) ∈ (rowScatterDims N R C wf).sKept by rw [hk]; exact List.mem_singleton.mpr rfl)]
  rfl

/-- Update entry `(e, f)` lands on operand entry `(i, k)` exactly when `idx[e, 0]`, read signed, is `i`, and `f = k`. -/
theorem rowScatter_resultIdx_iff (idx : IVec ⟨2, ![R, 1]⟩ w) (e : Fin R) (f : Fin C) (i : Fin N) (k : Fin C) :
    (rowScatterDims N R C wf).resultIdx? (ix2 e f) idx = some (ix2 i k)
      ↔ (idx (ix2 e 0)).toInt = (i.val : Int) ∧ f = k := by
  have hs0 := rowScatter_start0 wf idx (ix2 e f)
  have hs1 := rowScatter_start1 wf idx (ix2 e f)
  have hw0 := rowScatter_window0 wf (ix2 e f)
  have hw1 := rowScatter_window1 wf (ix2 e f)
  have he0 : (ix2 e f : (⟨2, ![R, C]⟩ : Shape).Idx) 0 = e := rfl
  have he1 : (ix2 e f : (⟨2, ![R, C]⟩ : Shape).Idx) 1 = f := rfl
  rw [he0] at hs0
  rw [he1] at hw1
  constructor
  · intro h
    unfold ScatterDims.resultIdx? at h
    split at h
    · rename_i hall
      have h0 := congrArg (fun q : (⟨2, ![N, C]⟩ : Shape).Idx => (q 0).val) (Option.some.inj h)
      have h1 := congrArg (fun q : (⟨2, ![N, C]⟩ : Shape).Idx => (q 1).val) (Option.some.inj h)
      have hpos := (hall 0).1
      simp only [hs0, hw0] at h0 hpos
      simp only [hs1, hw1] at h1
      refine ⟨?_, Fin.ext ?_⟩
      · have : ((ix2 i k : (⟨2, ![N, C]⟩ : Shape).Idx) 0).val = i.val := rfl
        omega
      · have : ((ix2 i k : (⟨2, ![N, C]⟩ : Shape).Idx) 1).val = k.val := rfl
        omega
    · exact absurd h (by simp)
  · rintro ⟨hi, rfl⟩
    unfold ScatterDims.resultIdx?
    have hall : ∀ a, 0 ≤ (rowScatterDims N R C wf).start (ix2 e f) idx a + (rowScatterDims N R C wf).window (ix2 e f) a ∧
        (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx 0 + (rowScatterDims N R C wf).window (ix2 e f) 0 ∧
          (rowScatterDims N R C wf).start (ix2 e f) idx 0 + (rowScatterDims N R C wf).window (ix2 e f) 0 < (N : Int)
        rw [hs0, hw0, hi]
        have := i.isLt
        omega
      | ⟨1, _⟩ =>
        show 0 ≤ (rowScatterDims N R C wf).start (ix2 e f) idx 1 + (rowScatterDims N R C wf).window (ix2 e f) 1 ∧
          (rowScatterDims N R C wf).start (ix2 e f) idx 1 + (rowScatterDims N R C wf).window (ix2 e f) 1 < (C : Int)
        rw [hs1, hw1]
        have := f.isLt
        omega
    rw [dif_pos hall]
    congr 1
    funext a
    refine Fin.ext ?_
    match a with
    | ⟨0, _⟩ =>
      show ((rowScatterDims N R C wf).start (ix2 e f) idx 0 + (rowScatterDims N R C wf).window (ix2 e f) 0).toNat = i.val
      rw [hs0, hw0, hi]
      omega
    | ⟨1, _⟩ =>
      show ((rowScatterDims N R C wf).start (ix2 e f) idx 1 + (rowScatterDims N R C wf).window (ix2 e f) 1).toNat = f.val
      rw [hs1, hw1]
      omega

/-- THE ACCUMULATING ROW SCATTER READ AT `(i, k)`: the operand there plus, over the update rows `e`, `upd[e, k]` where
    `idx[e, 0]` read signed is `i`, and `0` where it is not (a row outside the operand is dropped). -/
theorem rowScatterAdd_apply {φ : FTy} (x : FVec Ideal ⟨2, ![N, C]⟩ φ) (idx : IVec ⟨2, ![R, 1]⟩ w)
    (upd : FVec Ideal ⟨2, ![R, C]⟩ φ) (i : Fin N) (k : Fin C) :
    Host.scatterAdd (rowScatterDims N R C wf) x idx upd (ix2 i k)
      = x (ix2 i k) + ∑ e : Fin R, if (idx (ix2 e 0)).toInt = (i.val : Int) then upd (ix2 e k) else 0 := by
  show Ideal.hostScatterAdd (rowScatterDims N R C wf) x idx upd (ix2 i k) = _
  unfold Ideal.hostScatterAdd
  congr 1
  rw [Finset.sum_filter, sum_idx2]
  refine Finset.sum_congr rfl fun e _ => ?_
  by_cases he : (idx (ix2 e 0)).toInt = (i.val : Int)
  · rw [if_pos he]
    have : ∀ f : Fin C, (if (rowScatterDims N R C wf).resultIdx? (ix2 e f) idx = some (ix2 i k) then upd (ix2 e f) else 0)
        = if f = k then upd (ix2 e f) else 0 := by
      intro f
      by_cases hf : f = k
      · rw [if_pos hf, if_pos ((rowScatter_resultIdx_iff wf idx e f i k).mpr ⟨he, hf⟩)]
      · rw [if_neg hf, if_neg (fun h => hf ((rowScatter_resultIdx_iff wf idx e f i k).mp h).2)]
    rw [Finset.sum_congr rfl fun f _ => this f]
    simp
  · rw [if_neg he]
    refine Finset.sum_eq_zero fun f _ => ?_
    rw [if_neg (fun h => he ((rowScatter_resultIdx_iff wf idx e f i k).mp h).1)]

end Scatter

/-! ## The aggregation at an entry, as a sum over edges of one per-edge function -/

section Edges

variable {N E C : Nat}

/-- An edge's source index with a negative value wrapped once by `cN`: `v + cN` if `v < 0` (signed), else `v`. -/
def wrapIdx (cN v : BitVec 32) : BitVec 32 := Scalar.select (IntOp.cmpi .slt v 0#32) (IntOp.addi v cN) v

/-- The row of `x` an edge's source index names: wrapped, then clamped into `[0, N − 1]`. -/
def srcRow (N : Nat) (hN : 0 < N) (cN v : BitVec 32) : Fin N := clampRow N hN (wrapIdx cN v)

/-- What edge `e` adds to entry `(i, k)` of the aggregation: `x` at the edge's source row, column `k`, when the edge's
    destination (read signed) is `i`; `0` otherwise. -/
def edge (hN : 0 < N) (cN : BitVec 32) (x : (⟨2, ![N, C]⟩ : Shape).Idx → EReal) (src dst : IVec ⟨1, ![E]⟩ 32)
    (i : Fin N) (k : Fin C) (e : Fin E) : EReal :=
  if (dst (ix1 e)).toInt = (i.val : Int) then x (ix2 (srcRow N hN cN (src (ix1 e))) k) else 0

/-- A vector `[R]` broadcast to a column `[R, 1]`, read at `(e, 0)`: the vector at `e`. -/
theorem col_apply {α : Type} {R : Nat} (hc : (⟨1, ![R]⟩ : Shape).BroadcastsInDim ⟨2, ![R, 1]⟩ ![0])
    (v : (⟨1, ![R]⟩ : Shape).Idx → α) (e : Fin R) (z : Fin 1) :
    broadcastInDim ⟨2, ![R, 1]⟩ ![0] hc v (ix2 e z) = v (ix1 e) := by
  refine broadcastInDim_apply _ hc v _ (ix1 e) fun a => ?_
  match a with
  | ⟨0, _⟩ =>
    show e.val = if R = 1 then 0 else e.val
    split
    · have := e.isLt; omega
    · rfl

/-- The wrapped source indices as the program computes them (compare with a broadcast `0`, add a broadcast `cN`,
    select), read at `e`. -/
theorem wrap_apply {R : Nat} (h0 : (⟨0, ![]⟩ : Shape).BroadcastsInDim ⟨1, ![R]⟩ ![]) (cN : BitVec 32)
    (s : IVec ⟨1, ![R]⟩ 32) (e : Fin R) :
    select (cmpi .slt s (broadcastInDim ⟨1, ![R]⟩ ![] h0 (constantI ⟨0, ![]⟩ 32 0#32)))
      (addi s (broadcastInDim ⟨1, ![R]⟩ ![] h0 (constantI ⟨0, ![]⟩ 32 cN))) s (ix1 e) = wrapIdx cN (s (ix1 e)) := rfl

/-- The zero `[N, C]` array the scatter accumulates into, at an entry: the extended real `0`. -/
theorem zeros_apply (hz : (⟨0, ![]⟩ : Shape).BroadcastsInDim ⟨2, ![N, C]⟩ ![]) (j : (⟨2, ![N, C]⟩ : Shape).Idx) :
    broadcastInDim ⟨2, ![N, C]⟩ ![] hz (constant (F := Ideal) ⟨0, ![]⟩ .f32 0x00000000#32) j = 0 :=
  Ideal.ofBits_zero_f32

/-- THE WHOLE FORM: rows of `x` taken at all `E` edges' wrapped sources and added onto zeros at their destinations, read
    at `(i, k)`, is `0` plus the sum over the edges of `edge`. -/
theorem whole_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (hz : (⟨0, ![]⟩ : Shape).BroadcastsInDim ⟨2, ![N, C]⟩ ![])
    (x : FVec Ideal ⟨2, ![N, C]⟩ .f32) (src dst : IVec ⟨1, ![E]⟩ 32) (i : Fin N) (k : Fin C) :
    Host.scatterAdd (rowScatterDims N E C wfS)
        (broadcastInDim ⟨2, ![N, C]⟩ ![] hz (constant (F := Ideal) ⟨0, ![]⟩ .f32 0x00000000#32))
        (broadcastInDim ⟨2, ![E, 1]⟩ ![0] hc dst)
        (Host.gather (rowGatherDims N E C wfG) x
          (broadcastInDim ⟨2, ![E, 1]⟩ ![0] hc
            (select (cmpi .slt src (broadcastInDim ⟨1, ![E]⟩ ![] h0 (constantI ⟨0, ![]⟩ 32 0#32)))
              (addi src (broadcastInDim ⟨1, ![E]⟩ ![] h0 (constantI ⟨0, ![]⟩ 32 cN))) src)))
        (ix2 i k)
      = 0 + ∑ e : Fin E, edge hN cN x src dst i k e := by
  rw [rowScatterAdd_apply, zeros_apply]
  congr 1
  refine Finset.sum_congr rfl fun e _ => ?_
  rw [col_apply, rowGather_apply hN, col_apply, wrap_apply]
  rfl

/-- THE CHUNK FORM: the same for the `n` edges `o, …, o + n − 1`, their sources and destinations taken by a slice, the rows
    taken from a narrower-format copy of the matrix and widened: `0` plus the sum over the chunk's edges of the SAME
    `edge`, at edge `o + e`. -/
theorem chunk_apply {n o : Nat} (hN : 0 < N) (cN : BitVec 32)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (h0 : (⟨0, ![]⟩ : Shape).BroadcastsInDim ⟨1, ![n]⟩ ![])
    (hc : (⟨1, ![n]⟩ : Shape).BroadcastsInDim ⟨2, ![n, 1]⟩ ![0])
    (hz : (⟨0, ![]⟩ : Shape).BroadcastsInDim ⟨2, ![N, C]⟩ ![])
    (hsl : (⟨1, ![E]⟩ : Shape).Slices ![o] ⟨1, ![n]⟩) (ho : o + n ≤ E) (hbits : FTy.bf16.bits < FTy.f32.bits)
    (xb : FVec Ideal ⟨2, ![N, C]⟩ .bf16) (src dst : IVec ⟨1, ![E]⟩ 32) (i : Fin N) (k : Fin C) :
    Host.scatterAdd (rowScatterDims N n C wfS)
        (broadcastInDim ⟨2, ![N, C]⟩ ![] hz (constant (F := Ideal) ⟨0, ![]⟩ .f32 0x00000000#32))
        (broadcastInDim ⟨2, ![n, 1]⟩ ![0] hc (extractStridedSlice ⟨1, ![n]⟩ ![o] dst hsl))
        (extf .f32 (Host.gather (rowGatherDims N n C wfG) xb
          (broadcastInDim ⟨2, ![n, 1]⟩ ![0] hc
            (select (cmpi .slt (extractStridedSlice ⟨1, ![n]⟩ ![o] src hsl)
                (broadcastInDim ⟨1, ![n]⟩ ![] h0 (constantI ⟨0, ![]⟩ 32 0#32)))
              (addi (extractStridedSlice ⟨1, ![n]⟩ ![o] src hsl)
                (broadcastInDim ⟨1, ![n]⟩ ![] h0 (constantI ⟨0, ![]⟩ 32 cN)))
              (extractStridedSlice ⟨1, ![n]⟩ ![o] src hsl)))) hbits)
        (ix2 i k)
      = 0 + ∑ e : Fin n, edge hN cN xb src dst i k ⟨o + e.val, by omega⟩ := by
  rw [rowScatterAdd_apply, zeros_apply]
  congr 1
  refine Finset.sum_congr rfl fun e _ => ?_
  have hsl_apply : ∀ v : IVec ⟨1, ![E]⟩ 32,
      extractStridedSlice ⟨1, ![n]⟩ ![o] v hsl (ix1 e) = v (ix1 ⟨o + e.val, by omega⟩) := fun v =>
    extractStridedSlice_apply _ v hsl (ix1 e) (ix1 ⟨o + e.val, by omega⟩) fun a => by
      match a with
      | ⟨0, _⟩ => rfl
  rw [col_apply, extf_apply, rowGather_apply hN, col_apply, wrap_apply, hsl_apply, hsl_apply]
  rfl

end Edges

end Cert.Lib.EdgeAggregate

end
-- ==== Proof.LibEdgeIndex.lean ====
/-
  A row gather and a row scatter of StableHLO, read at coordinates.

  For an operand of N rows (of C columns, or of scalars) and a column of E integer start indices, the gather's
  result row e is the operand's row at the e-th start index, read as a signed integer and clamped into [0, N − 1];
  and the e-th update row of a scatter lands on operand row n exactly when the e-th index, read as a signed
  integer, IS n (no clamp: an index outside [0, N − 1] drops the update), column for column.
  Joined: an index that reads n with 0 ≤ n < N is left alone by the wrap of negative indices (add N below zero) and by
  the gather's clamp, so the gather through both reads row n. And the updates that land on one operand element are
  one per update row whose index reads that element's row, so a sum over them is a sum over those rows.
-/
import Idealize.ShloMosaic.Lib.ValueIdx
import Idealize.ShloMosaic.PureOps.Ideal

open scoped BigOperators

namespace Cert.Lib.EdgeIndex

open Idealize.ShloMosaic Idealize.ShloMosaic.ValueIdx

/-! ## The gather -/

section Gather
variable {α : Type}

/-- The dimension numbers of a gather of whole rows: operand [N, C], start indices [E, 1] (one row number each),
    result [E, C]. -/
abbrev gatherRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of scalars: operand [N], start indices [E, 1], result [E]. -/
abbrev gatherElts (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- On the row axis the operand index of result element (e, c) is the e-th start index, read signed and clamped
    into [0, N − 1]: no batching axis, and the row axis is collapsed, so it carries no offset. -/
theorem gatherRows_operandIdx_row {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 0).val
      = min (idx (ix2 (y 0) ⟨0, Nat.one_pos⟩)).toInt.toNat (N - 1) := by
  show (gatherRows N E C wf).start y idx 0 + (gatherRows N E C wf).batchCoord y 0 + (gatherRows N E C wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N E C wf).startIndexMap from List.mem_singleton.mpr rfl)]
  have hsi : (gatherRows N E C wf).siIdx y ⟨List.idxOf (0 : Fin 2) (gatherRows N E C wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

/-- On the column axis the operand index of result element (e, c) is c: the start index does not name that axis,
    and the whole row is the slice, so the offset is the result's column. -/
theorem gatherRows_operandIdx_col {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((gatherRows N E C wf).operandIdx y idx 1).val = (y 1).val := by
  show (gatherRows N E C wf).start y idx 1 + (gatherRows N E C wf).batchCoord y 1 + (gatherRows N E C wf).offCoord y 1 = _
  rw [GatherDims.batchCoord_eq_zero _ _ _ List.not_mem_nil]
  have h10 : (1 : Fin 2) ∉ ([0] : List (Fin 2)) := by decide
  have hs : (gatherRows N E C wf).start y idx 1 = 0 := by
    unfold GatherDims.start
    rw [dif_neg (show (1 : Fin 2) ∉ (gatherRows N E C wf).startIndexMap from h10)]
  rw [hs]
  simp only [Nat.add_zero, Nat.zero_add]
  unfold GatherDims.offCoord
  rw [dif_pos (show (1 : Fin 2) ∈ (gatherRows N E C wf).sKept from
    (GatherDims.mem_sKept _ _).mpr ⟨h10, List.not_mem_nil⟩)]
  rfl

/-- THE ROW GATHER READ AT (e, c): the operand's element in column c of the row whose number is the e-th start
    index, read signed and clamped into [0, N − 1]. -/
theorem gatherRows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (gatherRows N E C wf) x idx y
      = x (ix2 ⟨min (idx (ix2 (y 0) ⟨0, Nat.one_pos⟩)).toInt.toNat (N - 1), by omega⟩ (y 1)) := by
  unfold Host.gather
  congr 1
  funext a
  refine Fin.ext ?_
  match a with
  | ⟨0, _⟩ => exact gatherRows_operandIdx_row wf idx y
  | ⟨1, _⟩ => exact gatherRows_operandIdx_col wf idx y

/-- THE SCALAR GATHER READ AT e: the operand's element whose number is the e-th start index, read signed and
    clamped into [0, N − 1]. -/
theorem gatherElts_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gatherElts N E wf) x idx y
      = x (ix1 ⟨min (idx (ix2 (y 0) ⟨0, Nat.one_pos⟩)).toInt.toNat (N - 1), by omega⟩) := by
  unfold Host.gather
  congr 1
  funext a
  obtain rfl : a = 0 := Subsingleton.elim _ _
  refine Fin.ext ?_
  show (gatherElts N E wf).start y idx 0 + (gatherElts N E wf).batchCoord y 0 + (gatherElts N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherElts N E wf).startIndexMap from List.mem_singleton.mpr rfl)]
  have hsi : (gatherElts N E wf).siIdx y ⟨List.idxOf (0 : Fin 1) (gatherElts N E wf).startIndexMap,
      List.idxOf_lt_length_iff.2 (List.mem_singleton.mpr rfl)⟩ = ix2 (y 0) ⟨0, Nat.one_pos⟩ := by
    funext b; refine Fin.ext ?_
    match b with
    | ⟨0, _⟩ => rfl
    | ⟨1, _⟩ => rfl
  rw [hsi]
  rfl

end Gather

/-! ## The scatter -/

section Scatter

/-- The dimension numbers of a scatter of whole rows: operand [N, C], scatter indices [E, 1] (one row number each),
    updates [E, C]. -/
abbrev scatterRows (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a scatter of scalars: operand [N], scatter indices [E, 1], updates [E]. -/
abbrev scatterElts (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (j : (⟨2, ![E, C]⟩ : Shape).Idx)

/-- The window of update row e starts, on the row axis, at the e-th scatter index read signed (not clamped). -/
theorem scatterRows_start_row :
    (scatterRows N E C wf).start j idx 0 = (idx (ix2 (j 0) ⟨0, Nat.one_pos⟩)).toInt := by
  unfold ScatterDims.start
  rw [dif_pos (show (0 : Fin 2) ∈ (scatterRows N E C wf).scatterDimsToOperandDims from List.mem_singleton.mpr rfl)]
  have hsi : (scatterRows N E C wf).siIdx j ⟨List.idxOf (0 : Fin 2) (scatterRows N E C wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- On the column axis, which the scatter index does not name, it starts at 0. -/
theorem scatterRows_start_col : (scatterRows N E C wf).start j idx 1 = 0 := by
  have h10 : (1 : Fin 2) ∉ ([0] : List (Fin 2)) := by decide
  unfold ScatterDims.start
  rw [dif_neg (show (1 : Fin 2) ∉ (scatterRows N E C wf).scatterDimsToOperandDims from h10)]

/-- The row axis is inserted: no window coordinate on it. -/
theorem scatterRows_window_row : (scatterRows N E C wf).window j 0 = 0 := by
  unfold ScatterDims.window
  rw [dif_neg (show (0 : Fin 2) ∉ (scatterRows N E C wf).sKept by
    simp [ScatterDims.sKept, Shape.kept, List.mem_filter])]

/-- The window coordinate on the column axis is the update's column. -/
theorem scatterRows_window_col : (scatterRows N E C wf).window j 1 = (j 1).val := by
  have h10 : (1 : Fin 2) ∉ ([0] : List (Fin 2)) := by decide
  unfold ScatterDims.window
  rw [dif_pos (show (1 : Fin 2) ∈ (scatterRows N E C wf).sKept from
    List.mem_filter.mpr ⟨List.mem_finRange _, by simpa using h10⟩)]
  rfl

/-- WHERE A ROW SCATTER'S UPDATE LANDS: update element (e, c) lands on operand element (n, c') exactly when the
    e-th scatter index, read as a signed integer, is n, and c = c'. -/
theorem scatterRows_resultIdx?_eq_some_iff (i : (⟨2, ![N, C]⟩ : Shape).Idx) :
    (scatterRows N E C wf).resultIdx? j idx = some i ↔
      ((idx (ix2 (j 0) ⟨0, Nat.one_pos⟩)).toInt = ((i 0).val : Int) ∧ (j 1).val = (i 1).val) := by
  have e0 : (scatterRows N E C wf).start j idx 0 + (((scatterRows N E C wf).window j 0 : Nat) : Int)
      = (idx (ix2 (j 0) ⟨0, Nat.one_pos⟩)).toInt := by
    rw [scatterRows_start_row, scatterRows_window_row]; simp
  have e1 : (scatterRows N E C wf).start j idx 1 + (((scatterRows N E C wf).window j 1 : Nat) : Int)
      = ((j 1).val : Int) := by
    rw [scatterRows_start_col, scatterRows_window_col]; simp
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hi := Option.some.inj h
      have c0 : ((scatterRows N E C wf).start j idx 0 + (((scatterRows N E C wf).window j 0 : Nat) : Int)).toNat
          = (i 0).val := congrArg Fin.val (congrFun hi 0)
      have c1 : ((scatterRows N E C wf).start j idx 1 + (((scatterRows N E C wf).window j 1 : Nat) : Int)).toNat
          = (i 1).val := congrArg Fin.val (congrFun hi 1)
      have b0 := (hc 0).1
      rw [e0] at c0 b0
      rw [e1] at c1
      constructor <;> omega
    · exact absurd h (by simp)
  · rintro ⟨h0, h1⟩
    have hc : ∀ a, 0 ≤ (scatterRows N E C wf).start j idx a + (((scatterRows N E C wf).window j a : Nat) : Int) ∧
        (scatterRows N E C wf).start j idx a + (((scatterRows N E C wf).window j a : Nat) : Int)
          < (((⟨2, ![N, C]⟩ : Shape).size a : Nat) : Int) := by
      intro a
      match a with
      | ⟨0, _⟩ =>
        show 0 ≤ (scatterRows N E C wf).start j idx 0 + (((scatterRows N E C wf).window j 0 : Nat) : Int) ∧
          (scatterRows N E C wf).start j idx 0 + (((scatterRows N E C wf).window j 0 : Nat) : Int) < (N : Int)
        rw [e0]; omega
      | ⟨1, _⟩ =>
        show 0 ≤ (scatterRows N E C wf).start j idx 1 + (((scatterRows N E C wf).window j 1 : Nat) : Int) ∧
          (scatterRows N E C wf).start j idx 1 + (((scatterRows N E C wf).window j 1 : Nat) : Int) < (C : Int)
        rw [e1]; omega
    rw [dif_pos hc]
    congr 1
    funext a
    refine Fin.ext ?_
    match a with
    | ⟨0, _⟩ =>
      show ((scatterRows N E C wf).start j idx 0 + (((scatterRows N E C wf).window j 0 : Nat) : Int)).toNat = (i 0).val
      rw [e0]; omega
    | ⟨1, _⟩ =>
      show ((scatterRows N E C wf).start j idx 1 + (((scatterRows N E C wf).window j 1 : Nat) : Int)).toNat = (i 1).val
      rw [e1]; omega

end Rows

section Elts
variable {N E w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window of update e starts at the e-th scatter index read signed (not clamped). -/
theorem scatterElts_start :
    (scatterElts N E wf).start j idx 0 = (idx (ix2 (j 0) ⟨0, Nat.one_pos⟩)).toInt := by
  unfold ScatterDims.start
  rw [dif_pos (show (0 : Fin 1) ∈ (scatterElts N E wf).scatterDimsToOperandDims from List.mem_singleton.mpr rfl)]
  have hsi : (scatterElts N E wf).siIdx j ⟨List.idxOf (0 : Fin 1) (scatterElts N E wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- The operand's one axis is inserted: no window coordinate on it. -/
theorem scatterElts_window : (scatterElts N E wf).window j 0 = 0 := by
  unfold ScatterDims.window
  rw [dif_neg (show (0 : Fin 1) ∉ (scatterElts N E wf).sKept by
    simp [ScatterDims.sKept, Shape.kept, List.mem_filter])]

/-- WHERE A SCALAR SCATTER'S UPDATE LANDS: update e lands on operand element n exactly when the e-th scatter
    index, read as a signed integer, is n. -/
theorem scatterElts_resultIdx?_eq_some_iff (i : (⟨1, ![N]⟩ : Shape).Idx) :
    (scatterElts N E wf).resultIdx? j idx = some i ↔
      (idx (ix2 (j 0) ⟨0, Nat.one_pos⟩)).toInt = ((i 0).val : Int) := by
  have e0 : (scatterElts N E wf).start j idx 0 + (((scatterElts N E wf).window j 0 : Nat) : Int)
      = (idx (ix2 (j 0) ⟨0, Nat.one_pos⟩)).toInt := by
    rw [scatterElts_start, scatterElts_window]; simp
  have hi0 : (i 0).val < N := (i 0).isLt
  unfold ScatterDims.resultIdx?
  constructor
  · intro h
    split at h
    · rename_i hc
      have hi := Option.some.inj h
      have c0 : ((scatterElts N E wf).start j idx 0 + (((scatterElts N E wf).window j 0 : Nat) : Int)).toNat
          = (i 0).val := congrArg Fin.val (congrFun hi 0)
      have b0 := (hc 0).1
      rw [e0] at c0 b0
      omega
    · exact absurd h (by simp)
  · intro h0
    have hc : ∀ a, 0 ≤ (scatterElts N E wf).start j idx a + (((scatterElts N E wf).window j a : Nat) : Int) ∧
        (scatterElts N E wf).start j idx a + (((scatterElts N E wf).window j a : Nat) : Int)
          < (((⟨1, ![N]⟩ : Shape).size a : Nat) : Int) := by
      intro a
      obtain rfl : a = 0 := Subsingleton.elim _ _
      show 0 ≤ (scatterElts N E wf).start j idx 0 + (((scatterElts N E wf).window j 0 : Nat) : Int) ∧
        (scatterElts N E wf).start j idx 0 + (((scatterElts N E wf).window j 0 : Nat) : Int) < (N : Int)
      rw [e0]; omega
    rw [dif_pos hc]
    congr 1
    funext a
    obtain rfl : a = 0 := Subsingleton.elim _ _
    refine Fin.ext ?_
    show ((scatterElts N E wf).start j idx 0 + (((scatterElts N E wf).window j 0 : Nat) : Int)).toNat = (i 0).val
    rw [e0]; omega

end Elts

end Scatter

/-! ## An update that lands on row n is, read back through the gather, row n

A scatter lands update e on row n when the e-th index read signed IS n, with 0 ≤ n < N. Read back, the same index
first goes through the wrap of negative indices (add N to an index below zero, leave the others), which leaves it
alone, and then through the gather's clamp into [0, N − 1], which leaves it alone too. -/

section Landed
variable {w : Nat}

/-- A word whose signed value is n < N is not moved by the clamp into [0, N − 1]. -/
theorem clamp_of_toInt_eq (b : BitVec w) {n N : Nat} (h : b.toInt = (n : Int)) (hn : n < N) :
    min b.toInt.toNat (N - 1) = n := by
  rw [h, Int.toNat_natCast]; omega

/-- The wrap of negative indices, as a function of one word: c (the number of rows, as a word) is added to a word
    that reads below zero. -/
def wrapNeg (c b : BitVec w) : BitVec w := if b.toInt < 0 then b + c else b

/-- It leaves a word that reads at least zero alone. -/
theorem wrapNeg_of_nonneg (c b : BitVec w) (hb : 0 ≤ b.toInt) : wrapNeg c b = b := by
  unfold wrapNeg; rw [if_neg (by omega)]

/-- In particular one whose signed value is a natural number. -/
theorem wrapNeg_of_toInt_eq (c b : BitVec w) {n : Nat} (h : b.toInt = (n : Int)) : wrapNeg c b = b :=
  wrapNeg_of_nonneg c b (by omega)

/-- The signed comparison "b < 0" of a word that reads at least zero is the bit 0 … -/
theorem cmpi_slt_zero_of_nonneg (b : BitVec w) (hb : 0 ≤ b.toInt) : IntOp.cmpi .slt b 0#w = 0#1 := by
  have : b.slt 0#w = false := by
    rw [BitVec.slt_eq_decide, BitVec.toInt_zero]; simpa using hb
  simp [IntOp.cmpi, this]

/-- … and of one that reads below zero the bit 1. -/
theorem cmpi_slt_zero_of_neg (b : BitVec w) (hb : b.toInt < 0) : IntOp.cmpi .slt b 0#w = 1#1 := by
  have : b.slt 0#w = true := by
    rw [BitVec.slt_eq_decide, BitVec.toInt_zero]; simpa using hb
  simp [IntOp.cmpi, this]

/-- So the select on that comparison is the wrap: the program's own spelling of it, at one element. -/
theorem select_slt_zero_eq_wrapNeg (c b : BitVec w) :
    Scalar.select (IntOp.cmpi .slt b 0#w) (IntOp.addi b c) b = wrapNeg c b := by
  unfold wrapNeg
  by_cases hb : b.toInt < 0
  · rw [if_pos hb, cmpi_slt_zero_of_neg b hb, select_one]; rfl
  · rw [if_neg hb, cmpi_slt_zero_of_nonneg b (by omega), select_zero]

/-- A select on "b < 0" at a word that reads at least zero is its second operand, whatever the operands are. -/
theorem select_slt_zero_of_nonneg {α : Type} (b : BitVec w) (hb : 0 ≤ b.toInt) (a₁ a₂ : α) :
    Scalar.select (IntOp.cmpi .slt b 0#w) a₁ a₂ = a₂ := by
  rw [cmpi_slt_zero_of_nonneg b hb, select_zero]

variable {α : Type}

/-- THE ROW GATHER AT A START INDEX THAT IS A ROW NUMBER: if the e-th start index reads n < N, result element (e, c)
    is the operand's element (n, c). -/
theorem gatherRows_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx)
    {n : Nat} (hn : n < N) (h : (idx (ix2 (y 0) ⟨0, Nat.one_pos⟩)).toInt = (n : Int)) :
    Host.gather (gatherRows N E C wf) x idx y = x (ix2 ⟨n, hn⟩ (y 1)) := by
  rw [gatherRows_apply (by omega) wf x idx y]
  congr 2
  exact Fin.ext (clamp_of_toInt_eq _ h hn)

/-- The same through the wrap of negative indices applied to every start index first. -/
theorem gatherRows_wrapNeg_apply_of_toInt_eq {N E C : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (c : BitVec w) (y : (⟨2, ![E, C]⟩ : Shape).Idx)
    {n : Nat} (hn : n < N) (h : (idx (ix2 (y 0) ⟨0, Nat.one_pos⟩)).toInt = (n : Int)) :
    Host.gather (gatherRows N E C wf) x (fun k => wrapNeg c (idx k)) y = x (ix2 ⟨n, hn⟩ (y 1)) :=
  gatherRows_apply_of_toInt_eq wf x _ y hn (by rw [wrapNeg_of_toInt_eq c _ h]; exact h)

/-- THE SCALAR GATHER AT A START INDEX THAT IS AN ELEMENT NUMBER. -/
theorem gatherElts_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx)
    {n : Nat} (hn : n < N) (h : (idx (ix2 (y 0) ⟨0, Nat.one_pos⟩)).toInt = (n : Int)) :
    Host.gather (gatherElts N E wf) x idx y = x (ix1 ⟨n, hn⟩) := by
  rw [gatherElts_apply (by omega) wf x idx y]
  congr 2
  exact Fin.ext (clamp_of_toInt_eq _ h hn)

/-- The same through the wrap of negative indices. -/
theorem gatherElts_wrapNeg_apply_of_toInt_eq {N E : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (c : BitVec w) (y : (⟨1, ![E]⟩ : Shape).Idx)
    {n : Nat} (hn : n < N) (h : (idx (ix2 (y 0) ⟨0, Nat.one_pos⟩)).toInt = (n : Int)) :
    Host.gather (gatherElts N E wf) x (fun k => wrapNeg c (idx k)) y = x (ix1 ⟨n, hn⟩) :=
  gatherElts_apply_of_toInt_eq wf x _ y hn (by rw [wrapNeg_of_toInt_eq c _ h]; exact h)

end Landed

/-! ## The updates that land on one operand element, as a set and under a sum

The update elements (e, c') that land on operand element (n, c) are the (e, c) with e among the update rows whose
index reads n: one per such row. So a sum over them is a sum over those rows. -/

section Landing
variable {N E C w : Nat}

/-- Update row e ↦ update element (e, c): injective. -/
def colEmb (E C : Nat) (c : Fin C) : Fin E ↪ (⟨2, ![E, C]⟩ : Shape).Idx where
  toFun e := ix2 e c
  inj' a b h := congrFun h 0

@[simp] theorem colEmb_apply (c : Fin C) (e : Fin E) : colEmb E C c e = ix2 e c := rfl

/-- Update row e ↦ update element e of a rank-1 array of updates: injective. -/
def eltEmb (E : Nat) : Fin E ↪ (⟨1, ![E]⟩ : Shape).Idx where
  toFun e := ix1 e
  inj' a b h := congrFun h 0

@[simp] theorem eltEmb_apply (e : Fin E) : eltEmb E e = ix1 e := rfl

/-- THE LANDING SET OF A ROW SCATTER: the update elements that land on operand element i = (n, c) are the elements
    (e, c) of the update rows e whose scatter index reads n. -/
theorem scatterRows_landing_eq_map (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i] :
    Finset.univ.filter (fun j => (scatterRows N E C wf).resultIdx? j idx = some i)
      = (Finset.univ.filter (fun e : Fin E => (idx (ix2 e ⟨0, Nat.one_pos⟩)).toInt = ((i 0).val : Int))).map
          (colEmb E C (i 1)) := by
  ext j
  simp only [Finset.mem_filter, Finset.mem_univ, true_and, Finset.mem_map, colEmb_apply,
    scatterRows_resultIdx?_eq_some_iff]
  constructor
  · rintro ⟨h0, h1⟩
    refine ⟨j 0, h0, ?_⟩
    conv_rhs => rw [eq_ix2 j]
    have : i 1 = j 1 := Fin.ext h1.symm
    rw [this]
    rfl
  · rintro ⟨e, he, rfl⟩
    exact ⟨he, rfl⟩

/-- A SUM OVER THE UPDATES THAT LAND ON ONE OPERAND ELEMENT of a row scatter is the sum over the update rows whose
    scatter index reads that element's row, each taken at that element's column. -/
theorem scatterRows_sum_landing {M : Type*} [AddCommMonoid M]
    (wf : ScatterDims.WF ⟨2, ![N, C]⟩ ⟨2, ![E, 1]⟩ ⟨2, ![E, C]⟩ [1] [0] [0] 1)
    (idx : IVec ⟨2, ![E, 1]⟩ w) (i : (⟨2, ![N, C]⟩ : Shape).Idx)
    [DecidablePred fun j => (scatterRows N E C wf).resultIdx? j idx = some i]
    (f : (⟨2, ![E, C]⟩ : Shape).Idx → M) :
    ∑ j ∈ Finset.univ.filter (fun j => (scatterRows N E C wf).resultIdx? j idx = some i), f j
      = ∑ e ∈ Finset.univ.filter (fun e : Fin E => (idx (ix2 e ⟨0, Nat.one_pos⟩)).toInt = ((i 0).val : Int)),
          f (ix2 e (i 1)) := by
  rw [scatterRows_landing_eq_map, Finset.sum_map]
  rfl

/-- THE LANDING SET OF A SCALAR SCATTER: the updates that land on operand element n are the e whose scatter index
    reads n. -/
theorem scatterElts_landing_eq_map (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i] :
    Finset.univ.filter (fun j => (scatterElts N E wf).resultIdx? j idx = some i)
      = (Finset.univ.filter (fun e : Fin E => (idx (ix2 e ⟨0, Nat.one_pos⟩)).toInt = ((i 0).val : Int))).map
          (eltEmb E) := by
  ext j
  simp only [Finset.mem_filter, Finset.mem_univ, true_and, Finset.mem_map, eltEmb_apply,
    scatterElts_resultIdx?_eq_some_iff]
  constructor
  · intro h0
    exact ⟨j 0, h0, (eq_ix1 j).symm⟩
  · rintro ⟨e, he, rfl⟩
    exact he

/-- A SUM OVER THE UPDATES THAT LAND ON ONE OPERAND ELEMENT of a scalar scatter is the sum over the updates whose
    scatter index reads that element's number. -/
theorem scatterElts_sum_landing {M : Type*} [AddCommMonoid M]
    (wf : ScatterDims.WF ⟨1, ![N]⟩ ⟨2, ![E, 1]⟩ ⟨1, ![E]⟩ [] [0] [0] 1)
    (idx : IVec ⟨2, ![E, 1]⟩ w) (i : (⟨1, ![N]⟩ : Shape).Idx)
    [DecidablePred fun j => (scatterElts N E wf).resultIdx? j idx = some i]
    (f : (⟨1, ![E]⟩ : Shape).Idx → M) :
    ∑ j ∈ Finset.univ.filter (fun j => (scatterElts N E wf).resultIdx? j idx = some i), f j
      = ∑ e ∈ Finset.univ.filter (fun e : Fin E => (idx (ix2 e ⟨0, Nat.one_pos⟩)).toInt = ((i 0).val : Int)),
          f (ix1 e) := by
  rw [scatterElts_landing_eq_map, Finset.sum_map]
  rfl

end Landing

end Cert.Lib.EdgeIndex
-- ==== Proof.LibTensorRead.lean ====
/-
  The host-side tensor operations of a Chebyshev graph convolution, read at an entry on the extended reals.

  * broadcasts of a scalar, of an [E, 1] column to [E, C], of a [C] vector to a row [1, C] and of that row to [N, C];
  * the weighted aggregation: rows of `y : [N, C]` taken at the edges' (wrapped, clamped) receiver indices, multiplied
    by the edge's weight, and added onto a zero [N, C] array at the edges' sender indices: at entry (i, k) it is
    `0 + ∑ over edges e, (wt e * y (src e, k) if the sender of e is i, else 0)`;
  * the degree: the edge weights added onto a zero [N] vector at the sender indices: `0 + ∑ e, (wt e if sender e = i)`.
-/
import Idealize.ShloMosaic.Lib.ValueIdx
import Idealize.ShloMosaic.Lib.Pipeline.Value
import Idealize.ShloMosaic.PureOps.Ideal.Laws
import proofs.«158343_j26250840113269_2_alg».proof.Proof.LibEdgeAggregate
import proofs.«158343_j26250840113269_2_alg».proof.Proof.LibEdgeIndex

noncomputable section

open scoped BigOperators

namespace Cert.Cheb.Read

open Idealize.ShloMosaic Idealize.ShloMosaic.ValueIdx Cert.Lib.Rows Cert.Lib.EdgeAggregate

variable {N E C : Nat}

/-- A scalar broadcast to any shape reads the scalar everywhere. -/
theorem scalarBcast_apply {α : Type} {t : Shape} (h : (⟨0, ![]⟩ : Shape).BroadcastsInDim t ![]) (s : (⟨0, ![]⟩ : Shape).Idx → α)
    (j : t.Idx) : broadcastInDim t ![] h s j = s ix0 :=
  broadcastInDim_apply _ h s j ix0 fun a => a.elim0

/-- An [E, 1] column broadcast to [E, C] reads, at (e, k), the column at (e, 0). -/
theorem colBcast_apply {α : Type} (h : (⟨2, ![E, 1]⟩ : Shape).BroadcastsInDim ⟨2, ![E, C]⟩ ![0, 1])
    (v : (⟨2, ![E, 1]⟩ : Shape).Idx → α) (e : Fin E) (k : Fin C) :
    broadcastInDim ⟨2, ![E, C]⟩ ![0, 1] h v (ix2 e k) = v (ix2 e (0 : Fin 1)) := by
  refine broadcastInDim_apply _ h v _ (ix2 e (0 : Fin 1)) fun a => ?_
  match a with
  | ⟨0, _⟩ =>
    show e.val = if E = 1 then 0 else e.val
    split
    · have := e.isLt; omega
    · rfl
  | ⟨1, _⟩ =>
    show (0 : ℕ) = if (1 : ℕ) = 1 then 0 else k.val
    rw [if_pos rfl]

/-- A [C] vector laid as the row [1, C] reads, at (z, k), the vector at k. -/
theorem vecRow_apply {α : Type} (h : (⟨1, ![C]⟩ : Shape).BroadcastsInDim ⟨2, ![1, C]⟩ ![1])
    (v : (⟨1, ![C]⟩ : Shape).Idx → α) (z : Fin 1) (k : Fin C) :
    broadcastInDim ⟨2, ![1, C]⟩ ![1] h v (ix2 z k) = v (ix1 k) := by
  refine broadcastInDim_apply _ h v _ (ix1 k) fun a => ?_
  match a with
  | ⟨0, _⟩ =>
    show k.val = if C = 1 then 0 else k.val
    split
    · have := k.isLt; omega
    · rfl

/-- A [1, C] row broadcast to [N, C] reads, at (i, k), the row at (0, k). -/
theorem rowBcast_apply {α : Type} (h : (⟨2, ![1, C]⟩ : Shape).BroadcastsInDim ⟨2, ![N, C]⟩ ![0, 1])
    (v : (⟨2, ![1, C]⟩ : Shape).Idx → α) (i : Fin N) (k : Fin C) :
    broadcastInDim ⟨2, ![N, C]⟩ ![0, 1] h v (ix2 i k) = v (ix2 (0 : Fin 1) k) := by
  refine broadcastInDim_apply _ h v _ (ix2 (0 : Fin 1) k) fun a => ?_
  match a with
  | ⟨0, _⟩ =>
    show (0 : ℕ) = if (1 : ℕ) = 1 then 0 else i.val
    rw [if_pos rfl]
  | ⟨1, _⟩ =>
    show k.val = if C = 1 then 0 else k.val
    split
    · have := k.isLt; omega
    · rfl

/-- An [N] vector laid as the column [N, 1] by a broadcast reads, at (i, z), the vector at i. -/
theorem vecCol_apply {α : Type} (h : (⟨1, ![N]⟩ : Shape).BroadcastsInDim ⟨2, ![N, 1]⟩ ![0])
    (v : (⟨1, ![N]⟩ : Shape).Idx → α) (i : Fin N) (z : Fin 1) :
    broadcastInDim ⟨2, ![N, 1]⟩ ![0] h v (ix2 i z) = v (ix1 i) := col_apply h v i z

/-- THE WEIGHTED AGGREGATION at entry (i, k). -/
theorem wagg_apply (hN : 0 < N) (cN : BitVec 32)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (h0 : (⟨0, ![]⟩ : Shape).BroadcastsInDim ⟨1, ![E]⟩ ![])
    (hc : (⟨1, ![E]⟩ : Shape).BroadcastsInDim ⟨2, ![E, 1]⟩ ![0])
    (h2 : (⟨2, ![E, 1]⟩ : Shape).BroadcastsInDim ⟨2, ![E, C]⟩ ![0, 1])
    (hz : (⟨0, ![]⟩ : Shape).BroadcastsInDim ⟨2, ![N, C]⟩ ![])
    (wt : FVec Ideal ⟨1, ![E]⟩ .f32) (y : FVec Ideal ⟨2, ![N, C]⟩ .f32) (snd rcv : IVec ⟨1, ![E]⟩ 32) (i : Fin N) (k : Fin C) :
    Host.scatterAdd (rowScatterDims N E C wfS)
        (broadcastInDim ⟨2, ![N, C]⟩ ![] hz (constant (F := Ideal) ⟨0, ![]⟩ .f32 0x00000000#32))
        (broadcastInDim ⟨2, ![E, 1]⟩ ![0] hc snd)
        (mulf (broadcastInDim ⟨2, ![E, C]⟩ ![0, 1] h2 (broadcastInDim ⟨2, ![E, 1]⟩ ![0] hc wt))
          (Host.gather (rowGatherDims N E C wfG) y
            (broadcastInDim ⟨2, ![E, 1]⟩ ![0] hc
              (select (cmpi .slt rcv (broadcastInDim ⟨1, ![E]⟩ ![] h0 (constantI ⟨0, ![]⟩ 32 0#32)))
                (addi rcv (broadcastInDim ⟨1, ![E]⟩ ![] h0 (constantI ⟨0, ![]⟩ 32 cN))) rcv))))
        (ix2 i k)
      = 0 + ∑ e : Fin E, if (snd (ix1 e)).toInt = (i.val : Int)
          then wt (ix1 e) * y (ix2 (srcRow N hN cN (rcv (ix1 e))) k) else 0 := by
  rw [rowScatterAdd_apply, zeros_apply]
  congr 1
  refine Finset.sum_congr rfl fun e _ => ?_
  rw [col_apply]
  refine if_congr Iff.rfl ?_ rfl
  show (broadcastInDim ⟨2, ![E, C]⟩ ![0, 1] h2 (broadcastInDim ⟨2, ![E, 1]⟩ ![0] hc wt) (ix2 e k) : EReal)
      * Host.gather (rowGatherDims N E C wfG) y _ (ix2 e k) = _
  rw [colBcast_apply, col_apply, rowGather_apply hN, col_apply, wrap_apply]
  rfl

/-- THE DEGREE at node i: the weights of the edges whose sender is i, added onto zero. -/
theorem degree_apply (wf : ScatterDims.WF ⟨1, ![N]⟩ ⟨2, ![E, 1]⟩ ⟨1, ![E]⟩ [] [0] [0] 1)
    (hz : (⟨0, ![]⟩ : Shape).BroadcastsInDim ⟨1, ![N]⟩ ![])
    (hc : (⟨1, ![E]⟩ : Shape).BroadcastsInDim ⟨2, ![E, 1]⟩ ![0])
    (wt : FVec Ideal ⟨1, ![E]⟩ .f32) (snd : IVec ⟨1, ![E]⟩ 32) (i : Fin N) :
    Host.scatterAdd (Cert.Lib.EdgeIndex.scatterElts N E wf)
        (broadcastInDim ⟨1, ![N]⟩ ![] hz (constant (F := Ideal) ⟨0, ![]⟩ .f32 0x00000000#32))
        (broadcastInDim ⟨2, ![E, 1]⟩ ![0] hc snd) wt (ix1 i)
      = 0 + ∑ e : Fin E, if (snd (ix1 e)).toInt = (i.val : Int) then wt (ix1 e) else 0 := by
  show Ideal.hostScatterAdd (Cert.Lib.EdgeIndex.scatterElts N E wf) _ _ wt (ix1 i) = _
  unfold Ideal.hostScatterAdd
  rw [Cert.Lib.EdgeIndex.scatterElts_sum_landing, Finset.sum_filter, scalarBcast_apply]
  congr 1
  · exact Ideal.ofBits_zero_f32
  · refine Finset.sum_congr rfl fun e _ => ?_
    rw [col_apply]
    rfl

end Cert.Cheb.Read

end
-- ==== Proof.LibLayoutRead.lean ====
/-
  Small layout steps read at coordinates: a row slice of a matrix, and the casts between a row [1, C] and a vector [C].
-/
import Idealize.ShloMosaic.Lib.ValueIdx
import Idealize.ShloMosaic.Lib.Pipeline.Value

noncomputable section

namespace Cert.Cheb.Layout

open Idealize.ShloMosaic Idealize.ShloMosaic.ValueIdx

variable {α : Type} {R C : Nat}

/-- Row `k` of an [R, C] matrix taken as the slice [1, C] reads, at (z, q), the matrix at (k, q). -/
theorem sliceRow_apply (k : Nat) (hk : k < R) (x : (⟨2, ![R, C]⟩ : Shape).Idx → α)
    (h : (⟨2, ![R, C]⟩ : Shape).Slices ![k, 0] ⟨2, ![1, C]⟩) (z : Fin 1) (q : Fin C) :
    extractStridedSlice ⟨2, ![1, C]⟩ ![k, 0] x h (ix2 z q) = x (ix2 ⟨k, hk⟩ q) := by
  refine extractStridedSlice_apply _ x h (ix2 z q) (ix2 ⟨k, hk⟩ q) fun a => ?_
  match a with
  | ⟨0, _⟩ =>
    show k = k + z.val
    have := z.isLt; omega
  | ⟨1, _⟩ =>
    show q.val = 0 + q.val
    omega

/-- A row [1, C] cast to the vector [C] reads, at q, the row at (0, q). -/
theorem castRowVec_apply (x : (⟨2, ![1, C]⟩ : Shape).Idx → α) (h : (⟨2, ![1, C]⟩ : Shape).ShapeCasts ⟨1, ![C]⟩) (q : Fin C) :
    shapeCast ⟨1, ![C]⟩ x h (ix1 q) = x (ix2 (0 : Fin 1) q) :=
  shapeCast_apply x h _ _ (by
    rw [Shape.rowMajor_val_one, Shape.rowMajor_val_two]
    show (0 : ℕ) * C + q.val = q.val
    omega)

/-- A vector [C] cast to the row [1, C] reads, at (z, q), the vector at q. -/
theorem castVecRow_apply (x : (⟨1, ![C]⟩ : Shape).Idx → α) (h : (⟨1, ![C]⟩ : Shape).ShapeCasts ⟨2, ![1, C]⟩) (z : Fin 1) (q : Fin C) :
    shapeCast ⟨2, ![1, C]⟩ x h (ix2 z q) = x (ix1 q) :=
  shapeCast_apply x h _ _ (by
    have hz : z.val = 0 := by omega
    rw [Shape.rowMajor_val_one, Shape.rowMajor_val_two]
    show q.val = z.val * C + q.val
    rw [hz]; omega)

/-- A vector [N] cast to the column [N, 1] reads, at (i, z), the vector at i. -/
theorem castVecCol_apply {N : Nat} (x : (⟨1, ![N]⟩ : Shape).Idx → α) (h : (⟨1, ![N]⟩ : Shape).ShapeCasts ⟨2, ![N, 1]⟩) (i : Fin N) (z : Fin 1) :
    shapeCast ⟨2, ![N, 1]⟩ x h (ix2 i z) = x (ix1 i) :=
  shapeCast_apply x h _ _ (by
    have hz : z.val = 0 := by omega
    rw [Shape.rowMajor_val_one, Shape.rowMajor_val_two]
    show i.val = i.val * 1 + z.val
    rw [hz]; omega)

end Cert.Cheb.Layout

end
-- ==== Proof.LibERealSum.lean ====
/-
  Finite sums of real numbers inside the extended reals.

  `coe_sum`: the coercion `ℝ → EReal` commutes with a finite sum (Mathlib states it for `+` and for `*`, not for `∑`).
  `lowrank_swap`: for real `s`, `u : ι → ℝ`, `B : ι → κ → ℝ`, `a : κ → ℝ` over finite index types,

      ∑ᵣ (s · ∑ₙ uₙ · Bₙᵣ) · aᵣ  =  ∑ₙ uₙ · (s · ∑ᵣ aᵣ · Bₙᵣ)        (as extended reals)

  — a vector pushed through a rank-κ factorization from either end. It is an identity of REAL numbers (distributivity and an
  exchange of two finite sums); on the extended reals it fails at the infinities, which is why it is stated over
  coercions.
-/
import Mathlib.Data.EReal.Operations
import Mathlib.Algebra.BigOperators.Ring.Finset
import Mathlib.Algebra.BigOperators.Group.Finset.Sigma
import Mathlib.Tactic.Ring

namespace Cert.Lib.ERealSum

/-- The coercion of a finite real sum is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- `∑ᵣ (s · ∑ₙ uₙ·Bₙᵣ) · aᵣ = ∑ₙ uₙ · (s · ∑ᵣ aᵣ·Bₙᵣ)` on real numbers, read in the extended reals: both are
    `s · ∑ₙ ∑ᵣ uₙ·Bₙᵣ·aᵣ`, by distributivity and the exchange of the two finite sums. -/
theorem lowrank_swap {ι κ : Type*} [Fintype ι] [Fintype κ] (s : ℝ) (u : ι → ℝ) (Bm : ι → κ → ℝ) (a : κ → ℝ) :
    ∑ r, ((s : EReal) * ∑ n, (u n : EReal) * (Bm n r : EReal)) * (a r : EReal)
      = ∑ n, (u n : EReal) * ((s : EReal) * ∑ r, (a r : EReal) * (Bm n r : EReal)) := by
  simp only [← EReal.coe_mul, ← coe_sum]
  refine congrArg _ ?_
  simp only [Finset.mul_sum, Finset.sum_mul]
  rw [Finset.sum_comm]
  exact Finset.sum_congr rfl fun n _ => Finset.sum_congr rfl fun r _ => by ring

end Cert.Lib.ERealSum
-- ==== Proof.LibChebLaw.lean ====
/-
  A graph Laplacian applied to node features, in two spellings, on the extended reals.

  Nodes I, edges J, channels K. Edge j carries a weight e j, lands on the node i with lands j i, and reads the
  features of the node src j. With
      degr i     = 0 + ∑ j, [lands j i] e j                         (the weighted degree of node i)
      aggr w i k = 0 + ∑ j, [lands j i] w j * y (src j) k          (the weighted sum of neighbour features)
  the scaled Laplacian is written either with the scale outside,
      Lref = s * (degr i * y i k - aggr e i k),
  or with the scale pushed into the degree and into every edge weight,
      Lker = (s * degr i) * y i k - aggr (s * e) i k.
  On REAL numbers the two agree by distributivity. On the extended reals distributivity fails at the infinities,
  so the agreement is stated for real weights and features and either a real scale, or — whatever the scale,
  the infinities included — a graph all of whose landing weights vanish, where both spellings are 0 because
  0 * ⊤ = 0 on the extended reals.

  The scale in question is 2 / (2 * M) for a bound M on the degrees and on the negated weights:
  it is a real number unless M = 0, and M = 0 forces exactly that degenerate graph (scale_cases).
-/
import Idealize.ShloMosaic.PureOps.Ideal
import proofs.«158343_j26250840113269_2_alg».proof.Proof.LibERealSum

namespace Cert.Cheb.Law

open Idealize.ShloMosaic

/-- An extended real that is a real number. -/
abbrev REAL (v : EReal) : Prop := ∃ r : ℝ, v = (r : EReal)

/-! ### Real numbers are closed under the ring operations -/

theorem real_mul {a b : EReal} (ha : REAL a) (hb : REAL b) : REAL (a * b) := by
  obtain ⟨x, rfl⟩ := ha
  obtain ⟨y, rfl⟩ := hb
  exact ⟨x * y, (EReal.coe_mul x y).symm⟩

theorem real_add {a b : EReal} (ha : REAL a) (hb : REAL b) : REAL (a + b) := by
  obtain ⟨x, rfl⟩ := ha
  obtain ⟨y, rfl⟩ := hb
  exact ⟨x + y, (EReal.coe_add x y).symm⟩

theorem real_sub {a b : EReal} (ha : REAL a) (hb : REAL b) : REAL (a - b) := by
  obtain ⟨x, rfl⟩ := ha
  obtain ⟨y, rfl⟩ := hb
  exact ⟨x - y, (EReal.coe_sub x y).symm⟩

/-- One step of the Chebyshev recurrence, 2 * a - b, stays real. -/
theorem real_cheb (two a b : EReal) (h2 : two = ((2 : ℝ) : EReal)) (ha : REAL a) (hb : REAL b) :
    REAL (two * a - b) :=
  real_sub (real_mul ⟨2, h2⟩ ha) hb

/-- The f32 word 0x40000000 is the real number 2. -/
theorem two_real : Ideal.ofBits .f32 0x40000000#32 = ((2 : ℝ) : EReal) := by
  simp [Ideal.ofBits, Ideal.ieee, -EReal.coe_mul]
  norm_num

/-! ### The two sums -/

noncomputable section
variable {I J K : Type*} [Fintype J] (lands : J → I → Prop) [∀ j i, Decidable (lands j i)] (src : J → I)

/-- The weighted degree of node i: the total weight of the edges landing on it. -/
def degr (e : J → EReal) (i : I) : EReal := 0 + ∑ j, if lands j i then e j else 0

/-- The weighted sum, over the edges landing on node i, of the features of the nodes they read. -/
def aggr (wt : J → EReal) (y : I → K → EReal) (i : I) (k : K) : EReal :=
  0 + ∑ j, if lands j i then wt j * y (src j) k else 0

/-- The Laplacian with the scale applied last. -/
def Lref (s : EReal) (e : J → EReal) (y : I → K → EReal) (i : I) (k : K) : EReal :=
  s * (degr lands e i * y i k - aggr lands src e y i k)

/-- The Laplacian with the scale applied to the degree and to every edge weight first. -/
def Lker (s : EReal) (e : J → EReal) (y : I → K → EReal) (i : I) (k : K) : EReal :=
  (s * degr lands e i) * y i k - aggr lands src (fun j => s * e j) y i k

/-- A finite sum of real numbers, some of them masked to 0, read in the extended reals. -/
theorem sum_ite_coe {ι : Type*} [Fintype ι] (p : ι → Prop) [DecidablePred p] (f : ι → ℝ) :
    (∑ j, if p j then ((f j : ℝ) : EReal) else 0) = ((∑ j, if p j then f j else 0 : ℝ) : EReal) := by
  rw [Cert.Lib.ERealSum.coe_sum]
  refine Finset.sum_congr rfl fun j _ => ?_
  split_ifs <;> simp

theorem degr_coe (er : J → ℝ) (i : I) :
    degr lands (fun j => (er j : EReal)) i = ((∑ j, if lands j i then er j else 0 : ℝ) : EReal) := by
  unfold degr
  rw [zero_add]
  exact sum_ite_coe (fun j => lands j i) er

theorem aggr_coe (wr : J → ℝ) (yr : I → K → ℝ) (i : I) (k : K) :
    aggr lands src (fun j => (wr j : EReal)) (fun i k => (yr i k : EReal)) i k
      = ((∑ j, if lands j i then wr j * yr (src j) k else 0 : ℝ) : EReal) := by
  unfold aggr
  rw [zero_add]
  simp only [← EReal.coe_mul]
  exact sum_ite_coe (fun j => lands j i) (fun j => wr j * yr (src j) k)

/-- The degree of a node under real weights is real. -/
theorem degr_real {e : J → EReal} (he : ∀ j, REAL (e j)) (i : I) : REAL (degr lands e i) := by
  choose er her using he
  obtain rfl : e = fun j => (er j : EReal) := funext her
  exact ⟨_, degr_coe lands er i⟩

/-- The neighbour sum under real weights and real features is real. -/
theorem aggr_real {wt : J → EReal} {y : I → K → EReal} (hw : ∀ j, REAL (wt j)) (hy : ∀ i k, REAL (y i k))
    (i : I) (k : K) : REAL (aggr lands src wt y i k) := by
  choose wr hwr using hw
  choose yr hyr using hy
  obtain rfl : wt = fun j => (wr j : EReal) := funext hwr
  obtain rfl : y = fun i k => (yr i k : EReal) := funext fun i => funext (hyr i)
  exact ⟨_, aggr_coe lands src wr yr i k⟩

/-- When every weight landing on node i vanishes, so does the neighbour sum there, whatever the features. -/
theorem aggr_zero {wt : J → EReal} (y : I → K → EReal) (i : I) (k : K) (hw : ∀ j, lands j i → wt j = 0) :
    aggr lands src wt y i k = 0 := by
  unfold aggr
  rw [Finset.sum_eq_zero, add_zero]
  intro j _
  split_ifs with h
  · rw [hw j h, zero_mul]
  · rfl

/-! ### The two spellings agree -/

theorem L_agree {s : EReal} {e : J → EReal} {y : I → K → EReal}
    (hcase : (∃ r : ℝ, s = r) ∨ ((∀ i, degr lands e i = 0) ∧ ∀ j i, lands j i → e j = 0))
    (he : ∀ j, ∃ r : ℝ, e j = r) (hy : ∀ i k, ∃ r : ℝ, y i k = r) :
    (∀ i k, Lker lands src s e y i k = Lref lands src s e y i k)
      ∧ (∀ i k, ∃ r : ℝ, Lref lands src s e y i k = r) := by
  rcases hcase with ⟨sr, rfl⟩ | ⟨hdeg, hland⟩
  · -- a real scale: everything is a real number, and the identity is distributivity
    choose er her using he
    choose yr hyr using hy
    obtain rfl : e = fun j => (er j : EReal) := funext her
    obtain rfl : y = fun i k => (yr i k : EReal) := funext fun i => funext (hyr i)
    have hL : ∀ i k, Lref lands src (sr : EReal) (fun j => (er j : EReal)) (fun i k => (yr i k : EReal)) i k
        = ((sr * ((∑ j, if lands j i then er j else 0) * yr i k
            - ∑ j, if lands j i then er j * yr (src j) k else 0) : ℝ) : EReal) := by
      intro i k
      unfold Lref
      rw [degr_coe, aggr_coe, ← EReal.coe_mul, ← EReal.coe_sub, ← EReal.coe_mul]
    have hK : ∀ i k, Lker lands src (sr : EReal) (fun j => (er j : EReal)) (fun i k => (yr i k : EReal)) i k
        = (((sr * ∑ j, if lands j i then er j else 0) * yr i k
            - ∑ j, if lands j i then (sr * er j) * yr (src j) k else 0 : ℝ) : EReal) := by
      intro i k
      unfold Lker
      simp only [← EReal.coe_mul]
      rw [degr_coe, aggr_coe lands src (fun j => sr * er j) yr, ← EReal.coe_mul, ← EReal.coe_mul, ← EReal.coe_sub]
    refine ⟨fun i k => ?_, fun i k => ⟨_, hL i k⟩⟩
    rw [hL, hK]
    refine congrArg _ ?_
    have hA : (∑ j, if lands j i then (sr * er j) * yr (src j) k else 0)
        = sr * ∑ j, if lands j i then er j * yr (src j) k else 0 := by
      rw [Finset.mul_sum]
      refine Finset.sum_congr rfl fun j _ => ?_
      split_ifs
      · ring
      · rw [mul_zero]
    rw [hA]
    ring
  · -- every landing weight vanishes: both spellings are 0, whatever the scale
    have hA : ∀ i k, aggr lands src e y i k = 0 := fun i k => aggr_zero lands src y i k fun j h => hland j i h
    have hA' : ∀ i k, aggr lands src (fun j => s * e j) y i k = 0 := fun i k =>
      aggr_zero lands src y i k fun j h => by rw [hland j i h, mul_zero]
    have hL : ∀ i k, Lref lands src s e y i k = 0 := fun i k => by
      unfold Lref
      rw [hdeg, hA, zero_mul, sub_zero, mul_zero]
    refine ⟨fun i k => ?_, fun i k => ⟨0, by rw [hL, EReal.coe_zero]⟩⟩
    rw [hL]
    unfold Lker
    rw [hdeg, hA', mul_zero, zero_mul, sub_zero]

/-! ### The scale 2 / (2 * M) -/

theorem scale_cases (two M : EReal) {e : J → EReal} (h2 : two = ((2 : ℝ) : EReal))
    (hd : ∀ i, degr lands e i ≤ M) (hm : ∀ j, - e j ≤ M) (he : ∀ j, ∃ r : ℝ, e j = r) :
    (∃ r : ℝ, Ideal.div two (two * M) = r) ∨ ((∀ i, degr lands e i = 0) ∧ ∀ j i, lands j i → e j = 0) := by
  subst h2
  induction M using EReal.rec with
  | bot =>
    left
    refine ⟨0, ?_⟩
    rw [EReal.coe_mul_bot_of_pos (by norm_num), Ideal.div, if_neg (by simp), EReal.inv_bot, mul_zero, EReal.coe_zero]
  | top =>
    left
    refine ⟨0, ?_⟩
    rw [EReal.coe_mul_top_of_pos (by norm_num), Ideal.div, if_neg (by simp), EReal.inv_top, mul_zero, EReal.coe_zero]
  | coe r =>
    by_cases hr : r = 0
    · -- M = 0: the weights are nonnegative with nonpositive sums, so every landing weight is 0
      right
      subst hr
      choose er her using he
      obtain rfl : e = fun j => (er j : EReal) := funext her
      have hpos : ∀ j, 0 ≤ er j := fun j => by
        have h : -((er j : ℝ) : EReal) ≤ ((0 : ℝ) : EReal) := hm j
        rw [← EReal.coe_neg, EReal.coe_le_coe_iff] at h
        linarith
      have hnn : ∀ i, ∀ j ∈ (Finset.univ : Finset J), 0 ≤ (if lands j i then er j else 0) := fun i j _ => by
        split_ifs
        · exact hpos j
        · exact le_rfl
      have hsum : ∀ i, (∑ j, if lands j i then er j else 0) = 0 := fun i => by
        have h := hd i
        rw [degr_coe, EReal.coe_le_coe_iff] at h
        exact le_antisymm h (Finset.sum_nonneg (hnn i))
      refine ⟨fun i => by rw [degr_coe, hsum i, EReal.coe_zero], fun j i hji => ?_⟩
      have h := (Finset.sum_eq_zero_iff_of_nonneg (hnn i)).mp (hsum i) j (Finset.mem_univ j)
      rw [if_pos hji] at h
      show ((er j : ℝ) : EReal) = 0
      rw [h, EReal.coe_zero]
    · left
      refine ⟨2 * (1 / (2 * r)), ?_⟩
      rw [← EReal.coe_mul, Ideal.div_coe (mul_ne_zero two_ne_zero hr), ← EReal.coe_mul]

end

end Cert.Cheb.Law
-- ==== Proof.KChainRead.lean ====
/-
  The idealized kernel's named tensors read at an entry, on the extended reals.

  With `lands j i` ("edge j's sender reads i") and `src j` (edge j's receiver row, wrapped and clamped), the scaled-degree
  column at row i is `s · d i` with `d i = 0 + ∑ j, (e j if lands j i)`, the aggregation with the scaled weights at (i, k)
  is `0 + ∑ j, ((s · e j) · y (src j, k) if lands j i)`, and so one region's Laplacian step
  `sdeg i · y (i, k) − agg (i, k)` is the scale-folded spelling `Lker` of the graph Laplacian matvec. The bias rows read
  the bias matrix's row.
-/
import proofs.«158343_j26250840113269_2_alg».proof.Proof.KChainVals
import proofs.«158343_j26250840113269_2_alg».proof.Proof.LibTensorRead
import proofs.«158343_j26250840113269_2_alg».proof.Proof.LibLayoutRead
import proofs.«158343_j26250840113269_2_alg».proof.Proof.LibChebLaw

set_option maxRecDepth 16384

noncomputable section

open scoped BigOperators

namespace Cert.KernelIdeal.Chain

open Cert.KernelIdeal Cert.KernelIdeal.Gen Idealize.ShloMosaic Idealize.ShloMosaic.ValueIdx
open Cert.Lib.Rows Cert.Lib.EdgeAggregate Cert.Cheb.Read Cert.Cheb.Layout Cert.Cheb.Law

/-- Edge j's sender reads node i. -/
abbrev landsOf (snd : IVec S800000 32) (j : Fin 800000) (i : Fin 50000) : Prop := (snd (ix1 j)).toInt = (i.val : Int)

/-- Edge j's receiver row: a negative index wrapped once by the number of nodes, then clamped. -/
abbrev srcOf (rcv : IVec S800000 32) (j : Fin 800000) : Fin 50000 := srcRow 50000 (by norm_num) 50000#32 (rcv (ix1 j))

/-- The edge weights as a function of the edge. -/
abbrev wtOf (e : FVec Ideal S800000 .f32) (j : Fin 800000) : EReal := e (ix1 j)

/-- A matrix as a function of row and column. -/
abbrev matOf (y : FVec Ideal S50000x128 .f32) (i : Fin 50000) (k : Fin 128) : EReal := y (ix2 i k)

variable (snd rcv : IVec S800000 32) (e : FVec Ideal S800000 .f32)

/-- The degree at node i. -/
theorem degT_apply (i : Fin 50000) : degT snd e (ix1 i) = degr (landsOf snd) (wtOf e) i := by
  unfold degT degr
  exact degree_apply _ _ _ e snd i

/-- The scaled-degree column at row i. -/
theorem sdcol_apply (i : Fin 50000) (z : Fin 1) :
    colT (sdegT snd e) (ix2 i z) = scaleT snd e ix0 * degr (landsOf snd) (wtOf e) i := by
  unfold colT
  rw [castVecCol_apply]
  unfold sdegT
  rw [mulf_apply, scalarBcast_apply, degT_apply]

/-- The aggregation with the scaled weights at (i, k). -/
theorem sagg_apply (y : FVec Ideal S50000x128 .f32) (i : Fin 50000) (k : Fin 128) :
    aggT (sedgeT snd e) snd rcv y (ix2 i k)
      = aggr (landsOf snd) (srcOf rcv) (fun j => scaleT snd e ix0 * wtOf e j) (matOf y) i k := by
  unfold aggT
  refine (wagg_apply (by norm_num) 50000#32 _ _ _ _ _ _ (sedgeT snd e) y snd rcv i k).trans ?_
  unfold aggr
  refine congrArg (fun t : EReal => 0 + t) (Finset.sum_congr rfl fun j _ => ?_)
  refine if_congr Iff.rfl ?_ rfl
  unfold sedgeT
  rw [mulf_apply, scalarBcast_apply]

/-- One region's Laplacian step is the scale-folded spelling of the Laplacian matvec. -/
theorem lap_apply (y : FVec Ideal S50000x128 .f32) (i : Fin 50000) (k : Fin 128) :
    colT (sdegT snd e) (ix2 i (0 : Fin 1)) * y (ix2 i k) - aggT (sedgeT snd e) snd rcv y (ix2 i k)
      = Lker (landsOf snd) (srcOf rcv) (scaleT snd e ix0) (wtOf e) (matOf y) i k := by
  rw [sdcol_apply, sagg_apply]
  unfold Lker
  with_reducible rfl

/-- The bias row of order 0 at column q. -/
theorem bT0_apply (b : FVec Ideal S6x128 .f32) (z : Fin 1) (q : Fin 128) : bT0 b (ix2 z q) = b (ix2 (0 : Fin 6) q) := by
  unfold bT0
  rw [castVecRow_apply, castRowVec_apply]
  exact sliceRow_apply 0 (by norm_num) b _ 0 q

/-- The bias row of order 1 at column q. -/
theorem bT1_apply (b : FVec Ideal S6x128 .f32) (z : Fin 1) (q : Fin 128) : bT1 b (ix2 z q) = b (ix2 (1 : Fin 6) q) := by
  unfold bT1
  rw [castVecRow_apply, castRowVec_apply]
  exact sliceRow_apply 1 (by norm_num) b _ 0 q

/-- The bias row of order 2 at column q. -/
theorem bT2_apply (b : FVec Ideal S6x128 .f32) (z : Fin 1) (q : Fin 128) : bT2 b (ix2 z q) = b (ix2 (2 : Fin 6) q) := by
  unfold bT2
  rw [castVecRow_apply, castRowVec_apply]
  exact sliceRow_apply 2 (by norm_num) b _ 0 q

/-- The bias row of order 3 at column q. -/
theorem bT3_apply (b : FVec Ideal S6x128 .f32) (z : Fin 1) (q : Fin 128) : bT3 b (ix2 z q) = b (ix2 (3 : Fin 6) q) := by
  unfold bT3
  rw [castVecRow_apply, castRowVec_apply]
  exact sliceRow_apply 3 (by norm_num) b _ 0 q

/-- The bias row of order 4 at column q. -/
theorem bT4_apply (b : FVec Ideal S6x128 .f32) (z : Fin 1) (q : Fin 128) : bT4 b (ix2 z q) = b (ix2 (4 : Fin 6) q) := by
  unfold bT4
  rw [castVecRow_apply, castRowVec_apply]
  exact sliceRow_apply 4 (by norm_num) b _ 0 q

/-- The last bias row, with the module's bias, at column q. -/
theorem bT5_apply (b : FVec Ideal S6x128 .f32) (bias : FVec Ideal S128 .f32) (z : Fin 1) (q : Fin 128) :
    bT5 b bias (ix2 z q) = b (ix2 (5 : Fin 6) q) + bias (ix1 q) := by
  unfold bT5
  rw [castVecRow_apply, addf_apply, castRowVec_apply, sliceRow_apply 5 (by norm_num) b _ 0 q]
  rfl

end Cert.KernelIdeal.Chain

end
-- ==== Proof.RefValue.lean ====
/-
  The reference program of a Chebyshev graph convolution, read at an entry on the extended reals.

  With x : [N, C] the node features, e : [E] the edge weights, snd, rcv : [E] the edges' sender and receiver indices,
  W : [6, C, C] the weight blocks, b : [6, C] the bias rows and a final bias vector (N = 50000, E = 800000, C = 128):
    * the degree of node i is  0 + ∑ j, [snd j = i] e j                                             (deg_apply);
    * the scale is  2 / (2 * M)  for a bound M of every degree and of every negated weight          (scale_form);
    * the scaled Laplacian of a feature array y is, at (i, k),
        scale * (degree i * y (i, k) - (0 + ∑ j, [snd j = i] e j * y (row (rcv j), k)))             (TL_apply),
      where row wraps a negative index once by N and clamps it into [0, N - 1];
    * the Chebyshev terms are T1 = L x, T(n+1) = 2 * L T(n) - T(n-1)                                 (v35_eq … v128_eq, cheb_apply);
    * the result at (i, q) is  ∑ over the six terms of (T_n W_n)(i, q) + b (n, q), plus the final bias at q,
      added in the program's order                                                                    (out_apply).
-/
import proofs.«158343_j26250840113269_2_alg».proof.Proof.Gen.ReferenceIdeal.Run
import proofs.«158343_j26250840113269_2_alg».proof.Proof.LibTensorRead
import proofs.«158343_j26250840113269_2_alg».proof.Proof.LibLayoutRead

set_option Elab.async false

noncomputable section

open scoped BigOperators

namespace Cert.ReferenceIdeal.RefValue

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.Cheb.Read Cert.Cheb.Layout

variable (V0 : Valuation τ sig (Elt Ideal))

abbrev xA : FVec Ideal S50000x128 .f32 := V0 (Proc.devRef .tc main_arg0)
abbrev eA : FVec Ideal S800000 .f32 := V0 (Proc.devRef .tc main_arg1)
abbrev sndA : IVec S800000 32 := V0 (Proc.devRef .tc main_arg2)
abbrev rcvA : IVec S800000 32 := V0 (Proc.devRef .tc main_arg3)
abbrev wtsA : FVec Ideal S6x128x128 .f32 := V0 (Proc.devRef .tc main_arg4)
abbrev bsA : FVec Ideal S6x128 .f32 := V0 (Proc.devRef .tc main_arg5)
abbrev biasA : FVec Ideal S128 .f32 := V0 (Proc.devRef .tc main_arg6)

/-- The reference's degree vector and its scale, at the types the order and the arithmetic of the extended reals see. -/
abbrev degA : FVec Ideal S50000 .f32 := res_main_v2 (F := Ideal) V0
abbrev scaleA : FVec Ideal S_ .f32 := res_main_v8 (F := Ideal) V0

/-- The f32 word 0x40000000 read on the extended reals (the number 2). -/
abbrev two : EReal := Ideal.ofBits .f32 0x40000000#32

set_option maxRecDepth 8192 in
/-- The scaled graph Laplacian of the reference applied to a feature array y. -/
def TL (y : FVec Ideal S50000x128 .f32) : FVec Ideal S50000x128 .f32 :=
  mulf (broadcastInDim S50000x128 ![] bcast_S_S50000x128 (res_main_v8 (F := Ideal) V0)) (subf (mulf (broadcastInDim S50000x128 ![0, 1] bcast_S50000x1_S50000x128_0_1 (broadcastInDim S50000x1 ![0] bcast_S50000_S50000x1_0 (res_main_v2 (F := Ideal) V0))) y) (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (V0 (Proc.devRef .tc main_arg2))) (mulf (broadcastInDim S800000x128 ![0, 1] bcast_S800000x1_S800000x128_0_1 (broadcastInDim S800000x1 ![0] bcast_S800000_S800000x1_0 (V0 (Proc.devRef .tc main_arg1)))) (Host.gather gather_S50000x128_S800000x1_S800000x128_1_0_n_n_0_1_1128 y (broadcastInDim S800000x1 ![0] bcast_S800000_S800000x1_0 (select (cmpi .slt (V0 (Proc.devRef .tc main_arg3)) (broadcastInDim S800000 ![] bcast_S_S800000 (constantI S_ 32 0#32))) (addi (V0 (Proc.devRef .tc main_arg3)) (broadcastInDim S800000 ![] bcast_S_S800000 (constantI S_ 32 50000#32))) (V0 (Proc.devRef .tc main_arg3))))))))

/-- One step of the Chebyshev recurrence: 2 * L y - y'. -/
def cheb (y yp : FVec Ideal S50000x128 .f32) : FVec Ideal S50000x128 .f32 :=
  subf (mulf (broadcastInDim S50000x128 ![] bcast_S_S50000x128 (constant (F := Ideal) S_ .f32 0x40000000#32)) (TL V0 y)) yp

/-- The fifth Chebyshev term. -/
def T5 : FVec Ideal S50000x128 .f32 := cheb V0 (res_main_v128 (F := Ideal) V0) (res_main_v97 (F := Ideal) V0)

def wk0 : FVec Ideal S128x128 .f32 := shapeCast _ (extractStridedSlice S1x128x128 ![0, 0, 0] (V0 (Proc.devRef .tc main_arg4)) slices_S6x128x128_S1x128x128_0_0_0) shapeCasts_S1x128x128_S128x128
def wk1 : FVec Ideal S128x128 .f32 := shapeCast _ (extractStridedSlice S1x128x128 ![1, 0, 0] (V0 (Proc.devRef .tc main_arg4)) slices_S6x128x128_S1x128x128_1_0_0) shapeCasts_S1x128x128_S128x128
def wk2 : FVec Ideal S128x128 .f32 := shapeCast _ (extractStridedSlice S1x128x128 ![2, 0, 0] (V0 (Proc.devRef .tc main_arg4)) slices_S6x128x128_S1x128x128_2_0_0) shapeCasts_S1x128x128_S128x128
def wk3 : FVec Ideal S128x128 .f32 := shapeCast _ (extractStridedSlice S1x128x128 ![3, 0, 0] (V0 (Proc.devRef .tc main_arg4)) slices_S6x128x128_S1x128x128_3_0_0) shapeCasts_S1x128x128_S128x128
def wk4 : FVec Ideal S128x128 .f32 := shapeCast _ (extractStridedSlice S1x128x128 ![4, 0, 0] (V0 (Proc.devRef .tc main_arg4)) slices_S6x128x128_S1x128x128_4_0_0) shapeCasts_S1x128x128_S128x128
def wk5 : FVec Ideal S128x128 .f32 := shapeCast _ (extractStridedSlice S1x128x128 ![5, 0, 0] (V0 (Proc.devRef .tc main_arg4)) slices_S6x128x128_S1x128x128_5_0_0) shapeCasts_S1x128x128_S128x128

/-- A maximum-reduction of a vector to a scalar is at least every entry. -/
theorem le_reduce_max0 {N : Nat} (x : FVec Ideal ⟨1, ![N]⟩ .f32) (init : FVec Ideal ⟨0, ![]⟩ .f32)
    (h' : (⟨1, ![N]⟩ : Shape).ReducesTo [0] ⟨0, ![]⟩) (hu : 0 < (⟨0, ![]⟩ : Shape).numel) (i : Fin N) :
    x (ix1 i) ≤ Host.reduce (FloatOps.maximumf (F := Ideal) (φ := .f32)) x init h' hu ix0 := by
  have hf : (FloatOps.maximumf (F := Ideal) (φ := .f32)) = (max : EReal → EReal → EReal) := rfl
  rw [hf, Host.reduce_eq_fold max x init h' hu ix0, Finset.le_fold_max]
  exact Or.inr ⟨ix1 i, Finset.mem_filter.mpr ⟨Finset.mem_univ _, funext fun a => a.elim0⟩, le_rfl⟩

/-- The quotient c / (c * max r₁ r₂) of scalars, read at the one index. -/
theorem scale_eq (c r1 r2 : FVec Ideal S_ .f32) :
    Host.divf c (mulf c (maximumf r1 r2)) ix0 = Ideal.div (c ix0) (c ix0 * max (r1 ix0) (r2 ix0)) := rfl

theorem deg_apply (i : Fin 50000) :
    degA V0 (ix1 i) = 0 + ∑ j : Fin 800000, if (sndA V0 (ix1 j)).toInt = (i.val : Int) then eA V0 (ix1 j) else 0 := by
  show res_main_v2 (F := Ideal) V0 (ix1 i) = _
  unfold res_main_v2
  exact degree_apply _ _ _ (eA V0) (sndA V0) i

theorem scale_form : ∃ M : EReal, scaleA V0 ix0 = Ideal.div two (two * M)
    ∧ (∀ i : Fin 50000, degA V0 (ix1 i) ≤ M) ∧ (∀ j : Fin 800000, - eA V0 (ix1 j) ≤ M) := by
  refine ⟨max (Host.reduce (FloatOps.maximumf (F := Ideal) (φ := .f32)) (res_main_v2 (F := Ideal) V0) (constant (F := Ideal) S_ .f32 0xFF800000#32) reducesTo_S50000_S_d0 h_S_ ix0)
      (Host.reduce (FloatOps.maximumf (F := Ideal) (φ := .f32)) (Host.negf (eA V0)) (constant (F := Ideal) S_ .f32 0xFF800000#32) reducesTo_S800000_S_d0 h_S_ ix0), ?_, ?_, ?_⟩
  · show res_main_v8 (F := Ideal) V0 ix0 = _
    unfold res_main_v8
    exact scale_eq _ _ _
  · intro i
    exact le_max_of_le_left (le_reduce_max0 (res_main_v2 (F := Ideal) V0) _ reducesTo_S50000_S_d0 h_S_ i)
  · intro j
    exact le_max_of_le_right (le_reduce_max0 (Host.negf (eA V0)) _ reducesTo_S800000_S_d0 h_S_ j)

theorem v35_eq : res_main_v35 (F := Ideal) V0 = TL V0 (xA V0) := rfl
theorem v66_eq : res_main_v66 (F := Ideal) V0 = cheb V0 (res_main_v35 (F := Ideal) V0) (xA V0) := rfl
theorem v97_eq : res_main_v97 (F := Ideal) V0 = cheb V0 (res_main_v66 (F := Ideal) V0) (res_main_v35 (F := Ideal) V0) := rfl
theorem v128_eq : res_main_v128 (F := Ideal) V0 = cheb V0 (res_main_v97 (F := Ideal) V0) (res_main_v66 (F := Ideal) V0) := rfl

/-- The reference's Laplacian at an entry: scale * (degree * y - the weighted sum of the neighbours' features). -/
theorem TL_apply (y : FVec Ideal S50000x128 .f32) (i : Fin 50000) (k : Fin 128) :
    TL V0 y (ix2 i k) = scaleA V0 ix0 * (degA V0 (ix1 i) * y (ix2 i k)
      - (0 + ∑ j : Fin 800000, if (sndA V0 (ix1 j)).toInt = (i.val : Int)
          then eA V0 (ix1 j) * y (ix2 (Cert.Lib.EdgeAggregate.srcRow 50000 (by norm_num) 50000#32 (rcvA V0 (ix1 j))) k) else 0)) := by
  have hA : broadcastInDim S50000x128 ![] bcast_S_S50000x128 (scaleA V0) (ix2 i k) = scaleA V0 ix0 :=
    scalarBcast_apply _ _ _
  have hB : broadcastInDim S50000x128 ![0, 1] bcast_S50000x1_S50000x128_0_1
      (broadcastInDim S50000x1 ![0] bcast_S50000_S50000x1_0 (degA V0)) (ix2 i k) = degA V0 (ix1 i) :=
    (colBcast_apply _ _ i k).trans (vecCol_apply _ _ i 0)
  have hS := wagg_apply (N := 50000) (E := 800000) (C := 128) (by norm_num) 50000#32
    gather_S50000x128_S800000x1_S800000x128_1_0_n_n_0_1_1128_wf scatter_S50000x128_S800000x1_S800000x128_1_0_0_1_wf
    bcast_S_S800000 bcast_S800000_S800000x1_0 bcast_S800000x1_S800000x128_0_1 bcast_S_S50000x128
    (eA V0) y (sndA V0) (rcvA V0) i k
  unfold TL
  rw [mulf_apply, subf_apply, mulf_apply, hA, hB]
  exact congrArg (fun t : EReal => scaleA V0 ix0 * (degA V0 (ix1 i) * y (ix2 i k) - t)) hS

/-- One step of the recurrence at an entry. -/
theorem cheb_apply (y yp : FVec Ideal S50000x128 .f32) (i : Fin 50000) (k : Fin 128) :
    cheb V0 y yp (ix2 i k) = two * TL V0 y (ix2 i k) - yp (ix2 i k) := by
  unfold cheb
  rw [subf_apply, mulf_apply, scalarBcast_apply, constant_apply]

/-- The product of a feature array with a 128 × 128 weight block, at an entry. -/
abbrev dg (y : FVec Ideal S50000x128 .f32) (w : FVec Ideal S128x128 .f32) (i : Fin 50000) (q : Fin 128) : EReal :=
  Host.dotGeneral dot_S50000x128_S128x128_S50000x128_1_0_0_1_n_n none y w (ix2 i q)

/-- Row r of the [6, 128] bias table, sliced, cast to a vector, laid as a row and broadcast down the nodes,
    reads the table at (r, q). -/
theorem biasRow_apply (r : Nat) (hr : r < 6) (h : S6x128.Slices ![r, 0] S1x128) (i : Fin 50000) (q : Fin 128) :
    broadcastInDim S50000x128 ![0, 1] bcast_S1x128_S50000x128_0_1 (broadcastInDim S1x128 ![1] bcast_S128_S1x128_1
      (shapeCast S128 (extractStridedSlice S1x128 ![r, 0] (bsA V0) h) shapeCasts_S1x128_S128)) (ix2 i q)
      = bsA V0 (ix2 ⟨r, hr⟩ q) := by
  rw [rowBcast_apply, vecRow_apply, castRowVec_apply, sliceRow_apply r hr]

/-- The final bias vector laid as a row and broadcast down the nodes reads the vector at q. -/
theorem biasVec_apply (i : Fin 50000) (q : Fin 128) :
    broadcastInDim S50000x128 ![0, 1] bcast_S1x128_S50000x128_0_1 (broadcastInDim S1x128 ![1] bcast_S128_S1x128_1 (biasA V0)) (ix2 i q)
      = biasA V0 (ix1 q) := by
  rw [rowBcast_apply, vecRow_apply]

/-- The reference's result at an entry: six products with the weight blocks, the six bias rows and the final bias,
    added in the program's order. -/
theorem out_apply (i : Fin 50000) (q : Fin 128) :
    (addf (res_main_v168 (F := Ideal) V0) (broadcastInDim S50000x128 ![0, 1] bcast_S1x128_S50000x128_0_1
        (broadcastInDim S1x128 ![1] bcast_S128_S1x128_1 (biasA V0)))) (ix2 i q)
      = (((((((((((dg (xA V0) (wk0 V0) i q + bsA V0 (ix2 (0 : Fin 6) q))
          + dg (res_main_v35 (F := Ideal) V0) (wk1 V0) i q) + bsA V0 (ix2 (1 : Fin 6) q))
          + dg (res_main_v66 (F := Ideal) V0) (wk2 V0) i q) + bsA V0 (ix2 (2 : Fin 6) q))
          + dg (res_main_v97 (F := Ideal) V0) (wk3 V0) i q) + bsA V0 (ix2 (3 : Fin 6) q))
          + dg (res_main_v128 (F := Ideal) V0) (wk4 V0) i q) + bsA V0 (ix2 (4 : Fin 6) q))
          + dg (T5 V0) (wk5 V0) i q) + bsA V0 (ix2 (5 : Fin 6) q))
          + biasA V0 (ix1 q) := by
  have hb0 := biasRow_apply V0 0 (by norm_num) slices_S6x128_S1x128_0_0 i q
  have hb1 := biasRow_apply V0 1 (by norm_num) slices_S6x128_S1x128_1_0 i q
  have hb2 := biasRow_apply V0 2 (by norm_num) slices_S6x128_S1x128_2_0 i q
  have hb3 := biasRow_apply V0 3 (by norm_num) slices_S6x128_S1x128_3_0 i q
  have hb4 := biasRow_apply V0 4 (by norm_num) slices_S6x128_S1x128_4_0 i q
  have hb5 := biasRow_apply V0 5 (by norm_num) slices_S6x128_S1x128_5_0 i q
  have hbias := biasVec_apply V0 i q
  unfold res_main_v168
  simp only [addf_apply]
  rw [hb0, hb1, hb2, hb3, hb4, hb5, hbias]
  rfl

end Cert.ReferenceIdeal.RefValue

end
-- ==== Proof.ChebStep.lean ====
/-
  One step of the Chebyshev recursion in the two spellings of the graph Laplacian matvec.

  With the scale either a real number or infinite only when every degree and every landing edge weight vanishes,
  and real edge weights: if the two programs' current and previous terms agree and are real, then their next terms
  `2 · L(T_k) − T_{k−1}` — one through `Lker` (scale folded into the degree and the weights), one through `Lref` (scale
  applied last) — agree and are real. The first step is `T_1 = L(T_0)`.
-/
import proofs.«158343_j26250840113269_2_alg».proof.Proof.LibChebLaw
import Idealize.ShloMosaic.Lib.ValueIdx

noncomputable section

namespace Cert.Cheb.Step

open Idealize.ShloMosaic Idealize.ShloMosaic.ValueIdx Cert.Cheb.Law

abbrev Mat := (⟨2, ![50000, 128]⟩ : Shape).Idx → EReal

/-- A matrix as a function of row and column. -/
abbrev rc (y : Mat) (i : Fin 50000) (k : Fin 128) : EReal := y (ix2 i k)

variable {J : Type} [Fintype J] (lands : J → Fin 50000 → Prop) [∀ j i, Decidable (lands j i)] (src : J → Fin 50000)
variable {s : EReal} {wt : J → EReal}

theorem first (hcase : (∃ r : ℝ, s = r) ∨ ((∀ i, degr lands wt i = 0) ∧ ∀ j i, lands j i → wt j = 0))
    (he : ∀ j, ∃ r : ℝ, wt j = r) (x kn rn : Mat) (hx : ∀ i k, ∃ r : ℝ, x (ix2 i k) = r)
    (hk : ∀ i k, kn (ix2 i k) = Lker lands src s wt (rc x) i k)
    (hr : ∀ i k, rn (ix2 i k) = Lref lands src s wt (rc x) i k) :
    kn = rn ∧ ∀ i k, ∃ r : ℝ, rn (ix2 i k) = r := by
  obtain ⟨hag, hre⟩ := L_agree lands src hcase he (y := rc x) hx
  refine ⟨funext fun idx => ?_, fun i k => ?_⟩
  · obtain ⟨p, q, rfl⟩ : ∃ (p : Fin 50000) (q : Fin 128), idx = ix2 p q := ⟨idx 0, idx 1, eq_ix2 idx⟩
    rw [hk, hr, hag]
  · rw [hr]; exact hre i k

theorem next (two : EReal) (h2 : two = ((2 : ℝ) : EReal))
    (hcase : (∃ r : ℝ, s = r) ∨ ((∀ i, degr lands wt i = 0) ∧ ∀ j i, lands j i → wt j = 0))
    (he : ∀ j, ∃ r : ℝ, wt j = r) (kc kp rcur rp kn rn : Mat)
    (hc : kc = rcur) (hp : kp = rp)
    (hrc : ∀ i k, ∃ r : ℝ, rcur (ix2 i k) = r) (hrp : ∀ i k, ∃ r : ℝ, rp (ix2 i k) = r)
    (hk : ∀ i k, kn (ix2 i k) = two * Lker lands src s wt (rc kc) i k - kp (ix2 i k))
    (hr : ∀ i k, rn (ix2 i k) = two * Lref lands src s wt (rc rcur) i k - rp (ix2 i k)) :
    kn = rn ∧ ∀ i k, ∃ r : ℝ, rn (ix2 i k) = r := by
  subst hc hp
  obtain ⟨hag, hre⟩ := L_agree lands src hcase he (y := rc kc) hrc
  refine ⟨funext fun idx => ?_, fun i k => ?_⟩
  · obtain ⟨p, q, rfl⟩ : ∃ (p : Fin 50000) (q : Fin 128), idx = ix2 p q := ⟨idx 0, idx 1, eq_ix2 idx⟩
    rw [hk, hr, hag]
  · rw [hr]; exact real_cheb two _ _ h2 (hre i k) (hrp i k)

end Cert.Cheb.Step

end
-- ==== Proof.Bridge.lean ====
/-
  The idealized kernel and the idealized reference compute one array, on the extended reals.

  Both compute the degree `d`, the scale `s = 2 / (2 · max(max d, max (−e)))` and the Chebyshev terms
  `T₁ = L(T₀)`, `T_{k+1} = 2 · L(T_k) − T_{k−1}` of the scaled graph Laplacian `L`, and the output
  `∑_k (T_k · W_k + b_k) + bias`. The reference applies the scale last, `L(y) = s · (d · y − agg_e(y))`; the kernel folds it
  into the degree and the edge weights, `L(y) = (s · d) · y − agg_{s·e}(y)`. For real node features and edge weights the
  two agree: either `s` is real and this is distributivity in ℝ, or `s` is infinite, which forces every degree and every
  landing edge weight to vanish and both spellings to be 0. So the terms agree one after the other, the products and
  bias rows are the same sums, and the kernel's last bias row `b₅ + bias` regroups the reference's two last additions.
-/
import proofs.«158343_j26250840113269_2_alg».proof.Proof.KChainSteps
import proofs.«158343_j26250840113269_2_alg».proof.Proof.KChainRead
import proofs.«158343_j26250840113269_2_alg».proof.Proof.RefValue
import proofs.«158343_j26250840113269_2_alg».proof.Proof.ChebStep

set_option maxRecDepth 16384

noncomputable section

open scoped BigOperators

namespace Cert.Cheb.Bridge

open Idealize.ShloMosaic Idealize.ShloMosaic.ValueIdx Idealize.SL.Sem Idealize.ShloMosaic.StableHlo
open Cert.Cheb.Law Cert.Cheb.Step Cert.KernelIdeal.Chain

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V0 : Valuation Cert.ReferenceIdeal.τ Cert.ReferenceIdeal.sig (Elt Ideal))

/-- The reference's Chebyshev terms, as matrices of extended reals. -/
abbrev rT1 : Mat := Cert.ReferenceIdeal.Value.res_main_v35 (F := Ideal) V0
abbrev rT2 : Mat := Cert.ReferenceIdeal.Value.res_main_v66 (F := Ideal) V0
abbrev rT3 : Mat := Cert.ReferenceIdeal.Value.res_main_v97 (F := Ideal) V0
abbrev rT4 : Mat := Cert.ReferenceIdeal.Value.res_main_v128 (F := Ideal) V0
abbrev rT5 : Mat := Cert.ReferenceIdeal.RefValue.T5 V0

/-- The two programs' degree vectors are one: the same sum of landing edge weights at every node. -/
theorem deg_eq (h0 : Cert.ReferenceIdeal.RefValue.xA V0 = A0 m c) (h1 : Cert.ReferenceIdeal.RefValue.eA V0 = A1 m c) (h2 : Cert.ReferenceIdeal.RefValue.sndA V0 = A2 m c) (h3 : Cert.ReferenceIdeal.RefValue.rcvA V0 = A3 m c) : Cert.ReferenceIdeal.RefValue.degA V0 = degT (A2 m c) (A1 m c) := by
  funext idx
  obtain ⟨i, rfl⟩ : ∃ i : Fin 50000, idx = ix1 i := ⟨idx 0, eq_ix1 idx⟩
  rw [Cert.ReferenceIdeal.RefValue.deg_apply, degT_apply, h1, h2]
  unfold degr
  with_reducible rfl

/-- … and so are their scales. -/
theorem scale_eq (h0 : Cert.ReferenceIdeal.RefValue.xA V0 = A0 m c) (h1 : Cert.ReferenceIdeal.RefValue.eA V0 = A1 m c) (h2 : Cert.ReferenceIdeal.RefValue.sndA V0 = A2 m c) (h3 : Cert.ReferenceIdeal.RefValue.rcvA V0 = A3 m c) : Cert.ReferenceIdeal.RefValue.scaleA V0 ix0 = scaleT (A2 m c) (A1 m c) ix0 := by
  have hd : Cert.ReferenceIdeal.Value.res_main_v2 (F := Ideal) V0 = degT (A2 m c) (A1 m c) := deg_eq m c V0 h0 h1 h2 h3
  have he : V0 (Proc.devRef .tc Cert.ReferenceIdeal.main_arg1) = A1 m c := h1
  show Cert.ReferenceIdeal.Value.res_main_v8 (F := Ideal) V0 ix0 = _
  unfold Cert.ReferenceIdeal.Value.res_main_v8 scaleT
  rw [hd, he]

/-- The scale is a real number, or every degree and every landing edge weight vanishes. -/
theorem scale_case (h0 : Cert.ReferenceIdeal.RefValue.xA V0 = A0 m c) (h1 : Cert.ReferenceIdeal.RefValue.eA V0 = A1 m c) (h2 : Cert.ReferenceIdeal.RefValue.sndA V0 = A2 m c) (h3 : Cert.ReferenceIdeal.RefValue.rcvA V0 = A3 m c) (he : ∀ j, ∃ r : ℝ, wtOf (A1 m c) j = r) : (∃ r : ℝ, scaleT (A2 m c) (A1 m c) ix0 = r) ∨ ((∀ i, degr (landsOf (A2 m c)) (wtOf (A1 m c)) i = 0) ∧ ∀ j i, landsOf (A2 m c) j i → wtOf (A1 m c) j = 0) := by
  obtain ⟨M, hM, hd, hm⟩ := Cert.ReferenceIdeal.RefValue.scale_form V0
  rw [scale_eq m c V0 h0 h1 h2 h3] at hM
  rw [hM]
  refine scale_cases (landsOf (A2 m c)) Cert.ReferenceIdeal.RefValue.two M two_real (fun i => ?_) (fun j => ?_) he
  · have h := hd i
    rw [deg_eq m c V0 h0 h1 h2 h3, degT_apply] at h
    exact h
  · have h := hm j
    rw [h1] at h
    exact h

/-- The reference's Laplacian step at an entry is the scale-last spelling. -/
theorem ref_TL (h0 : Cert.ReferenceIdeal.RefValue.xA V0 = A0 m c) (h1 : Cert.ReferenceIdeal.RefValue.eA V0 = A1 m c) (h2 : Cert.ReferenceIdeal.RefValue.sndA V0 = A2 m c) (h3 : Cert.ReferenceIdeal.RefValue.rcvA V0 = A3 m c) (y : Mat) (i : Fin 50000) (k : Fin 128) :
    Cert.ReferenceIdeal.RefValue.TL V0 y (ix2 i k) = Lref (landsOf (A2 m c)) (srcOf (A3 m c)) (scaleT (A2 m c) (A1 m c) ix0) (wtOf (A1 m c)) (rc y) i k := by
  rw [Cert.ReferenceIdeal.RefValue.TL_apply, scale_eq m c V0 h0 h1 h2 h3, deg_eq m c V0 h0 h1 h2 h3, degT_apply, h1, h2, h3]
  unfold Lref aggr
  with_reducible rfl

/-! ## The Chebyshev terms agree, one after the other -/

theorem term1 (h0 : Cert.ReferenceIdeal.RefValue.xA V0 = A0 m c) (h1 : Cert.ReferenceIdeal.RefValue.eA V0 = A1 m c) (h2 : Cert.ReferenceIdeal.RefValue.sndA V0 = A2 m c) (h3 : Cert.ReferenceIdeal.RefValue.rcvA V0 = A3 m c) (hcase : (∃ r : ℝ, scaleT (A2 m c) (A1 m c) ix0 = r) ∨ ((∀ i, degr (landsOf (A2 m c)) (wtOf (A1 m c)) i = 0) ∧ ∀ j i, landsOf (A2 m c) j i → wtOf (A1 m c) j = 0)) (he : ∀ j, ∃ r : ℝ, wtOf (A1 m c) j = r)
    (hx : ∀ i k, ∃ r : ℝ, A0 m c (ix2 i k) = r) :
    T1 m ρ c = rT1 V0 ∧ ∀ i k, ∃ r : ℝ, rT1 V0 (ix2 i k) = r :=
  Step.first (landsOf (A2 m c)) (srcOf (A3 m c)) hcase he (A0 m c) (T1 m ρ c) (rT1 V0) hx
    (fun i k => (T1_apply m ρ c i k).trans (lap_apply (A2 m c) (A3 m c) (A1 m c) (A0 m c) i k))
    (fun i k => by
      show Cert.ReferenceIdeal.Value.res_main_v35 (F := Ideal) V0 (ix2 i k) = _
      rw [Cert.ReferenceIdeal.RefValue.v35_eq, h0]
      exact ref_TL m c V0 h0 h1 h2 h3 (A0 m c) i k)

theorem term2 (h0 : Cert.ReferenceIdeal.RefValue.xA V0 = A0 m c) (h1 : Cert.ReferenceIdeal.RefValue.eA V0 = A1 m c) (h2 : Cert.ReferenceIdeal.RefValue.sndA V0 = A2 m c) (h3 : Cert.ReferenceIdeal.RefValue.rcvA V0 = A3 m c) (hcase : (∃ r : ℝ, scaleT (A2 m c) (A1 m c) ix0 = r) ∨ ((∀ i, degr (landsOf (A2 m c)) (wtOf (A1 m c)) i = 0) ∧ ∀ j i, landsOf (A2 m c) j i → wtOf (A1 m c) j = 0)) (he : ∀ j, ∃ r : ℝ, wtOf (A1 m c) j = r)
    (hc : T1 m ρ c = rT1 V0) (hp : A0 m c = A0 m c)
    (hrc : ∀ i k, ∃ r : ℝ, rT1 V0 (ix2 i k) = r) (hrp : ∀ i k, ∃ r : ℝ, A0 m c (ix2 i k) = r) :
    T2 m ρ c = rT2 V0 ∧ ∀ i k, ∃ r : ℝ, rT2 V0 (ix2 i k) = r :=
  Step.next (landsOf (A2 m c)) (srcOf (A3 m c)) Cert.ReferenceIdeal.RefValue.two two_real hcase he (T1 m ρ c) (A0 m c) (rT1 V0) (A0 m c) (T2 m ρ c) (rT2 V0) hc hp hrc hrp
    (fun i k => by
      rw [T2_apply, lap_apply (A2 m c) (A3 m c) (A1 m c) (T1 m ρ c) i k])
    (fun i k => by
      show Cert.ReferenceIdeal.Value.res_main_v66 (F := Ideal) V0 (ix2 i k) = _
      rw [Cert.ReferenceIdeal.RefValue.v66_eq, Cert.ReferenceIdeal.RefValue.cheb_apply, ref_TL m c V0 h0 h1 h2 h3 (rT1 V0) i k, h0])

theorem term3 (h0 : Cert.ReferenceIdeal.RefValue.xA V0 = A0 m c) (h1 : Cert.ReferenceIdeal.RefValue.eA V0 = A1 m c) (h2 : Cert.ReferenceIdeal.RefValue.sndA V0 = A2 m c) (h3 : Cert.ReferenceIdeal.RefValue.rcvA V0 = A3 m c) (hcase : (∃ r : ℝ, scaleT (A2 m c) (A1 m c) ix0 = r) ∨ ((∀ i, degr (landsOf (A2 m c)) (wtOf (A1 m c)) i = 0) ∧ ∀ j i, landsOf (A2 m c) j i → wtOf (A1 m c) j = 0)) (he : ∀ j, ∃ r : ℝ, wtOf (A1 m c) j = r)
    (hc : T2 m ρ c = rT2 V0) (hp : T1 m ρ c = rT1 V0)
    (hrc : ∀ i k, ∃ r : ℝ, rT2 V0 (ix2 i k) = r) (hrp : ∀ i k, ∃ r : ℝ, rT1 V0 (ix2 i k) = r) :
    T3 m ρ c = rT3 V0 ∧ ∀ i k, ∃ r : ℝ, rT3 V0 (ix2 i k) = r :=
  Step.next (landsOf (A2 m c)) (srcOf (A3 m c)) Cert.ReferenceIdeal.RefValue.two two_real hcase he (T2 m ρ c) (T1 m ρ c) (rT2 V0) (rT1 V0) (T3 m ρ c) (rT3 V0) hc hp hrc hrp
    (fun i k => by
      rw [T3_apply, lap_apply (A2 m c) (A3 m c) (A1 m c) (T2 m ρ c) i k])
    (fun i k => by
      show Cert.ReferenceIdeal.Value.res_main_v97 (F := Ideal) V0 (ix2 i k) = _
      rw [Cert.ReferenceIdeal.RefValue.v97_eq, Cert.ReferenceIdeal.RefValue.cheb_apply, ref_TL m c V0 h0 h1 h2 h3 (rT2 V0) i k])

theorem term4 (h0 : Cert.ReferenceIdeal.RefValue.xA V0 = A0 m c) (h1 : Cert.ReferenceIdeal.RefValue.eA V0 = A1 m c) (h2 : Cert.ReferenceIdeal.RefValue.sndA V0 = A2 m c) (h3 : Cert.ReferenceIdeal.RefValue.rcvA V0 = A3 m c) (hcase : (∃ r : ℝ, scaleT (A2 m c) (A1 m c) ix0 = r) ∨ ((∀ i, degr (landsOf (A2 m c)) (wtOf (A1 m c)) i = 0) ∧ ∀ j i, landsOf (A2 m c) j i → wtOf (A1 m c) j = 0)) (he : ∀ j, ∃ r : ℝ, wtOf (A1 m c) j = r)
    (hc : T3 m ρ c = rT3 V0) (hp : T2 m ρ c = rT2 V0)
    (hrc : ∀ i k, ∃ r : ℝ, rT3 V0 (ix2 i k) = r) (hrp : ∀ i k, ∃ r : ℝ, rT2 V0 (ix2 i k) = r) :
    T4 m ρ c = rT4 V0 ∧ ∀ i k, ∃ r : ℝ, rT4 V0 (ix2 i k) = r :=
  Step.next (landsOf (A2 m c)) (srcOf (A3 m c)) Cert.ReferenceIdeal.RefValue.two two_real hcase he (T3 m ρ c) (T2 m ρ c) (rT3 V0) (rT2 V0) (T4 m ρ c) (rT4 V0) hc hp hrc hrp
    (fun i k => by
      rw [T4_apply, lap_apply (A2 m c) (A3 m c) (A1 m c) (T3 m ρ c) i k])
    (fun i k => by
      show Cert.ReferenceIdeal.Value.res_main_v128 (F := Ideal) V0 (ix2 i k) = _
      rw [Cert.ReferenceIdeal.RefValue.v128_eq, Cert.ReferenceIdeal.RefValue.cheb_apply, ref_TL m c V0 h0 h1 h2 h3 (rT3 V0) i k])

theorem term5 (h0 : Cert.ReferenceIdeal.RefValue.xA V0 = A0 m c) (h1 : Cert.ReferenceIdeal.RefValue.eA V0 = A1 m c) (h2 : Cert.ReferenceIdeal.RefValue.sndA V0 = A2 m c) (h3 : Cert.ReferenceIdeal.RefValue.rcvA V0 = A3 m c) (hcase : (∃ r : ℝ, scaleT (A2 m c) (A1 m c) ix0 = r) ∨ ((∀ i, degr (landsOf (A2 m c)) (wtOf (A1 m c)) i = 0) ∧ ∀ j i, landsOf (A2 m c) j i → wtOf (A1 m c) j = 0)) (he : ∀ j, ∃ r : ℝ, wtOf (A1 m c) j = r)
    (hc : T4 m ρ c = rT4 V0) (hp : T3 m ρ c = rT3 V0)
    (hrc : ∀ i k, ∃ r : ℝ, rT4 V0 (ix2 i k) = r) (hrp : ∀ i k, ∃ r : ℝ, rT3 V0 (ix2 i k) = r) :
    T5 m ρ c = rT5 V0 ∧ ∀ i k, ∃ r : ℝ, rT5 V0 (ix2 i k) = r :=
  Step.next (landsOf (A2 m c)) (srcOf (A3 m c)) Cert.ReferenceIdeal.RefValue.two two_real hcase he (T4 m ρ c) (T3 m ρ c) (rT4 V0) (rT3 V0) (T5 m ρ c) (rT5 V0) hc hp hrc hrp
    (fun i k => by
      rw [T5_apply, lap_apply (A2 m c) (A3 m c) (A1 m c) (T4 m ρ c) i k])
    (fun i k => by
      show Cert.ReferenceIdeal.RefValue.cheb V0 (Cert.ReferenceIdeal.Value.res_main_v128 (F := Ideal) V0) (Cert.ReferenceIdeal.Value.res_main_v97 (F := Ideal) V0) (ix2 i k) = _
      rw [Cert.ReferenceIdeal.RefValue.cheb_apply, ref_TL m c V0 h0 h1 h2 h3 (rT4 V0) i k])

end Cert.Cheb.Bridge

end
-- ==== Proof.BridgeOut.lean ====
/-
  The two outputs are one array: the kernel's last accumulator against the reference's sum of products and bias rows.

  Given that the Chebyshev terms agree, both are `∑_k (T_k · W_k + b_k)` accumulated in the same order with the same weight
  matrices and bias rows; the kernel adds `b₅ + bias` in one step where the reference adds `b₅` and then `bias`:
  associativity of addition on the extended reals.
-/
import proofs.«158343_j26250840113269_2_alg».proof.Proof.Bridge

set_option maxRecDepth 16384

noncomputable section

open scoped BigOperators

namespace Cert.Cheb.Bridge

open Idealize.ShloMosaic Idealize.ShloMosaic.ValueIdx Idealize.SL.Sem Idealize.ShloMosaic.StableHlo
open Cert.Cheb.Law Cert.Cheb.Step Cert.KernelIdeal.Chain

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (V0 : Valuation Cert.ReferenceIdeal.τ Cert.ReferenceIdeal.sig (Elt Ideal))

/-- The reference's record of the product's dimension numbers is the plain M×K by K×N one. -/
theorem dot_eq : Cert.ReferenceIdeal.dot_S50000x128_S128x128_S50000x128_1_0_0_1_n_n = DotDims.plain 50000 128 128 := rfl

/-- The weight matrix of order 0 is cut the same way in both programs. -/
theorem wk0_eq (h4 : Cert.ReferenceIdeal.RefValue.wtsA V0 = A4 m c) : Cert.ReferenceIdeal.RefValue.wk0 V0 = wT0 (A4 m c) := by
  have h : V0 (Proc.devRef .tc Cert.ReferenceIdeal.main_arg4) = A4 m c := h4
  unfold Cert.ReferenceIdeal.RefValue.wk0 wT0
  rw [h]

/-- The weight matrix of order 1 is cut the same way in both programs. -/
theorem wk1_eq (h4 : Cert.ReferenceIdeal.RefValue.wtsA V0 = A4 m c) : Cert.ReferenceIdeal.RefValue.wk1 V0 = wT1 (A4 m c) := by
  have h : V0 (Proc.devRef .tc Cert.ReferenceIdeal.main_arg4) = A4 m c := h4
  unfold Cert.ReferenceIdeal.RefValue.wk1 wT1
  rw [h]

/-- The weight matrix of order 2 is cut the same way in both programs. -/
theorem wk2_eq (h4 : Cert.ReferenceIdeal.RefValue.wtsA V0 = A4 m c) : Cert.ReferenceIdeal.RefValue.wk2 V0 = wT2 (A4 m c) := by
  have h : V0 (Proc.devRef .tc Cert.ReferenceIdeal.main_arg4) = A4 m c := h4
  unfold Cert.ReferenceIdeal.RefValue.wk2 wT2
  rw [h]

/-- The weight matrix of order 3 is cut the same way in both programs. -/
theorem wk3_eq (h4 : Cert.ReferenceIdeal.RefValue.wtsA V0 = A4 m c) : Cert.ReferenceIdeal.RefValue.wk3 V0 = wT3 (A4 m c) := by
  have h : V0 (Proc.devRef .tc Cert.ReferenceIdeal.main_arg4) = A4 m c := h4
  unfold Cert.ReferenceIdeal.RefValue.wk3 wT3
  rw [h]

/-- The weight matrix of order 4 is cut the same way in both programs. -/
theorem wk4_eq (h4 : Cert.ReferenceIdeal.RefValue.wtsA V0 = A4 m c) : Cert.ReferenceIdeal.RefValue.wk4 V0 = wT4 (A4 m c) := by
  have h : V0 (Proc.devRef .tc Cert.ReferenceIdeal.main_arg4) = A4 m c := h4
  unfold Cert.ReferenceIdeal.RefValue.wk4 wT4
  rw [h]

/-- The weight matrix of order 5 is cut the same way in both programs. -/
theorem wk5_eq (h4 : Cert.ReferenceIdeal.RefValue.wtsA V0 = A4 m c) : Cert.ReferenceIdeal.RefValue.wk5 V0 = wT5 (A4 m c) := by
  have h : V0 (Proc.devRef .tc Cert.ReferenceIdeal.main_arg4) = A4 m c := h4
  unfold Cert.ReferenceIdeal.RefValue.wk5 wT5
  rw [h]

/-- The outputs agree once the Chebyshev terms do. -/
theorem out_eq (h0 : Cert.ReferenceIdeal.RefValue.xA V0 = A0 m c) (h1 : Cert.ReferenceIdeal.RefValue.eA V0 = A1 m c) (h2 : Cert.ReferenceIdeal.RefValue.sndA V0 = A2 m c) (h3 : Cert.ReferenceIdeal.RefValue.rcvA V0 = A3 m c) (h4 : Cert.ReferenceIdeal.RefValue.wtsA V0 = A4 m c) (h5 : Cert.ReferenceIdeal.RefValue.bsA V0 = A5 m c) (h6 : Cert.ReferenceIdeal.RefValue.biasA V0 = A6 m c)
    (e1 : T1 m ρ c = rT1 V0) (e2 : T2 m ρ c = rT2 V0) (e3 : T3 m ρ c = rT3 V0) (e4 : T4 m ρ c = rT4 V0) (e5 : T5 m ρ c = rT5 V0) :
    (addf (Cert.ReferenceIdeal.Value.res_main_v168 (F := Ideal) V0) (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 (Cert.ReferenceIdeal.RefValue.biasA V0))) : Mat) = O5 m ρ c := by
  funext idx
  obtain ⟨i, q, rfl⟩ : ∃ (i : Fin 50000) (q : Fin 128), idx = ix2 i q := ⟨idx 0, idx 1, eq_ix2 idx⟩
  rw [Cert.ReferenceIdeal.RefValue.out_apply, O5_apply, O4_apply, O3_apply, O2_apply, O1_apply, O0_apply,
    bT5_apply, bT4_apply, bT3_apply, bT2_apply, bT1_apply, bT0_apply, e1, e2, e3, e4, e5, h0, h5, h6,
    wk0_eq m c V0 h4, wk1_eq m c V0 h4, wk2_eq m c V0 h4, wk3_eq m c V0 h4, wk4_eq m c V0 h4, wk5_eq m c V0 h4]
  unfold Cert.ReferenceIdeal.RefValue.dg
  rw [dot_eq, add_assoc]

/-- THE VALUE: for real node features and edge weights, and arguments that agree, the reference's result array is the
    kernel's. -/
theorem value_eq (h0 : Cert.ReferenceIdeal.RefValue.xA V0 = A0 m c) (h1 : Cert.ReferenceIdeal.RefValue.eA V0 = A1 m c) (h2 : Cert.ReferenceIdeal.RefValue.sndA V0 = A2 m c) (h3 : Cert.ReferenceIdeal.RefValue.rcvA V0 = A3 m c) (h4 : Cert.ReferenceIdeal.RefValue.wtsA V0 = A4 m c) (h5 : Cert.ReferenceIdeal.RefValue.bsA V0 = A5 m c) (h6 : Cert.ReferenceIdeal.RefValue.biasA V0 = A6 m c)
    (hx : ∀ i k, ∃ r : ℝ, A0 m c (ix2 i k) = r) (he : ∀ j, ∃ r : ℝ, wtOf (A1 m c) j = r) :
    (addf (Cert.ReferenceIdeal.Value.res_main_v168 (F := Ideal) V0) (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 (Cert.ReferenceIdeal.RefValue.biasA V0))) : Mat) = O5 m ρ c := by
  have hcase := scale_case m c V0 h0 h1 h2 h3 he
  obtain ⟨e1, r1⟩ := term1 m ρ c V0 h0 h1 h2 h3 hcase he hx
  obtain ⟨e2, r2⟩ := term2 m ρ c V0 h0 h1 h2 h3 hcase he e1 rfl r1 hx
  obtain ⟨e3, r3⟩ := term3 m ρ c V0 h0 h1 h2 h3 hcase he e2 e1 r2 r1
  obtain ⟨e4, r4⟩ := term4 m ρ c V0 h0 h1 h2 h3 hcase he e3 e2 r3 r2
  obtain ⟨e5, -⟩ := term5 m ρ c V0 h0 h1 h2 h3 hcase he e4 e3 r4 r3
  exact out_eq m ρ c V0 h0 h1 h2 h3 h4 h5 h6 e1 e2 e3 e4 e5

end Cert.Cheb.Bridge

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.PreReal.lean ====
/-
  The "every float input is finite" precondition, opened for the two arguments whose finiteness the proof uses:
  every entry of the node features and every edge weight is a real number.

  The precondition is one bit: the conjunction, over the five float arguments, of `all (|x| < +inf)`. It being 1
  makes each conjunct 1, each reduction's 1 makes every elementwise test 1, and `|a| < +inf` on the extended reals
  leaves only the real numbers.
-/
import proofs.«158343_j26250840113269_2_alg».proof.Proof.Gen.Pre_finite_inputs
import proofs.«158343_j26250840113269_2_alg».proof.Proof.LibFiniteEntry
import Idealize.ShloMosaic.Lib.ValueIdx
import Idealize.ShloMosaic.Lib.Affine

noncomputable section

namespace Cert.Cheb.PreReal

open Idealize.ShloMosaic Idealize.ShloMosaic.ValueIdx Cert.Pre_finite_inputs Cert.Pre_finite_inputs.Gen Cert.Lib.FiniteEntry

theorem nodes_edges_real (a0 : FVec Ideal S50000x128 .f32) (a1 : FVec Ideal S800000 .f32) (a2 a3 : IVec S800000 32)
    (a4 : FVec Ideal S6x128x128 .f32) (a5 : FVec Ideal S6x128 .f32) (a6 : FVec Ideal S128 .f32)
    (h : Cert.Pre_finite_inputs.fn (F := Ideal) a0 a1 a2 a3 a4 a5 a6 = fun _ => 1#1) :
    (∀ i : S50000x128.Idx, ∃ r : ℝ, a0 i = (r : EReal)) ∧ (∀ j : S800000.Idx, ∃ r : ℝ, a1 j = (r : EReal)) := by
  have h0 := congrFun h ix0
  dsimp only [Cert.Pre_finite_inputs.fn, Cert.Pre_finite_inputs.fn_part1] at h0
  obtain ⟨h1, -⟩ := IntOp.andi_eq_one.mp h0
  obtain ⟨h2, -⟩ := IntOp.andi_eq_one.mp h1
  obtain ⟨h3, -⟩ := IntOp.andi_eq_one.mp h2
  obtain ⟨hx, he⟩ := IntOp.andi_eq_one.mp h3
  exact ⟨fun i => entry_real _ a0 i (Host.reduce_andi_all _ _ _ _ ix0 hx i),
    fun j => entry_real _ a1 j (Host.reduce_andi_all _ _ _ _ ix0 he j)⟩

end Cert.Cheb.PreReal

end
-- ==== Proof.lean ====
/-
  The certificate of a Chebyshev graph convolution: six pipelined kernels (one per polynomial order: a row-blocked
  Laplacian combine, a matrix product with the order's weights, a bias row, accumulated in place) among the host's
  gathers and scatter-adds, against the plain reference.

  Frames: the two kernel programs' frames are the generated ones; the reference has no kernel, and its frame is its run with
  the result dropped. The idealization rewrote nothing. The value: at the ideal instance the kernel's result array is the
  last region's accumulator, read back through the six regions and the host stretches between them to the launch contents;
  the reference's is its operations' composed term. They are one array because the kernel's scale-folded Laplacian
  `(s · d) · y − agg_{s·e}(y)` is the reference's `s · (d · y − agg_e(y))` on real data (and both vanish where the scale is
  infinite), the row-blocked products are rows of the whole products, and the final `b₅ + bias` only regroups a sum. The
  precondition is used for exactly two arguments: the node features and the edge weights are real numbers.
-/
import proofs.«158343_j26250840113269_2_alg».proof.Defs
import proofs.«158343_j26250840113269_2_alg».proof.Proof.Gen.Kernel
import proofs.«158343_j26250840113269_2_alg».proof.Proof.Gen.Kernel.Skeleton
import proofs.«158343_j26250840113269_2_alg».proof.Proof.Gen.Kernel.Launch
import proofs.«158343_j26250840113269_2_alg».proof.Proof.Gen.Kernel.Points
import proofs.«158343_j26250840113269_2_alg».proof.Proof.Gen.Kernel.Frame
import proofs.«158343_j26250840113269_2_alg».proof.Proof.Gen.KernelIdeal
import proofs.«158343_j26250840113269_2_alg».proof.Proof.Gen.KernelIdeal.Skeleton
import proofs.«158343_j26250840113269_2_alg».proof.Proof.Gen.KernelIdeal.Launch
import proofs.«158343_j26250840113269_2_alg».proof.Proof.Gen.KernelIdeal.Points
import proofs.«158343_j26250840113269_2_alg».proof.Proof.Gen.KernelIdeal.Frame
import proofs.«158343_j26250840113269_2_alg».proof.Proof.Gen.ReferenceIdeal
import proofs.«158343_j26250840113269_2_alg».proof.Proof.Gen.ReferenceIdeal.Run
import proofs.«158343_j26250840113269_2_alg».proof.Proof.Gen.Pre_finite_inputs
import proofs.«158343_j26250840113269_2_alg».proof.Proof.KernelRun
import proofs.«158343_j26250840113269_2_alg».proof.Proof.BridgeOut
import proofs.«158343_j26250840113269_2_alg».proof.Proof.PreReal
import Idealize.ShloMosaic.Adequacy
import Idealize.ShloMosaic.Init

set_option maxRecDepth 16384

noncomputable section

namespace Cert.Proof

open Idealize.ShloMosaic Idealize.SL.Sem Idealize.ShloMosaic.StableHlo Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs run, and end with one result array. -/
theorem algebraic : Cert.algebraic_KernelIdeal_ReferenceIdeal := by
  intro m ρ m' ρ' hpre hagree
  refine ⟨fun c => Cert.KernelIdeal.Gen.W12 m ρ c (Proc.devRef .tc Cert.KernelIdeal.main_v119_1),
    Cert.KernelIdeal.RunValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6⟩ := hagree c
  obtain ⟨hx, he⟩ := Cert.Cheb.PreReal.nodes_edges_real _ _ _ _ _ _ _ (hpre c)
  exact Cert.Cheb.Bridge.value_eq m ρ c (launchContents m' c) g0 g1 g2 g3 g4 g5 g6
    (fun i k => hx (ix2 i k)) (fun j => he (ix1 j))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
